-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_v33 : IVec S_ 1) : IVec S_ 1 :=
  let main_v34 : IVec S1x800000 32 := (extractStridedSlice S1x800000 ![0, 0] · slices_S2x800000_S1x800000_0_0) main_arg1
  let main_v35 : IVec S800000 32 := shapeCast S800000 main_v34 shapeCasts_S1x800000_S800000
  let main_c_12 : IVec S_ 32 := constantI S_ 32 0#32
  let main_v36 : IVec S800000 32 := broadcastInDim S800000 ![] bcast_S_S800000 main_c_12
  let main_v37 : IVec S800000 1 := cmpi .sge main_v35 main_v36
  let main_v38 : IVec S1x800000 32 := (extractStridedSlice S1x800000 ![0, 0] · slices_S2x800000_S1x800000_0_0) main_arg1
  let main_v39 : IVec S800000 32 := shapeCast S800000 main_v38 shapeCasts_S1x800000_S800000
  let main_c_13 : IVec S_ 32 := constantI S_ 32 50000#32
  let main_v40 : IVec S800000 32 := broadcastInDim S800000 ![] bcast_S_S800000 main_c_13
  let main_v41 : IVec S800000 1 := cmpi .slt main_v39 main_v40
  let main_v42 : IVec S800000 1 := andi main_v37 main_v41
  let main_c_14 : IVec S_ 1 := constantI S_ 1 1#1
  let main_v43 : IVec S_ 1 := (fun x v => Host.reduce IntOp.andi x v reducesTo_S800000_S_d0 h_S_) main_v42 main_c_14
  let main_v44 : IVec S_ 1 := andi main_v33 main_v43
  main_v44

def fn_part1 {F : FTy → Type} [FloatOps F] (main_arg1 : IVec S2x800000 32) (main_arg5 : FVec F S128x64 .f32) (main_arg6 : FVec F S64 .f32) (main_arg7 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg1 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1 : Shape := ⟨1, ![1]⟩
abbrev S1x1 : Shape := ⟨2, ![1, 1]⟩
abbrev S800000x128 : Shape := ⟨2, ![800000, 128]⟩
abbrev S1x128 : Shape := ⟨2, ![1, 128]⟩
abbrev S50000x64 : Shape := ⟨2, ![50000, 64]⟩
abbrev S2000x128 : Shape := ⟨2, ![2000, 128]⟩
abbrev S2000x1 : Shape := ⟨2, ![2000, 1]⟩
abbrev S2000x64 : Shape := ⟨2, ![2000, 64]⟩
abbrev S800000x64 : Shape := ⟨2, ![800000, 64]⟩
abbrev S1x64 : Shape := ⟨2, ![1, 64]⟩

abbrev nBuf : Space → Nat
  | .hbm => 91
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S1, .i32⟩
  | .hbm, ⟨41, _⟩ => ⟨S_, .i32⟩
  | .hbm, ⟨42, _⟩ => ⟨S800000x1, .i32⟩
  | .hbm, ⟨43, _⟩ => ⟨S800000x1, .i1⟩
  | .hbm, ⟨44, _⟩ => ⟨S1x1, .i32⟩
  | .hbm, ⟨45, _⟩ => ⟨S800000x1, .i32⟩
  | .hbm, ⟨46, _⟩ => ⟨S800000x1, .i1⟩
  | .hbm, ⟨47, _⟩ => ⟨S800000x1, .i1⟩
  | .hbm, ⟨48, _⟩ => ⟨S_, .i1⟩
  | .hbm, ⟨49, _⟩ => ⟨S800000, .i1⟩
  | .hbm, ⟨50, _⟩ => ⟨S800000x128, .f32⟩
  | .hbm, ⟨51, _⟩ => ⟨S800000x128, .i1⟩
  | .hbm, ⟨52, _⟩ => ⟨S_, .f32⟩
  | .hbm, ⟨53, _⟩ => ⟨S800000x128, .f32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S1x128, .f32⟩
  | .hbm, ⟨60, _⟩ => ⟨S50000x128, .bf16⟩
  | .hbm, ⟨61, _⟩ => ⟨S50000x64, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S1, .i32⟩
  | .hbm, ⟨71, _⟩ => ⟨S_, .i32⟩
  | .hbm, ⟨72, _⟩ => ⟨S800000x1, .i32⟩
  | .hbm, ⟨73, _⟩ => ⟨S800000x1, .i1⟩
  | .hbm, ⟨74, _⟩ => ⟨S1x1, .i32⟩
  | .hbm, ⟨75, _⟩ => ⟨S800000x1, .i32⟩
  | .hbm, ⟨76, _⟩ => ⟨S800000x1, .i1⟩
  | .hbm, ⟨77, _⟩ => ⟨S800000x1, .i1⟩
  | .hbm, ⟨78, _⟩ => ⟨S_, .i1⟩
  | .hbm, ⟨79, _⟩ => ⟨S800000, .i1⟩
  | .hbm, ⟨80, _⟩ => ⟨S800000x64, .f32⟩
  | .hbm, ⟨81, _⟩ => ⟨S800000x64, .i1⟩
  | .hbm, ⟨82, _⟩ => ⟨S_, .f32⟩
  | .hbm, ⟨83, _⟩ => ⟨S800000x64, .f32⟩
  | .hbm, ⟨84, _⟩ => ⟨S800000x64, .f32⟩
  | .hbm, ⟨85, _⟩ => ⟨S_, .f32⟩
  | .hbm, ⟨86, _⟩ => ⟨S50000x64, .f32⟩
  | .hbm, ⟨87, _⟩ => ⟨S800000x1, .i32⟩
  | .hbm, ⟨88, _⟩ => ⟨S50000x64, .f32⟩
  | .hbm, ⟨89, _⟩ => ⟨S1x64, .f32⟩
  | .hbm, ⟨90, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S128x64, .f32⟩
  | .local _ .vmem, ⟨10, _⟩ => ⟨S2000x128, .bf16⟩
  | .local _ .vmem, ⟨11, _⟩ => ⟨S2000x128, .bf16⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x1, .f32⟩
  | .local _ .vmem, ⟨17, _⟩ => ⟨S2000x1, .f32⟩
  | .local _ .vmem, ⟨18, _⟩ => ⟨S2000x128, .bf16⟩
  | .local _ .vmem, ⟨19, _⟩ => ⟨S2000x128, .bf16⟩
  | .local _ .vmem, ⟨20, _⟩ => ⟨S128x64, .f32⟩
  | .local _ .vmem, ⟨21, _⟩ => ⟨S1x64, .f32⟩
  | .local _ .vmem, ⟨22, _⟩ => ⟨S2000x64, .f32⟩
  | .local _ .vmem, ⟨23, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v16 : Ref sig .tc := ⟨.hbm, 54, rfl⟩
abbrev main_cst_5 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21_0 : Ref sig .tc := ⟨.hbm, 60, rfl⟩
abbrev main_v21_1 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_call2_cst : Ref sig .tc := ⟨.hbm, 82, rfl⟩
abbrev main_call2_v15 : Ref sig .tc := ⟨.hbm, 83, rfl⟩
abbrev main_v22 : Ref sig .tc := ⟨.hbm, 84, rfl⟩
abbrev main_cst_6 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .bf16 = 32 ∨ (Rect.block (s := S50000x128) S2000x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x64.size a ≤ S50000x64.size a
  hwx0_8 : ∀ i : grid0.Coords, EltTy.bits .f32 = 32 ∨ (Rect.block (s := S50000x64) S2000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .bf16 = 32 ∨ (Rect.block (s := S50000x128) S2000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v19) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21_0) S2000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v21_1) S2000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v25) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21_0) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 106
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S1, .i32⟩
  | .hbm, ⟨40, _⟩ => ⟨S_, .i32⟩
  | .hbm, ⟨41, _⟩ => ⟨S800000x1, .i32⟩
  | .hbm, ⟨42, _⟩ => ⟨S800000x1, .i1⟩
  | .hbm, ⟨43, _⟩ => ⟨S1x1, .i32⟩
  | .hbm, ⟨44, _⟩ => ⟨S800000x1, .i32⟩
  | .hbm, ⟨45, _⟩ => ⟨S800000x1, .i1⟩
  | .hbm, ⟨46, _⟩ => ⟨S800000x1, .i1⟩
  | .hbm, ⟨47, _⟩ => ⟨S_, .i1⟩
  | .hbm, ⟨48, _⟩ => ⟨S800000, .i1⟩
  | .hbm, ⟨49, _⟩ => ⟨S800000x128, .f32⟩
  | .hbm, ⟨50, _⟩ => ⟨S800000x128, .i1⟩
  | .hbm, ⟨51, _⟩ => ⟨S_, .f32⟩
  | .hbm, ⟨52, _⟩ => ⟨S800000x128, .f32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S50000x1, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S1, .i32⟩
  | .hbm, ⟨79, _⟩ => ⟨S_, .i32⟩
  | .hbm, ⟨80, _⟩ => ⟨S800000x1, .i32⟩
  | .hbm, ⟨81, _⟩ => ⟨S800000x1, .i1⟩
  | .hbm, ⟨82, _⟩ => ⟨S1x1, .i32⟩
  | .hbm, ⟨83, _⟩ => ⟨S800000x1, .i32⟩
  | .hbm, ⟨84, _⟩ => ⟨S800000x1, .i1⟩
  | .hbm, ⟨85, _⟩ => ⟨S800000x1, .i1⟩
  | .hbm, ⟨86, _⟩ => ⟨S_, .i1⟩
  | .hbm, ⟨87, _⟩ => ⟨S800000, .i1⟩
  | .hbm, ⟨88, _⟩ => ⟨S800000x128, .f32⟩
  | .hbm, ⟨89, _⟩ => ⟨S800000x128, .i1⟩
  | .hbm, ⟨90, _⟩ => ⟨S_, .f32⟩
  | .hbm, ⟨91, _⟩ => ⟨S800000x128, .f32⟩
  | .hbm, ⟨92, _⟩ => ⟨S800000x128, .f32⟩
  | .hbm, ⟨93, _⟩ => ⟨S_, .f32⟩
  | .hbm, ⟨94, _⟩ => ⟨S50000x128, .f32⟩
  | .hbm, ⟨95, _⟩ => ⟨S800000x1, .i32⟩
  | .hbm, ⟨96, _⟩ => ⟨S50000x128, .f32⟩
  | .hbm, ⟨97, _⟩ => ⟨S50000x1, .f32⟩
  | .hbm, ⟨98, _⟩ => ⟨S50000x128, .f32⟩
  | .hbm, ⟨99, _⟩ => ⟨S50000x128, .f32⟩
  | .hbm, ⟨100, _⟩ => ⟨S50000x64, .f32⟩
  | .hbm, ⟨101, _⟩ => ⟨S1x64, .f32⟩
  | .hbm, ⟨102, _⟩ => ⟨S50000x64, .f32⟩
  | .hbm, ⟨103, _⟩ => ⟨S50000x64, .f32⟩
  | .hbm, ⟨104, _⟩ => ⟨S50000x64, .f32⟩
  | .hbm, ⟨105, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v15 : Ref sig .tc := ⟨.hbm, 53, rfl⟩
abbrev main_cst_5 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_call2_cst : Ref sig .tc := ⟨.hbm, 67, rfl⟩
abbrev main_call2_v0 : Ref sig .tc := ⟨.hbm, 68, rfl⟩
abbrev main_v28 : Ref sig .tc := ⟨.hbm, 69, rfl⟩
abbrev main_call3_c : Ref sig .tc := ⟨.hbm, 70, rfl⟩
abbrev main_call3_v0 : Ref sig .tc := ⟨.hbm, 71, rfl⟩
abbrev main_call3_v1 : Ref sig .tc := ⟨.hbm, 72, rfl⟩
abbrev main_call3_c_0 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_v5 : Ref sig .tc := ⟨.hbm, 77, rfl⟩
abbrev main_call3_c_1 : Ref sig .tc := ⟨.hbm, 78, rfl⟩
abbrev main_call3_c_2 : Ref sig .tc := ⟨.hbm, 79, rfl⟩
abbrev main_call3_v6 : Ref sig .tc := ⟨.hbm, 80, rfl⟩
abbrev main_call3_v7 : Ref sig .tc := ⟨.hbm, 81, rfl⟩
abbrev main_call3_v8 : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_c_3 : Ref sig .tc := ⟨.hbm, 86, rfl⟩
abbrev main_call3_v12 : Ref sig .tc := ⟨.hbm, 87, rfl⟩
abbrev main_call3_v13 : Ref sig .tc := ⟨.hbm, 88, rfl⟩
abbrev main_call3_v14 : Ref sig .tc := ⟨.hbm, 89, rfl⟩
abbrev main_call3_cst : Ref sig .tc := ⟨.hbm, 90, rfl⟩
abbrev main_call3_v15 : Ref sig .tc := ⟨.hbm, 91, rfl⟩
abbrev main_v29 : Ref sig .tc := ⟨.hbm, 92, rfl⟩
abbrev main_cst_6 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The idealized kernel program's run with its result named: every weakly fair execution from a memory with
  zero counters terminates, nothing faults, the result array ends holding the contents the last region's
  write-backs leave (the fold of the host stretches and the two regions from the launch memory, read at the
  result buffer), and the eight argument arrays end as launched. It is the launch theorem for a program of
  several kernel regions among host stretches, applied to the same segments, thread states and final reading
  as the frame claim, with the result buffer read beside the arguments.
-/
import proofs.«153042_j9998683865369_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v27) = W9 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v27 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.KRun

end
-- ==== Proof.SageSpec.lean ====
/-
  The mathematics of the two-layer mean-aggregation network, as functions of arrays read index by index
  on the extended reals.

  A node row `p` of one combine step is
      (∑ₖ (agg p k · dinv p) · W_l k q  +  b q)  +  ∑ₖ root p k · W_r k q,
  where `agg` is the sum of the neighbours' rows and `dinv` the reciprocal of the in-degree (or zero).
  The hidden layer clamps that at zero from below; the projection of the hidden layer is its product with
  the second layer's neighbour weights; the second combine step, written over the ALREADY PROJECTED
  aggregate, is `(agg₂ p q · dinv p + b q) + ∑ₖ hid p k · W_r k q`.
-/
import Idealize.ShloMosaic.PureOps.Ideal
import Idealize.ShloMosaic.Lib.ValueIdx

noncomputable section

namespace Cert.Sage

open Idealize.ShloMosaic Idealize.ShloMosaic.ValueIdx

/-- The hidden layer at node `p`, feature `q`: the first combine step clamped at zero from below. -/
def hid (A : (⟨2, ![50000, 128]⟩ : Shape).Idx → EReal) (D : (⟨2, ![50000, 1]⟩ : Shape).Idx → EReal)
    (x : (⟨2, ![50000, 128]⟩ : Shape).Idx → EReal) (wl : (⟨2, ![128, 128]⟩ : Shape).Idx → EReal)
    (b : (⟨2, ![1, 128]⟩ : Shape).Idx → EReal) (wr : (⟨2, ![128, 128]⟩ : Shape).Idx → EReal)
    (p : Fin 50000) (q : Fin 128) : EReal :=
  max (((∑ k : Fin 128, (A (ix2 p k) * D (ix2 p 0)) * wl (ix2 k q)) + b (ix2 0 q))
        + ∑ k : Fin 128, x (ix2 p k) * wr (ix2 k q)) 0

/-- The hidden layer projected by a 128 × 64 matrix: `∑ₖ H p k · w k q`. -/
def proj (H : Fin 50000 → Fin 128 → EReal) (w : (⟨2, ![128, 64]⟩ : Shape).Idx → EReal)
    (p : Fin 50000) (q : Fin 64) : EReal :=
  ∑ k : Fin 128, H p k * w (ix2 k q)

/-- The second combine step over an already projected aggregate `A2`:
    `(A2 p q · D p + b q) + ∑ₖ H p k · wr k q`. -/
def out2 (A2 : (⟨2, ![50000, 64]⟩ : Shape).Idx → EReal) (D : (⟨2, ![50000, 1]⟩ : Shape).Idx → EReal)
    (H : Fin 50000 → Fin 128 → EReal) (wr : (⟨2, ![128, 64]⟩ : Shape).Idx → EReal)
    (b : (⟨2, ![1, 64]⟩ : Shape).Idx → EReal) (p : Fin 50000) (q : Fin 64) : EReal :=
  ((A2 (ix2 p q) * D (ix2 p 0)) + b (ix2 0 q)) + ∑ k : Fin 128, H p k * wr (ix2 k q)

end Cert.Sage

end
-- ==== Proof.KRegion0.lean ====
/-
  The first combine step's region read as whole arrays, at the ideal values.

  The region walks 25 row tiles of 2000 rows. At each tile the body forms, from the tile's rows of the aggregated
  neighbour rows `A`, of the reciprocal degrees `D` and of the node features `x`, and from the whole weight
  matrices and the bias row,
      hid p q = max ((∑ₖ (A p k · D p) · W_l k q + b q) + ∑ₖ x p k · W_r k q) 0,
  stores it as the hidden layer's tile, and stores the tile's product with the second layer's neighbour weights
  as the projection's tile. Here: the body's two results read at an index (a broadcast column, a broadcast row
  and a matrix product each read at an index), each window's tile as rows of its array, what a tile writes back
  as the tile of ONE function of the arrays the region found, and — the tiles covering every row, row `r` in
  tile `r / 2000` — the two arrays after the region as `Cert.Sage.hid` and `Cert.Sage.proj` of those arrays.
-/
import proofs.«153042_j9998683865369_2_alg».proof.Proof.Gen.KernelIdeal.Frame
import proofs.«153042_j9998683865369_2_alg».proof.Proof.SageSpec
import Idealize.ShloMosaic.Lib.Pipeline.Value
import Idealize.ShloMosaic.Lib.ValueLayout
import Idealize.ShloMosaic.PureOps.Ideal.Laws

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen

/-! ## Layout operations and matrix products read at an index -/

/-- An `[a, 1]` column broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's row coordinate in the 2000 × 128 by 128 × 128 product is the output's row. -/
theorem lhs128_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
/-- Its column coordinate is the contracted one. -/
theorem lhs128_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row coordinate is the contracted one. -/
theorem rhs128_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- Its column coordinate is the output's column. -/
theorem rhs128_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The 2000 × 128 by 128 × 128 product accumulated into zero, read at `(p, q)`: `∑ₖ lhs p k · rhs k q`. -/
theorem matmul128_apply {φ₁ φ₂ : FTy} (lhs : FVec Ideal S2000x128 φ₁) (rhs : FVec Ideal S128x128 φ₂) (p : Fin 2000) (q : Fin 128) :
    matmul dot_S2000x128_S128x128_S2000x128_1_0_0_1_n_n none lhs rhs (constant (F := Ideal) S2000x128 .f32 0x00000000#32) (ix2 p q)
      = ∑ k : Fin 128, lhs (ix2 p k) * rhs (ix2 k q) := by
  show FloatOps.matmul _ _ _ _ _ _ = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs128_0 _ _
      | ⟨1, _⟩ => exact (lhs128_1 _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (rhs128_0 _ _).trans hk
      | ⟨1, _⟩ => exact rhs128_1 _ _)
  rw [el, er]

/-- The left operand's row coordinate in the 2000 × 128 by 128 × 64 product is the output's row. -/
theorem lhs64_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide),
    dif_pos (show (0 : Fin S2000x128.rank) ∈ dot_S2000x128_S128x64_S2000x64_1_0_0_1_n_n.lhsNonContracting by decide)]
  rfl
/-- Its column coordinate is the contracted one. -/
theorem lhs64_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
/-- The right operand's row coordinate is the contracted one. -/
theorem rhs64_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
/-- Its column coordinate is the output's column. -/
theorem rhs64_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide),
    dif_pos (show (1 : Fin S128x64.rank) ∈ dot_S2000x128_S128x64_S2000x64_1_0_0_1_n_n.rhsNonContracting by decide)]
  rfl

/-- The 2000 × 128 by 128 × 64 product accumulated into zero, read at `(p, q)`: `∑ₖ lhs p k · rhs k q`. -/
theorem matmul64_apply {φ₁ φ₂ : FTy} (lhs : FVec Ideal S2000x128 φ₁) (rhs : FVec Ideal S128x64 φ₂) (p : Fin 2000) (q : Fin 64) :
    matmul dot_S2000x128_S128x64_S2000x64_1_0_0_1_n_n none lhs rhs (constant (F := Ideal) S2000x64 .f32 0x00000000#32) (ix2 p q)
      = ∑ k : Fin 128, lhs (ix2 p k) * rhs (ix2 k q) := by
  show FloatOps.matmul _ _ _ _ _ _ = _
  rw [Ideal.matmul_constant_zero_apply,
    ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q)
      ((contrEquiv1 dot_S2000x128_S128x64_S2000x64_1_0_0_1_n_n 128 rfl rfl).symm k) = ix2 p k :=
    funext fun a => Fin.ext (by
      match a with
      | ⟨0, _⟩ => exact lhs64_0 _ _
      | ⟨1, _⟩ => exact (lhs64_1 _ _).trans hk)
  have er : dot_S2000x128_S128x64_S2000x64_1_0_0_1_n_n.rhsIdx (ix2 p q)
      ((contrEquiv1 dot_S2000x128_S128x64_S2000x64_1_0_0_1_n_n 128 rfl rfl).symm k) = ix2 k q :=
    funext fun a => Fin.ext (by
      match a with
      | ⟨0, _⟩ => exact (rhs64_0 _ _).trans hk
      | ⟨1, _⟩ => exact rhs64_1 _ _)
  rw [el, er]

/-! ## The body's two results read at an index -/

/-- The hidden layer's tile at `(p, q)`: the first combine step of the tile's rows, clamped at zero from below. -/
theorem hiddenTile_apply (x0 : Vec Ideal S2000x128 .f32) (x1 : Vec Ideal S2000x1 .f32) (w3 : Vec Ideal S128x128 .f32)
    (b4 : Vec Ideal S1x128 .f32) (x2 : Vec Ideal S2000x128 .f32) (w5 : Vec Ideal S128x128 .f32) (p : Fin 2000) (q : Fin 128) :
    k0_pay1 x0 x1 w3 b4 x2 w5 (ix2 p q)
      = max (((∑ k : Fin 128, (x0 (ix2 p k) * x1 (ix2 p 0)) * w3 (ix2 k q)) + b4 (ix2 0 q))
          + ∑ k : Fin 128, x2 (ix2 p k) * w5 (ix2 k q)) 0 := by
  unfold k0_pay1
  simp only [truncf_apply, maximumf_apply, addf_apply, mulf_apply, broadcast_apply, shapeCast_self, matmul128_apply,
    broadcastTo_1b_ab_apply, broadcastTo_a1_ab_apply]
  exact congrArg (max _) Ideal.ofBits_zero_f32

/-- The projection's tile at `(p, q)`: the hidden layer's tile times the second layer's neighbour weights. -/
theorem projTile_apply (x0 : Vec Ideal S2000x128 .f32) (x1 : Vec Ideal S2000x1 .f32) (w3 : Vec Ideal S128x128 .f32)
    (b4 : Vec Ideal S1x128 .f32) (x2 : Vec Ideal S2000x128 .f32) (w5 : Vec Ideal S128x128 .f32) (w6 : Vec Ideal S128x64 .f32)
    (p : Fin 2000) (q : Fin 64) :
    k0_pay2 x0 x1 w3 b4 x2 w5 w6 (ix2 p q) = ∑ k : Fin 128, k0_pay1 x0 x1 w3 b4 x2 w5 (ix2 p k) * w6 (ix2 k q) := by
  unfold k0_pay2
  simp only [truncf_apply, matmul64_apply]

/-! ## Each window's tile as rows of its array -/

variable {F : FTy → Type} [FloatOps F]
variable (V : (c : Dev nD) → (b : Ref sig .tc) → Buf (Elt F) ((c : Thread nD τ).loc b))

/-- A tile's accesses start at its origin. -/
theorem origin_zero : (![0, 0] : Fin 2 → Nat) = fun _ => 0 := funext fun a => by fin_cases a <;> rfl

/-- The printed index maps, decided over the 25 tiles: a row-tiled window's tile `t` starts at row block `t` and
    column block 0; a weight or bias window's one tile is its whole array. -/
theorem tile_origins : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- Tile `t` of the aggregated neighbour rows is rows `2000 t … 2000 t + 1999` of the array. -/
theorem aggTile_apply (c : Dev nD) (t : Fin cfg0.N) (p : Fin 2000) (k : Fin 128) (r : Fin 50000) (hr : r.val = 2000 * t.val + p.val) :
    (iblk0 V c 0 t : Vec F S2000x128 .f32) (ix2 p k) = (V c (Pipeline.arrRef spec0 0) : S50000x128.Idx → Elt F .f32) (ix2 r k) := by
  obtain ⟨⟨e0, e1⟩, -⟩ := tile_origins t
  unfold iblk0
  rw [View.read_apply]
  refine congrArg (V c (Pipeline.arrRef spec0 0) : S50000x128.Idx → Elt F .f32) (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- Tile `t` of the reciprocal degrees is rows `2000 t … 2000 t + 1999` of the column. -/
theorem degTile_apply (c : Dev nD) (t : Fin cfg0.N) (p : Fin 2000) (r : Fin 50000) (hr : r.val = 2000 * t.val + p.val) :
    (iblk0 V c 1 t : Vec F S2000x1 .f32) (ix2 p (0 : Fin 1)) = (V c (Pipeline.arrRef spec0 1) : S50000x1.Idx → Elt F .f32) (ix2 r (0 : Fin 1)) := by
  obtain ⟨-, ⟨e0, e1⟩, -⟩ := tile_origins t
  unfold iblk0
  rw [View.read_apply]
  refine congrArg (V c (Pipeline.arrRef spec0 1) : S50000x1.Idx → Elt F .f32) (funext fun a => Fin.ext ?_)
  match a with
  | ⟨0, _⟩ => show win0_1.index t (0 : Fin 2) * 2000 + 1 * p.val = r.val; omega
  | ⟨1, _⟩ => show win0_1.index t (1 : Fin 2) * 1 + 1 * 0 = 0; omega

/-- Tile `t` of the node features is rows `2000 t … 2000 t + 1999` of the array. -/
theorem featTile_apply (c : Dev nD) (t : Fin cfg0.N) (p : Fin 2000) (k : Fin 128) (r : Fin 50000) (hr : r.val = 2000 * t.val + p.val) :
    (iblk0 V c 2 t : Vec F S2000x128 .f32) (ix2 p k) = (V c (Pipeline.arrRef spec0 2) : S50000x128.Idx → Elt F .f32) (ix2 r k) := by
  obtain ⟨-, -, ⟨e0, e1⟩, -⟩ := tile_origins t
  unfold iblk0
  rw [View.read_apply]
  refine congrArg (V c (Pipeline.arrRef spec0 2) : S50000x128.Idx → Elt F .f32) (funext fun a => Fin.ext ?_)
  match a with
  | ⟨0, _⟩ => show win0_2.index t (0 : Fin 2) * 2000 + 1 * p.val = r.val; omega
  | ⟨1, _⟩ => show win0_2.index t (1 : Fin 2) * 128 + 1 * k.val = k.val; omega

/-- The neighbour weights' one tile is the whole matrix. -/
theorem wlTile_apply (c : Dev nD) (t : Fin cfg0.N) (k : Fin 128) (q : Fin 128) :
    (iblk0 V c 3 t : Vec F S128x128 .f32) (ix2 k q) = (V c (Pipeline.arrRef spec0 3) : S128x128.Idx → Elt F .f32) (ix2 k q) := by
  obtain ⟨-, -, -, ⟨e0, e1⟩, -⟩ := tile_origins t
  unfold iblk0
  rw [View.read_apply]
  refine congrArg (V c (Pipeline.arrRef spec0 3) : S128x128.Idx → Elt F .f32) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The bias' one tile is the whole row. -/
theorem biasTile_apply (c : Dev nD) (t : Fin cfg0.N) (q : Fin 128) :
    (iblk0 V c 4 t : Vec F S1x128 .f32) (ix2 (0 : Fin 1) q) = (V c (Pipeline.arrRef spec0 4) : S1x128.Idx → Elt F .f32) (ix2 (0 : Fin 1) q) := by
  obtain ⟨-, -, -, -, ⟨e0, e1⟩, -⟩ := tile_origins t
  unfold iblk0
  rw [View.read_apply]
  refine congrArg (V c (Pipeline.arrRef spec0 4) : S1x128.Idx → Elt F .f32) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- The root weights' one tile is the whole matrix. -/
theorem wrTile_apply (c : Dev nD) (t : Fin cfg0.N) (k : Fin 128) (q : Fin 128) :
    (iblk0 V c 5 t : Vec F S128x128 .f32) (ix2 k q) = (V c (Pipeline.arrRef spec0 5) : S128x128.Idx → Elt F .f32) (ix2 k q) := by
  obtain ⟨-, -, -, -, -, ⟨e0, e1⟩, -⟩ := tile_origins t
  unfold iblk0
  rw [View.read_apply]
  refine congrArg (V c (Pipeline.arrRef spec0 5) : S128x128.Idx → Elt F .f32) (funext fun a => Fin.ext ?_)
  match a with
  | ⟨0, _⟩ => show win0_5.index t (0 : Fin 2) * 128 + 1 * k.val = k.val; omega
  | ⟨1, _⟩ => show win0_5.index t (1 : Fin 2) * 128 + 1 * q.val = q.val; omega

/-- The second layer's neighbour weights' one tile is the whole matrix. -/
theorem w2Tile_apply (c : Dev nD) (t : Fin cfg0.N) (k : Fin 128) (q : Fin 64) :
    (iblk0 V c 6 t : Vec F S128x64 .f32) (ix2 k q) = (V c (Pipeline.arrRef spec0 6) : S128x64.Idx → Elt F .f32) (ix2 k q) := by
  obtain ⟨-, -, -, -, -, -, ⟨e0, e1⟩, -⟩ := tile_origins t
  unfold iblk0
  rw [View.read_apply]
  refine congrArg (V c (Pipeline.arrRef spec0 6) : S128x64.Idx → Elt F .f32) (funext fun a => Fin.ext ?_)
  match a with
  | ⟨0, _⟩ => show win0_6.index t (0 : Fin 2) * 128 + 1 * k.val = k.val; omega
  | ⟨1, _⟩ => show win0_6.index t (1 : Fin 2) * 64 + 1 * q.val = q.val; omega

/-! ## What a tile writes back, and the arrays after the region -/

section AtIdeal
variable (V : (c : Dev nD) → (b : Ref sig .tc) → Buf (Elt Ideal) ((c : Thread nD τ).loc b))

/-- The hidden layer as one function of the arrays the region found. -/
abbrev hidOf (c : Dev nD) : Fin 50000 → Fin 128 → EReal :=
  Cert.Sage.hid (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5))

/-- The body's hidden tile at tile `t`, entry `(p, q)`, is the hidden layer at row `2000 t + p`, column `q`. -/
theorem hiddenTile_rows (c : Dev nD) (t : Fin cfg0.N) (p : Fin 2000) (q : Fin 128) (r : Fin 50000) (q' : Fin 128)
    (hr : r.val = 2000 * t.val + p.val) (hq : q'.val = q.val) :
    k0_pay1 (iblk0 V c 0 t) (iblk0 V c 1 t) (iblk0 V c 3 t) (iblk0 V c 4 t) (iblk0 V c 2 t) (iblk0 V c 5 t) (ix2 p q)
      = hidOf V c r q' := by
  obtain rfl : q' = q := Fin.ext hq
  refine (hiddenTile_apply (iblk0 V c 0 t) (iblk0 V c 1 t) (iblk0 V c 3 t) (iblk0 V c 4 t) (iblk0 V c 2 t) (iblk0 V c 5 t) p q').trans ?_
  unfold hidOf Cert.Sage.hid
  refine congrArg (fun z => max z 0) ?_
  refine congrArg₂ (· + ·) (congrArg₂ (· + ·) (Finset.sum_congr rfl fun k _ => ?_) (biasTile_apply V c t q')) (Finset.sum_congr rfl fun k _ => ?_)
  · rw [aggTile_apply V c t p k r hr, degTile_apply V c t p r hr, wlTile_apply V c t k q']
  · rw [featTile_apply V c t p k r hr, wrTile_apply V c t k q']

/-- The body's projection tile at tile `t`, entry `(p, q)`, is the projected hidden layer at row `2000 t + p`, column `q`. -/
theorem projTile_rows (c : Dev nD) (t : Fin cfg0.N) (p : Fin 2000) (q : Fin 64) (r : Fin 50000) (q' : Fin 64)
    (hr : r.val = 2000 * t.val + p.val) (hq : q'.val = q.val) :
    k0_pay2 (iblk0 V c 0 t) (iblk0 V c 1 t) (iblk0 V c 3 t) (iblk0 V c 4 t) (iblk0 V c 2 t) (iblk0 V c 5 t) (iblk0 V c 6 t) (ix2 p q)
      = Cert.Sage.proj (hidOf V c) (V c (Pipeline.arrRef spec0 6)) r q' := by
  obtain rfl : q' = q := Fin.ext hq
  refine (projTile_apply (iblk0 V c 0 t) (iblk0 V c 1 t) (iblk0 V c 3 t) (iblk0 V c 4 t) (iblk0 V c 2 t) (iblk0 V c 5 t) (iblk0 V c 6 t) p q').trans ?_
  unfold Cert.Sage.proj
  refine Finset.sum_congr rfl fun k _ => ?_
  rw [hiddenTile_rows V c t p k r k hr rfl, w2Tile_apply V c t k q']

/-- An index of the hidden-layer array is in tile `t` iff each coordinate is in the tile's range on its axis. -/
theorem mem_hiddenTile (t : Fin cfg0.N) (i : S50000x128.Idx) :
    i ∈ ((cfg0.win 7).blk t).view.set ↔ ∀ a : Fin 2, win0_7.index t a * S2000x128.size a ≤ (i a).val
      ∧ (i a).val < win0_7.index t a * S2000x128.size a + S2000x128.size a := by
  show i ∈ ((View.whole main_v21_0).slice (win0_7.rect t)).set ↔ _
  rw [View.set_slice_whole, Rect.mem_set_unit]
  exact Iff.rfl

/-- An index of the projection's array is in tile `t` iff each coordinate is in the tile's range on its axis. -/
theorem mem_projTile (t : Fin cfg0.N) (i : S50000x64.Idx) :
    i ∈ ((cfg0.win 8).blk t).view.set ↔ ∀ a : Fin 2, win0_8.index t a * S2000x64.size a ≤ (i a).val
      ∧ (i a).val < win0_8.index t a * S2000x64.size a + S2000x64.size a := by
  show i ∈ ((View.whole main_v21_1).slice (win0_8.rect t)).set ↔ _
  rw [View.set_slice_whole, Rect.mem_set_unit]
  exact Iff.rfl

/-- WHAT TILE `t` WRITES BACK to the hidden-layer array is tile `t` of the hidden layer of the arrays the region found. -/
theorem hiddenFlushed_eq (c : Dev nD) (t : Fin cfg0.N) :
    (dat0 V c).flushed 7 t = ((cfg0.win 7).blk t).view.read (Elt Ideal) (fun i => hidOf V c (i 0) (i 1)) := by
  show (cfg0.win 7).cut (grid0.coords t) ((dat0 V c).after 7 t) = _
  rw [after0_7]
  unfold out0_7
  rw [View.canon_unit_zero origin_zero]
  simp only [View.ld_unit_zero (S := S2000x128) origin_zero, View.ld_unit_zero (S := S2000x1) origin_zero,
    View.ld_unit_zero (S := S128x128) origin_zero, View.ld_unit_zero (S := S1x128) origin_zero]
  obtain ⟨-, -, -, -, -, -, -, ⟨e0, e1⟩, -⟩ := tile_origins t
  funext j
  obtain ⟨p, q, rfl⟩ : ∃ (p : Fin 2000) (q : Fin 128), j = ix2 p q := ⟨j 0, j 1, eq_ix2 j⟩
  show k0_pay1 (iblk0 V c 0 t) (iblk0 V c 1 t) (iblk0 V c 3 t) (iblk0 V c 4 t) (iblk0 V c 2 t) (iblk0 V c 5 t) (ix2 p q)
    = hidOf V c ((((cfg0.win 7).blk t).view.emb (ix2 p q)) 0) ((((cfg0.win 7).blk t).view.emb (ix2 p q)) 1)
  refine hiddenTile_rows V c t p q _ _ ?_ ?_
  · show win0_7.index t (0 : Fin 2) * 2000 + 1 * p.val = 2000 * t.val + p.val; omega
  · show win0_7.index t (1 : Fin 2) * 128 + 1 * q.val = q.val; omega

/-- WHAT TILE `t` WRITES BACK to the projection's array is tile `t` of the projected hidden layer. -/
theorem projFlushed_eq (c : Dev nD) (t : Fin cfg0.N) :
    (dat0 V c).flushed 8 t = ((cfg0.win 8).blk t).view.read (Elt Ideal)
      (fun i => Cert.Sage.proj (hidOf V c) (V c (Pipeline.arrRef spec0 6)) (i 0) (i 1)) := by
  show (cfg0.win 8).cut (grid0.coords t) ((dat0 V c).after 8 t) = _
  rw [after0_8]
  unfold out0_8
  rw [View.canon_unit_zero origin_zero]
  simp only [View.ld_unit_zero (S := S2000x128) origin_zero, View.ld_unit_zero (S := S2000x1) origin_zero,
    View.ld_unit_zero (S := S128x128) origin_zero, View.ld_unit_zero (S := S1x128) origin_zero,
    View.ld_unit_zero (S := S128x64) origin_zero]
  obtain ⟨-, -, -, -, -, -, -, -, ⟨e0, e1⟩⟩ := tile_origins t
  funext j
  obtain ⟨p, q, rfl⟩ : ∃ (p : Fin 2000) (q : Fin 64), j = ix2 p q := ⟨j 0, j 1, eq_ix2 j⟩
  show k0_pay2 (iblk0 V c 0 t) (iblk0 V c 1 t) (iblk0 V c 3 t) (iblk0 V c 4 t) (iblk0 V c 2 t) (iblk0 V c 5 t) (iblk0 V c 6 t) (ix2 p q)
    = Cert.Sage.proj (hidOf V c) (V c (Pipeline.arrRef spec0 6)) ((((cfg0.win 8).blk t).view.emb (ix2 p q)) 0) ((((cfg0.win 8).blk t).view.emb (ix2 p q)) 1)
  refine projTile_rows V c t p q _ _ ?_ ?_
  · show win0_8.index t (0 : Fin 2) * 2000 + 1 * p.val = 2000 * t.val + p.val; omega
  · show win0_8.index t (1 : Fin 2) * 64 + 1 * q.val = q.val; omega

/-- THE HIDDEN-LAYER ARRAY after the region: the tiles cover every row (row `r` lies in tile `r / 2000`), so the
    array is the hidden layer of the arrays the region found, index by index. -/
theorem hidden (c : Dev nD) : (dat0 (F := Ideal) V c).arrAt 7 cfg0.N = fun i =>
    Cert.Sage.hid (V c (Pipeline.arrRef spec0 0)) (V c (Pipeline.arrRef spec0 1)) (V c (Pipeline.arrRef spec0 2))
      (V c (Pipeline.arrRef spec0 3)) (V c (Pipeline.arrRef spec0 4)) (V c (Pipeline.arrRef spec0 5)) (i 0) (i 1) :=
  (dat0 V c).arrAt_eq_of_cover 7 (fun i => hidOf V c (i 0) (i 1)) (fun t _ => hiddenFlushed_eq V c t) fun i => by
    have hN : cfg0.N = 25 := N_0
    have h0 : (i 0).val < 50000 := (i 0).isLt
    have h1 : (i 1).val < 128 := (i 1).isLt
    obtain ⟨t, ht⟩ : ∃ t : Fin cfg0.N, t.val = (i 0).val / 2000 := ⟨⟨(i 0).val / 2000, by omega⟩, rfl⟩
    obtain ⟨-, -, -, -, -, -, -, ⟨e0, e1⟩, -⟩ := tile_origins t
    refine ⟨t, flush0_7 t, ?_⟩
    rw [mem_hiddenTile]
    intro a
    match a with
    | ⟨0, _⟩ => show win0_7.index t (0 : Fin 2) * 2000 ≤ (i 0).val ∧ (i 0).val < win0_7.index t (0 : Fin 2) * 2000 + 2000; omega
    | ⟨1, _⟩ => show win0_7.index t (1 : Fin 2) * 128 ≤ (i 1).val ∧ (i 1).val < win0_7.index t (1 : Fin 2) * 128 + 128; omega

/-- THE PROJECTION'S ARRAY after the region: likewise the projected hidden layer, index by index. -/
theorem projected (c : Dev nD) : (dat0 (F := Ideal) V c).arrAt 8 cfg0.N = fun i =>
    Cert.Sage.proj (Cert.Sage.hid (V c (Pipeline.arrRef spec0 0)) (V c (Pipeline.arrRef spec0 1)) (V c (Pipeline.arrRef spec0 2))
      (V c (Pipeline.arrRef spec0 3)) (V c (Pipeline.arrRef spec0 4)) (V c (Pipeline.arrRef spec0 5)))
      (V c (Pipeline.arrRef spec0 6)) (i 0) (i 1) :=
  (dat0 V c).arrAt_eq_of_cover 8 (fun i => Cert.Sage.proj (hidOf V c) (V c (Pipeline.arrRef spec0 6)) (i 0) (i 1))
    (fun t _ => projFlushed_eq V c t) fun i => by
    have hN : cfg0.N = 25 := N_0
    have h0 : (i 0).val < 50000 := (i 0).isLt
    have h1 : (i 1).val < 64 := (i 1).isLt
    obtain ⟨t, ht⟩ : ∃ t : Fin cfg0.N, t.val = (i 0).val / 2000 := ⟨⟨(i 0).val / 2000, by omega⟩, rfl⟩
    obtain ⟨-, -, -, -, -, -, -, -, ⟨e0, e1⟩⟩ := tile_origins t
    refine ⟨t, flush0_8 t, ?_⟩
    rw [mem_projTile]
    intro a
    match a with
    | ⟨0, _⟩ => show win0_8.index t (0 : Fin 2) * 2000 ≤ (i 0).val ∧ (i 0).val < win0_8.index t (0 : Fin 2) * 2000 + 2000; omega
    | ⟨1, _⟩ => show win0_8.index t (1 : Fin 2) * 64 ≤ (i 1).val ∧ (i 1).val < win0_8.index t (1 : Fin 2) * 64 + 64; omega

end AtIdeal

end Cert.KernelIdeal.Region0

end
-- ==== Proof.KRegion1.lean ====
/-
  The second kernel region (the layer-2 combine step) read as ONE function of the arrays it finds.

  The region walks 25 row tiles of 2000 rows. At each tile the body computes, for row `p` and feature `q`,
      (agg p q · dinv p + b q) + ∑ₖ hid p k · w k q
  from the tile's rows of the aggregate, of the reciprocal degrees and of the hidden layer, and the whole
  weight matrix and bias. Here: that payload read at an index; each window's block as rows of its array; what a
  tile writes back as the block of the closed form `Cert.Sage.out2`; the tiles cover all 50000 rows; hence the
  array after the region.
-/
import proofs.«153042_j9998683865369_2_alg».proof.Proof.Gen.KernelIdeal.Frame
import proofs.«153042_j9998683865369_2_alg».proof.Proof.SageSpec
import Idealize.ShloMosaic.Lib.Pipeline.Value
import Idealize.ShloMosaic.Lib.ValueLayout
import Idealize.ShloMosaic.PureOps.Ideal.Laws

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

/-! ## The payload at an index -/

/-- A column `[a, 1]` broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand index at output `i`, contraction position `κ`: the output's row … -/
theorem lhs_row (i : S2000x64.Idx) (κ : dot_S2000x128_S128x64_S2000x64_1_0_0_1_n_n.contr.Idx) :
    (dot_S2000x128_S128x64_S2000x64_1_0_0_1_n_n.lhsIdx i κ 0).val = (i 0).val := by
  unfold DotDims.lhsIdx
  rw [dif_neg (show ¬(0 : Fin S2000x128.rank) ∈ dot_S2000x128_S128x64_S2000x64_1_0_0_1_n_n.lhsBatch by decide),
    dif_pos (show (0 : Fin S2000x128.rank) ∈ dot_S2000x128_S128x64_S2000x64_1_0_0_1_n_n.lhsNonContracting by decide)]
  rfl
/-- … and the contracted coordinate as its column. -/
theorem lhs_col (i : S2000x64.Idx) (κ : dot_S2000x128_S128x64_S2000x64_1_0_0_1_n_n.contr.Idx) :
    (dot_S2000x128_S128x64_S2000x64_1_0_0_1_n_n.lhsIdx i κ 1).val = (κ ⟨0, by decide⟩).val :=
  dot_S2000x128_S128x64_S2000x64_1_0_0_1_n_n.lhsIdx_val_of_single rfl i κ
/-- The right operand index: the contracted coordinate as its row … -/
theorem rhs_row (i : S2000x64.Idx) (κ : dot_S2000x128_S128x64_S2000x64_1_0_0_1_n_n.contr.Idx) :
    (dot_S2000x128_S128x64_S2000x64_1_0_0_1_n_n.rhsIdx i κ 0).val = (κ ⟨0, by decide⟩).val :=
  dot_S2000x128_S128x64_S2000x64_1_0_0_1_n_n.rhsIdx_val_of_single rfl i κ
/-- … and the output's column. -/
theorem rhs_col (i : S2000x64.Idx) (κ : dot_S2000x128_S128x64_S2000x64_1_0_0_1_n_n.contr.Idx) :
    (dot_S2000x128_S128x64_S2000x64_1_0_0_1_n_n.rhsIdx i κ 1).val = (i 1).val := by
  unfold DotDims.rhsIdx
  rw [dif_neg (show ¬(1 : Fin S128x64.rank) ∈ dot_S2000x128_S128x64_S2000x64_1_0_0_1_n_n.rhsBatch by decide),
    dif_pos (show (1 : Fin S128x64.rank) ∈ dot_S2000x128_S128x64_S2000x64_1_0_0_1_n_n.rhsNonContracting by decide)]
  rfl

/-- The 2000 × 128 by 128 × 64 product into the zero accumulator, read at `(p, q)`: the sum over the
    contracted coordinate of the products of the entries. -/
theorem matmul_zero_apply {φ₁ φ₂ : FTy} (A : FVec Ideal S2000x128 φ₁) (B : FVec Ideal S128x64 φ₂) (p : Fin 2000) (q : Fin 64) :
    matmul dot_S2000x128_S128x64_S2000x64_1_0_0_1_n_n none A B (constant S2000x64 .f32 0x00000000#32) (ix2 p q)
      = ∑ k : Fin 128, A (ix2 p k) * B (ix2 k q) := by
  show FloatOps.matmul dot_S2000x128_S128x64_S2000x64_1_0_0_1_n_n none A B (constant S2000x64 .f32 0x00000000#32) (ix2 p q) = _
  rw [Ideal.matmul_constant_zero_apply,
    ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k :=
    funext fun a => Fin.ext (by
      match a with
      | ⟨0, _⟩ => exact lhs_row _ _
      | ⟨1, _⟩ => exact (lhs_col _ _).trans hk)
  have er : dot_S2000x128_S128x64_S2000x64_1_0_0_1_n_n.rhsIdx (ix2 p q) ((contrEquiv1 dot_S2000x128_S128x64_S2000x64_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- The body's payload at row `p`, feature `q` of the tile: the aggregate scaled by the reciprocal degree, plus the
    bias, plus the hidden row's product with the weights. -/
theorem pay_apply (x0 : Vec Ideal S2000x64 .f32) (x1 : Vec Ideal S2000x1 .f32) (b : Vec Ideal S1x64 .f32)
    (hd : Vec Ideal S2000x128 .bf16) (w : Vec Ideal S128x64 .f32) (p : Fin 2000) (q : Fin 64) :
    k1_pay1 x0 x1 b hd w (ix2 p q)
      = (x0 (ix2 p q) * x1 (ix2 p 0) + b (ix2 0 q)) + ∑ k : Fin 128, hd (ix2 p k) * w (ix2 k q) := by
  unfold k1_pay1
  rw [addf_apply, addf_apply, mulf_apply, matmul_zero_apply]
  rw [shapeCast_self, shapeCast_self, shapeCast_self, shapeCast_self, broadcastTo_a1_ab_apply, broadcastTo_1b_ab_apply]
  rfl

/-! ## Each window's tile as rows of its array -/

variable (V : (c : Dev nD) → (b : Ref sig .tc) → Buf (Elt Ideal) ((c : Thread nD τ).loc b))

theorem hz : (![0, 0] : Fin 2 → Nat) = fun _ => 0 := funext fun a => by fin_cases a <;> rfl

/-- The block index maps over the 25 tiles: the row-tiled windows (aggregate, reciprocal degrees, hidden layer,
    result) are at block row `t`, column 0; the weights and the bias are the one block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Tile `t` of the aggregate is rows `2000 t … 2000 t + 1999` of its array. -/
theorem iblk_agg (c : Dev nD) (t : Fin cfg1.N) (p : Fin 2000) (q : Fin 64) (r : Fin 50000)
    (hr : r.val = t.val * 2000 + p.val) :
    (iblk1 V c 0 t : Vec Ideal S2000x64 .f32) (ix2 p q)
      = (V c (Pipeline.arrRef spec1 0) : S50000x64.Idx → EReal) (ix2 r q) := by
  obtain ⟨e0, e1, -⟩ := idx_facts t
  unfold iblk1
  rw [View.read_apply]
  show V c (Pipeline.arrRef spec1 0) (((cfg1.win 0).blk t).view.emb (ix2 p q)) = V c (Pipeline.arrRef spec1 0) (ix2 r q)
  refine congrArg _ (funext fun a => Fin.ext ?_)
  match a with
  | ⟨0, _⟩ => show win1_0.index t (0 : Fin 2) * 2000 + 1 * p.val = r.val; rw [e0, hr]; omega
  | ⟨1, _⟩ => show win1_0.index t (1 : Fin 2) * 64 + 1 * q.val = q.val; rw [e1]; omega

/-- Tile `t` of the reciprocal degrees is the same rows of the one-column array. -/
theorem iblk_dinv (c : Dev nD) (t : Fin cfg1.N) (p : Fin 2000) (r : Fin 50000)
    (hr : r.val = t.val * 2000 + p.val) :
    (iblk1 V c 1 t : Vec Ideal S2000x1 .f32) (ix2 p (0 : Fin 1))
      = (V c (Pipeline.arrRef spec1 1) : S50000x1.Idx → EReal) (ix2 r (0 : Fin 1)) := by
  obtain ⟨-, -, e0, e1, -⟩ := idx_facts t
  unfold iblk1
  rw [View.read_apply]
  show V c (Pipeline.arrRef spec1 1) (((cfg1.win 1).blk t).view.emb (ix2 p (0 : Fin 1))) = V c (Pipeline.arrRef spec1 1) (ix2 r (0 : Fin 1))
  refine congrArg _ (funext fun a => Fin.ext ?_)
  match a with
  | ⟨0, _⟩ => show win1_1.index t (0 : Fin 2) * 2000 + 1 * p.val = r.val; rw [e0, hr]; omega
  | ⟨1, _⟩ => show win1_1.index t (1 : Fin 2) * 1 + 1 * 0 = 0; rw [e1]

/-- Tile `t` of the hidden layer is the same rows of its array. -/
theorem iblk_hid (c : Dev nD) (t : Fin cfg1.N) (p : Fin 2000) (k : Fin 128) (r : Fin 50000)
    (hr : r.val = t.val * 2000 + p.val) :
    (iblk1 V c 2 t : Vec Ideal S2000x128 .bf16) (ix2 p k)
      = (V c (Pipeline.arrRef spec1 2) : S50000x128.Idx → EReal) (ix2 r k) := by
  obtain ⟨-, -, -, -, e0, e1, -⟩ := idx_facts t
  unfold iblk1
  rw [View.read_apply]
  show V c (Pipeline.arrRef spec1 2) (((cfg1.win 2).blk t).view.emb (ix2 p k)) = V c (Pipeline.arrRef spec1 2) (ix2 r k)
  refine congrArg _ (funext fun a => Fin.ext ?_)
  match a with
  | ⟨0, _⟩ => show win1_2.index t (0 : Fin 2) * 2000 + 1 * p.val = r.val; rw [e0, hr]; omega
  | ⟨1, _⟩ => show win1_2.index t (1 : Fin 2) * 128 + 1 * k.val = k.val; rw [e1]; omega

/-- Every tile sees the whole weight matrix. -/
theorem iblk_w (c : Dev nD) (t : Fin cfg1.N) :
    (iblk1 V c 3 t : Vec Ideal S128x64 .f32) = (V c (Pipeline.arrRef spec1 3) : S128x64.Idx → EReal) := by
  obtain ⟨-, -, -, -, -, -, e0, e1, -⟩ := idx_facts t
  funext y
  unfold iblk1
  rw [View.read_apply]
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 128 + 1 * (y 0).val = (y 0).val; rw [e0]; omega
  | ⟨1, _⟩ => show win1_3.index t (1 : Fin 2) * 64 + 1 * (y 1).val = (y 1).val; rw [e1]; omega

/-- Every tile sees the whole bias row. -/
theorem iblk_b (c : Dev nD) (t : Fin cfg1.N) :
    (iblk1 V c 4 t : Vec Ideal S1x64 .f32) = (V c (Pipeline.arrRef spec1 4) : S1x64.Idx → EReal) := by
  obtain ⟨-, -, -, -, -, -, -, -, e0, e1, -⟩ := idx_facts t
  funext y
  unfold iblk1
  rw [View.read_apply]
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 1 + 1 * (y 0).val = (y 0).val; rw [e0]; omega
  | ⟨1, _⟩ => show win1_4.index t (1 : Fin 2) * 64 + 1 * (y 1).val = (y 1).val; rw [e1]; omega

/-! ## One tile of the result -/

/-- If the loaded blocks are rows `2000 T …` of the arrays `A0`, `A1`, `A2` and the whole of `A3`, `A4`, the payload at
    block index `y` is the closed form at the array index `i` that `y` names in tile `T`. -/
theorem tile_apply (A0 : S50000x64.Idx → EReal) (A1 : S50000x1.Idx → EReal) (A2 : S50000x128.Idx → EReal)
    (A3 : S128x64.Idx → EReal) (A4 : S1x64.Idx → EReal)
    (x0 : Vec Ideal S2000x64 .f32) (x1 : Vec Ideal S2000x1 .f32) (x2 : Vec Ideal S2000x128 .bf16)
    (x3 : Vec Ideal S128x64 .f32) (x4 : Vec Ideal S1x64 .f32) (T : ℕ)
    (h0 : ∀ (p : Fin 2000) (q : Fin 64) (r : Fin 50000), r.val = T * 2000 + p.val → x0 (ix2 p q) = A0 (ix2 r q))
    (h1 : ∀ (p : Fin 2000) (r : Fin 50000), r.val = T * 2000 + p.val → x1 (ix2 p (0 : Fin 1)) = A1 (ix2 r (0 : Fin 1)))
    (h2 : ∀ (p : Fin 2000) (k : Fin 128) (r : Fin 50000), r.val = T * 2000 + p.val → x2 (ix2 p k) = A2 (ix2 r k))
    (h3 : x3 = A3) (h4 : x4 = A4)
    (y : S2000x64.Idx) (i : S50000x64.Idx) (hi0 : (i 0).val = T * 2000 + (y 0).val) (hi1 : (i 1).val = (y 1).val) :
    k1_pay1 x0 x1 x4 x2 x3 y = Cert.Sage.out2 A0 A1 (fun p k => A2 (ix2 p k)) A3 A4 (i 0) (i 1) := by
  obtain ⟨p, q, rfl⟩ : ∃ (p : Fin 2000) (q : Fin 64), y = ix2 p q := ⟨y 0, y 1, eq_ix2 y⟩
  obtain ⟨r, s, rfl⟩ : ∃ (r : Fin 50000) (s : Fin 64), i = ix2 r s := ⟨i 0, i 1, eq_ix2 i⟩
  have hr : r.val = T * 2000 + p.val := hi0
  obtain rfl : s = q := Fin.ext hi1
  rw [pay_apply]
  show _ = ((A0 (ix2 r s) * A1 (ix2 r 0)) + A4 (ix2 0 s)) + ∑ k : Fin 128, A2 (ix2 r k) * A3 (ix2 k s)
  rw [h0 p s r hr, h1 p r hr, h3, h4]
  exact congrArg _ (Finset.sum_congr rfl fun k _ => by rw [h2 p k r hr])

/-! ## What a tile writes back, the cover, the array -/

/-- The array the region leaves in the result window: the second combine step of the arrays it found. -/
abbrev G (c : Dev nD) : S50000x64.Idx → EReal := fun i =>
  Cert.Sage.out2 (V c (Pipeline.arrRef spec1 0)) (V c (Pipeline.arrRef spec1 1))
    (fun p k => V c (Pipeline.arrRef spec1 2) (ix2 p k)) (V c (Pipeline.arrRef spec1 3))
    (V c (Pipeline.arrRef spec1 4)) (i 0) (i 1)

/-- What tile `t` writes back is block `t` of `G`. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 (F := Ideal) V c).after 5 t) = _
  rw [after1_5]
  unfold out1_5
  rw [View.canon_unit_zero hz]
  simp only [View.ld_unit_zero (S := S2000x64) hz, View.ld_unit_zero (S := S2000x1) hz,
    View.ld_unit_zero (S := S2000x128) hz, View.ld_unit_zero (S := S128x64) hz, View.ld_unit_zero (S := S1x64) hz]
  obtain ⟨-, -, -, -, -, -, -, -, -, -, e0, e1⟩ := idx_facts t
  funext j
  rw [View.read_apply]
  refine tile_apply (V c (Pipeline.arrRef spec1 0)) (V c (Pipeline.arrRef spec1 1)) (V c (Pipeline.arrRef spec1 2))
    (V c (Pipeline.arrRef spec1 3)) (V c (Pipeline.arrRef spec1 4))
    (iblk1 V c 0 t) (iblk1 V c 1 t) (iblk1 V c 2 t) (iblk1 V c 3 t) (iblk1 V c 4 t) t.val
    (iblk_agg V c t) (iblk_dinv V c t) (iblk_hid V c t) (iblk_w V c t) (iblk_b V c t)
    ((cfg1.win 5).xinj (grid1.coords t) j) (((cfg1.win 5).blk t).view.emb j) ?_ ?_
  · show win1_5.index t (0 : Fin 2) * 2000 + 1 * (j 0).val = t.val * 2000 + (j 0).val
    rw [e0]; omega
  · show win1_5.index t (1 : Fin 2) * 64 + 1 * (j 1).val = (j 1).val
    rw [e1]; omega

/-- An index of the result array is in tile `t`'s block iff each coordinate is in the block's range on its axis. -/
theorem mem_blk (t : Fin cfg1.N) (i : S50000x64.Idx) :
    i ∈ ((cfg1.win 5).blk t).view.set ↔ ∀ a : Fin 2, win1_5.index t a * S2000x64.size a ≤ (i a).val
      ∧ (i a).val < win1_5.index t a * S2000x64.size a + S2000x64.size a := by
  show i ∈ ((View.whole main_v27).slice (win1_5.rect t)).set ↔ _
  rw [View.set_slice_whole, Rect.mem_set_unit]
  exact Iff.rfl

/-- The 25 tiles cover the array: row `r` is in tile `r / 2000`. -/
theorem cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, -, -, -, -, e0, e1⟩ := idx_facts t
  refine ⟨t, flush1_5 t, ?_⟩
  rw [mem_blk]
  intro a
  match a with
  | ⟨0, _⟩ =>
    show win1_5.index t (0 : Fin 2) * 2000 ≤ (i 0).val ∧ (i 0).val < win1_5.index t (0 : Fin 2) * 2000 + 2000
    rw [e0, ht]; omega
  | ⟨1, _⟩ =>
    show win1_5.index t (1 : Fin 2) * 64 ≤ (i 1).val ∧ (i 1).val < win1_5.index t (1 : Fin 2) * 64 + 64
    rw [e1]; omega

/-- THE ARRAY after the region: the second combine step of the arrays the region found, index by index. -/
theorem result (c : Dev nD) : (dat1 (F := Ideal) V c).arrAt 5 cfg1.N = fun (i : S50000x64.Idx) =>
    Cert.Sage.out2 (V c (Pipeline.arrRef spec1 0)) (V c (Pipeline.arrRef spec1 1))
      (fun p k => V c (Pipeline.arrRef spec1 2) (ix2 p k)) (V c (Pipeline.arrRef spec1 3))
      (V c (Pipeline.arrRef spec1 4)) (i 0) (i 1) :=
  (dat1 (F := Ideal) V c).arrAt_eq_of_cover 5 (G V c) (fun t _ => flushed_eq V c t) cover

end Cert.KernelIdeal.Region1

end
-- ==== Proof.SageHost.lean ====
/-
  The host-side functions both programs share, over literal shapes, as pure functions of arrays:
  the two rows of the edge list (source and destination node of every edge), the reciprocal in-degree
  (zero for a node with no incoming edge), the row table lookup with its out-of-range fill, the
  segment sum (a scatter-add of edge rows into node rows along the destinations), and one combine layer
  `(agg · dinv) W_l + b + root W_r` written with whole-array matrix products.
  Every side condition the shape operations ask for is a field of one class of evidence.
-/
import Idealize.ShloMosaic.PureOps.Ideal
import Idealize.ShloMosaic.PureOps.Ideal.Laws
import Idealize.ShloMosaic.Lib.ValueIdx

noncomputable section

namespace Cert.SageHost

open Idealize.ShloMosaic Idealize.ShloMosaic.ValueIdx

abbrev S_ : Shape := ⟨0, ![]⟩
abbrev SE : Shape := ⟨1, ![800000]⟩
abbrev SN : Shape := ⟨1, ![50000]⟩
abbrev S2E : Shape := ⟨2, ![2, 800000]⟩
abbrev S1E : Shape := ⟨2, ![1, 800000]⟩
abbrev SE1 : Shape := ⟨2, ![800000, 1]⟩
abbrev SN1 : Shape := ⟨2, ![50000, 1]⟩
abbrev S1 : Shape := ⟨1, ![1]⟩
abbrev S11 : Shape := ⟨2, ![1, 1]⟩
abbrev SEx (C : Nat) : Shape := ⟨2, ![800000, C]⟩
abbrev SNx (C : Nat) : Shape := ⟨2, ![50000, C]⟩
abbrev SKx (K C : Nat) : Shape := ⟨2, ![K, C]⟩
abbrev S1x (C : Nat) : Shape := ⟨2, ![1, C]⟩
abbrev Sv (C : Nat) : Shape := ⟨1, ![C]⟩

/-- The side conditions of the shape operations below. -/
class Ev : Prop where
  sl0 : S2E.Slices ![0, 0] S1E
  sl1 : S2E.Slices ![1, 0] S1E
  sc : S1E.ShapeCasts SE
  bE : S_.BroadcastsInDim SE (![] : Fin 0 → Fin SE.rank)
  bN : S_.BroadcastsInDim SN (![] : Fin 0 → Fin SN.rank)
  bEE1 : SE.BroadcastsInDim SE1 (![0] : Fin 1 → Fin SE1.rank)
  bE1 : S_.BroadcastsInDim SE1 (![] : Fin 0 → Fin SE1.rank)
  b1_11 : S1.BroadcastsInDim S11 (![1] : Fin 1 → Fin S11.rank)
  b11_E1 : S11.BroadcastsInDim SE1 (![0, 1] : Fin 2 → Fin SE1.rank)
  rE1 : SE1.ReducesTo [1] SE
  hS_ : 0 < S_.numel
  wfCount : ScatterDims.WF SN SE1 SE [] [0] [0] 1

/-- The side conditions that depend on the feature width `C`. -/
class EvC (C : Nat) : Prop where
  bEEx : SE.BroadcastsInDim (SEx C) (![0] : Fin 1 → Fin (SEx C).rank)
  bEx : S_.BroadcastsInDim (SEx C) (![] : Fin 0 → Fin (SEx C).rank)
  bNx : S_.BroadcastsInDim (SNx C) (![] : Fin 0 → Fin (SNx C).rank)
  wfGather : GatherDims.WF (SNx C) SE1 (SEx C) [1] [0] [] [0] [] 1 ![1, C]
  wfScatter : ScatterDims.WF (SNx C) SE1 (SEx C) [1] [0] [0] 1

/-- The side conditions of the broadcasts of the reciprocal degree along a node row. -/
class EvR : Prop where
  bN_N1 : SN.BroadcastsInDim SN1 (![0] : Fin 1 → Fin SN1.rank)
  bN1_N128 : SN1.BroadcastsInDim (SNx 128) (![0, 1] : Fin 2 → Fin (SNx 128).rank)

/-- The side conditions of the broadcasts of a bias of width `C` down the node rows. -/
class EvL (C : Nat) : Prop where
  bC_1C : (Sv C).BroadcastsInDim (S1x C) (![1] : Fin 1 → Fin (S1x C).rank)
  b1C_NC : (S1x C).BroadcastsInDim (SNx C) (![0, 1] : Fin 2 → Fin (SNx C).rank)

variable {F : FTy → Type} [FloatOps F]

/-- The dimension numbers of the degree count: scalar updates, one per edge, added at the edge's node. -/
def countDims [Ev] : ScatterDims SN SE1 SE where
  updateWindowDims := []
  insertedWindowDims := [0]
  scatterDimsToOperandDims := [0]
  indexVectorDim := 1
  wf := Ev.wfCount

/-- Row `r` of the edge list as a vector of node ids. -/
def srcOf [Ev] (ei : IVec S2E 32) : IVec SE 32 :=
  shapeCast SE ((extractStridedSlice S1E ![0, 0] · Ev.sl0) ei) Ev.sc
def dstOf [Ev] (ei : IVec S2E 32) : IVec SE 32 :=
  shapeCast SE ((extractStridedSlice S1E ![1, 0] · Ev.sl1) ei) Ev.sc

/-- The in-degree of every node: ones added along the destinations into zeros. -/
def degree [Ev] (dst : IVec SE 32) : FVec F SN .f32 :=
  Host.scatterAdd countDims (broadcastInDim SN ![] Ev.bN (constant S_ .f32 0x00000000#32))
    (broadcastInDim SE1 ![0] Ev.bEE1 dst) (broadcastInDim SE ![] Ev.bE (constant S_ .f32 0x3F800000#32))

/-- The reciprocal in-degree: `1 / max(deg, 1)` where `deg > 0`, else `0`. -/
def degInv [Ev] (dst : IVec SE 32) : FVec F SN .f32 :=
  select (cmpf .ogt (degree (F := F) dst) (broadcastInDim SN ![] Ev.bN (constant S_ .f32 0x00000000#32)))
    (Host.divf (broadcastInDim SN ![] Ev.bN (constant S_ .f32 0x3F800000#32))
      (maximumf (degree (F := F) dst) (broadcastInDim SN ![] Ev.bN (constant S_ .f32 0x3F800000#32))))
    (broadcastInDim SN ![] Ev.bN (id (constant S_ .f32 0x00000000#32)))

/-- The dimension numbers of a row lookup: result row `e` is the table's row at the `e`-th id. -/
def gatherDims (C : Nat) [EvC C] : GatherDims (SNx C) SE1 (SEx C) where
  offsetDims := [1]
  collapsedSliceDims := [0]
  operandBatchingDims := []
  startIndicesBatchingDims := []
  startIndexMap := [0]
  indexVectorDim := 1
  sliceSizes := ![1, C]
  wf := EvC.wfGather

/-- The dimension numbers of a segment sum: update row `e` is added into the operand's row at the `e`-th id. -/
def scatterDims (C : Nat) [EvC C] : ScatterDims (SNx C) SE1 (SEx C) where
  updateWindowDims := [1]
  insertedWindowDims := [0]
  scatterDimsToOperandDims := [0]
  indexVectorDim := 1
  wf := EvC.wfScatter

/-- The row ids with a negative id wrapped once (`s + 50000` where `s < 0`), as a column. -/
def wrapped [Ev] (s : IVec SE 32) : IVec SE1 32 :=
  broadcastInDim SE1 ![0] Ev.bEE1
    (select (cmpi .slt s (broadcastInDim SE ![] Ev.bE (constantI S_ 32 0#32)))
      (addi s (broadcastInDim SE ![] Ev.bE (constantI S_ 32 50000#32))) s)

/-- Which wrapped ids are valid rows: `0 ≤ id ≤ 49999`. -/
def inRange [Ev] (s : IVec SE 32) : IVec SE 1 :=
  (fun x v => Host.reduce IntOp.andi x v Ev.rE1 Ev.hS_)
    (andi (cmpi .sge (wrapped s) (broadcastInDim SE1 ![] Ev.bE1 (constantI S_ 32 0#32)))
      (cmpi .sle (wrapped s) (broadcastInDim SE1 ![0, 1] Ev.b11_E1 (broadcastInDim S11 ![1] Ev.b1_11 (constantI S1 32 49999#32)))))
    (constantI S_ 1 1#1)

/-- The table's rows at the given ids; a row whose id is out of range is filled with the word `0x7FC00000`. -/
def take [Ev] (C : Nat) [EvC C] (T : FVec F (SNx C) .f32) (s : IVec SE 32) : FVec F (SEx C) .f32 :=
  select (broadcastInDim (SEx C) ![0] EvC.bEEx (inRange s))
    ((fun x i => Host.gather (gatherDims C) x i) T (wrapped s))
    (broadcastInDim (SEx C) ![] EvC.bEx (constant S_ .f32 0x7FC00000#32))

/-- The edge rows `U` summed into node rows along the destinations `dst`, from zero. -/
def segSum [Ev] (C : Nat) [EvC C] (dst : IVec SE 32) (U : FVec F (SEx C) .f32) : FVec F (SNx C) .f32 :=
  (fun x i u => Host.scatterAdd (scatterDims C) x i u)
    (broadcastInDim (SNx C) ![] EvC.bNx (constant S_ .f32 0x00000000#32)) (broadcastInDim SE1 ![0] Ev.bEE1 dst) U

/-- One combine layer in whole-array form: `((segSum (take T) · dinv) W_l + b) + T W_r`, every product a plain
    matrix product, the reciprocal degree and the bias broadcast along the rows. -/
def layer [Ev] [EvC 128] [EvR] (C : Nat) [EvL C] (T : FVec F (SNx 128) .f32) (src dst : IVec SE 32) (dinv : FVec F SN .f32)
    (wl : FVec F (SKx 128 C) .f32) (b : FVec F (Sv C) .f32) (wr : FVec F (SKx 128 C) .f32) : FVec F (SNx C) .f32 :=
  addf (addf ((fun l r => Host.dotGeneral (DotDims.plain 50000 128 C) none l r)
        (mulf (segSum 128 dst (take 128 T src))
          (broadcastInDim (SNx 128) ![0, 1] EvR.bN1_N128 (broadcastInDim SN1 ![0] EvR.bN_N1 dinv))) wl)
      (broadcastInDim (SNx C) ![0, 1] EvL.b1C_NC (broadcastInDim (S1x C) ![1] EvL.bC_1C b)))
    ((fun l r => Host.dotGeneral (DotDims.plain 50000 128 C) none l r) T wr)

/-- The clamp at zero from below of a whole node array. -/
def relu [EvC 128] (T : FVec F (SNx 128) .f32) : FVec F (SNx 128) .f32 :=
  maximumf T (broadcastInDim (SNx 128) ![] EvC.bNx (constant S_ .f32 0x00000000#32))

/-- The two-layer network in whole-array form: the second layer applied to the clamped first layer. -/
def network [Ev] [EvC 128] [EvR] [EvL 128] [EvL 64] (x : FVec F (SNx 128) .f32) (ei : IVec S2E 32)
    (w1l : FVec F (SKx 128 128) .f32) (b1 : FVec F (Sv 128) .f32) (w1r : FVec F (SKx 128 128) .f32)
    (w2l : FVec F (SKx 128 64) .f32) (b2 : FVec F (Sv 64) .f32) (w2r : FVec F (SKx 128 64) .f32) : FVec F (SNx 64) .f32 :=
  layer 64 (relu (layer 128 x (srcOf ei) (dstOf ei) (degInv (dstOf ei)) w1l b1 w1r)) (srcOf ei) (dstOf ei)
    (degInv (dstOf ei)) w2l b2 w2r

end Cert.SageHost

end
-- ==== Proof.KHost.lean ====
/-
  What the kernel program's buffers hold when each of its two regions is entered, read back through the host
  operations to the launch memory.

  The program is seven stretches of host operations around two regions. Each stretch is read ONCE, over an arbitrary
  valuation of the buffers: what it leaves in each buffer a region (or a later stretch) reads, as a shared host
  function (source and destination rows of the edge list, reciprocal in-degree, row lookup, segment sum) of the
  buffers it read; and that it leaves every buffer it does not write alone. The boundary contents are then these
  equations composed along the fold.
-/
import proofs.«153042_j9998683865369_2_alg».proof.Proof.Gen.KernelIdeal.Frame
import proofs.«153042_j9998683865369_2_alg».proof.Proof.SageHost
import Idealize.ShloMosaic.Lib.StableHlo.Run

noncomputable section

namespace Cert.KernelIdeal.KHost

open Cert.KernelIdeal Cert.KernelIdeal.Gen
open Idealize.ShloMosaic Idealize.ShloMosaic.TcCoe Idealize.SL.Sem

/-! ## The side conditions of the shared host functions, from the program's own -/

instance ev : Cert.SageHost.Ev where
  sl0 := Gen.slices_S2x800000_S1x800000_0_0
  sl1 := Gen.slices_S2x800000_S1x800000_1_0
  sc := Gen.shapeCasts_S1x800000_S800000
  bE := Gen.bcast_S_S800000
  bN := Gen.bcast_S_S50000
  bEE1 := Gen.bcast_S800000_S800000x1_0
  bE1 := Gen.bcast_S_S800000x1
  b1_11 := Gen.bcast_S1_S1x1_1
  b11_E1 := Gen.bcast_S1x1_S800000x1_0_1
  rE1 := Gen.reducesTo_S800000x1_S800000_d1
  hS_ := Gen.h_S_
  wfCount := Gen.scatter_S50000_S800000x1_S800000_n_0_0_1_wf

instance ev128 : Cert.SageHost.EvC 128 where
  bEEx := Gen.bcast_S800000_S800000x128_0
  bEx := Gen.bcast_S_S800000x128
  bNx := Gen.bcast_S_S50000x128
  wfGather := Gen.gather_S50000x128_S800000x1_S800000x128_1_0_n_n_0_1_1128_wf
  wfScatter := Gen.scatter_S50000x128_S800000x1_S800000x128_1_0_0_1_wf

instance ev64 : Cert.SageHost.EvC 64 where
  bEEx := Gen.bcast_S800000_S800000x64_0
  bEx := Gen.bcast_S_S800000x64
  bNx := Gen.bcast_S_S50000x64
  wfGather := Gen.gather_S50000x64_S800000x1_S800000x64_1_0_n_n_0_1_164_wf
  wfScatter := Gen.scatter_S50000x64_S800000x1_S800000x64_1_0_0_1_wf

/-! ## What each stretch writes: every other buffer it leaves alone -/

/-- The buffers the first stretch writes. -/
abbrev wr0 : List (Ref sig .tc) :=
  [main_v0, main_v1, main_v2, main_v3, main_cst, main_v4, main_cst_0, main_v5, main_v6, main_v7, main_cst_1, main_v8,
   main_v9, main_cst_2, main_v10, main_v11, main_cst_3, main_v12, main_v13, main_cst_4]
/-- The buffers the select of the reciprocal degree writes. -/
abbrev wr0_1 : List (Ref sig .tc) := [main_call0_v0, main_call0_v1, main_v14]
/-- The reshape to a column writes one. -/
abbrev wr0_2 : List (Ref sig .tc) := [main_v15]
/-- The buffers the first row lookup writes. -/
abbrev wr0_3 : List (Ref sig .tc) :=
  [main_call1_c, main_call1_v0, main_call1_v1, main_call1_c_0, main_call1_v2, main_call1_v3, main_call1_v4, main_call1_v5,
   main_call1_c_1, main_call1_c_2, main_call1_v6, main_call1_v7, main_call1_v8, main_call1_v9, main_call1_v10,
   main_call1_v11, main_call1_c_3, main_call1_v12, main_call1_v13, main_call1_v14, main_call1_cst, main_call1_v15, main_v16]
/-- The buffers the first segment sum and the bias reshape write. -/
abbrev wr0_4 : List (Ref sig .tc) := [main_cst_5, main_v17, main_v18, main_v19, main_v20]
/-- The buffers the second row lookup writes. -/
abbrev wr1 : List (Ref sig .tc) :=
  [main_call2_c, main_call2_v0, main_call2_v1, main_call2_c_0, main_call2_v2, main_call2_v3, main_call2_v4, main_call2_v5,
   main_call2_c_1, main_call2_c_2, main_call2_v6, main_call2_v7, main_call2_v8, main_call2_v9, main_call2_v10,
   main_call2_v11, main_call2_c_3, main_call2_v12, main_call2_v13, main_call2_v14, main_call2_cst, main_call2_v15, main_v22]
/-- The buffers the second segment sum and the bias reshape write. -/
abbrev wr1_1 : List (Ref sig .tc) := [main_cst_6, main_v23, main_v24, main_v25, main_v26]

/-- One operation's result buffer is in the list. -/
theorem single_sub {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

local macro "writes_in " ops:ident : tactic =>
  `(tactic| (simp only [$ops:ident, List.Forall, StableHlo.nullary_writes, StableHlo.unary_writes, StableHlo.binary_writes,
      StableHlo.ternary_writes, StableHlo.quaternary_writes, StableHlo.reshape_writes]
             repeat' apply And.intro
             all_goals exact single_sub (by decide)))

theorem writes0 : (hostOps0 : List (HloOp τ sig (Elt Ideal))).Forall fun op => op.writes ⊆ (wr0.map (Proc.devRef (τ := τ) .tc)).toFinset := by
  writes_in hostOps0
theorem writes0_1 : (hostOps0_1 : List (HloOp τ sig (Elt Ideal))).Forall fun op => op.writes ⊆ (wr0_1.map (Proc.devRef (τ := τ) .tc)).toFinset := by
  writes_in hostOps0_1
theorem writes0_2 : (hostOps0_2 : List (HloOp τ sig (Elt Ideal))).Forall fun op => op.writes ⊆ (wr0_2.map (Proc.devRef (τ := τ) .tc)).toFinset := by
  writes_in hostOps0_2
theorem writes0_3 : (hostOps0_3 : List (HloOp τ sig (Elt Ideal))).Forall fun op => op.writes ⊆ (wr0_3.map (Proc.devRef (τ := τ) .tc)).toFinset := by
  writes_in hostOps0_3
theorem writes0_4 : (hostOps0_4 : List (HloOp τ sig (Elt Ideal))).Forall fun op => op.writes ⊆ (wr0_4.map (Proc.devRef (τ := τ) .tc)).toFinset := by
  writes_in hostOps0_4
theorem writes1 : (hostOps1 : List (HloOp τ sig (Elt Ideal))).Forall fun op => op.writes ⊆ (wr1.map (Proc.devRef (τ := τ) .tc)).toFinset := by
  writes_in hostOps1
theorem writes1_1 : (hostOps1_1 : List (HloOp τ sig (Elt Ideal))).Forall fun op => op.writes ⊆ (wr1_1.map (Proc.devRef (τ := τ) .tc)).toFinset := by
  writes_in hostOps1_1

variable (m : (l : Loc nD τ sig) → Buf (Elt Ideal) l) (ρ : Dev nD → PrngReg) (c : Dev nD)

/-- A buffer a stretch does not write holds after it what it held before: one step of the fold per stretch. -/
theorem keep1 (r : Ref sig .tc) (h : r ∉ wr0) : W1 m ρ c (Proc.devRef .tc r) = W0 m ρ c (Proc.devRef .tc r) :=
  StableHlo.after_of_writes_sub _ _ writes0 h
theorem keep2 (r : Ref sig .tc) (h : r ∉ wr0_1) : W2 m ρ c (Proc.devRef .tc r) = W1 m ρ c (Proc.devRef .tc r) :=
  StableHlo.after_of_writes_sub _ _ writes0_1 h
theorem keep3 (r : Ref sig .tc) (h : r ∉ wr0_2) : W3 m ρ c (Proc.devRef .tc r) = W2 m ρ c (Proc.devRef .tc r) :=
  StableHlo.after_of_writes_sub _ _ writes0_2 h
theorem keep4 (r : Ref sig .tc) (h : r ∉ wr0_3) : W4 m ρ c (Proc.devRef .tc r) = W3 m ρ c (Proc.devRef .tc r) :=
  StableHlo.after_of_writes_sub _ _ writes0_3 h
theorem keep5 (r : Ref sig .tc) (h : r ∉ wr0_4) : W5 m ρ c (Proc.devRef .tc r) = W4 m ρ c (Proc.devRef .tc r) :=
  StableHlo.after_of_writes_sub _ _ writes0_4 h
theorem keep7 (r : Ref sig .tc) (h : r ∉ wr1) : W7 m ρ c (Proc.devRef .tc r) = W6 m ρ c (Proc.devRef .tc r) :=
  StableHlo.after_of_writes_sub _ _ writes1 h
theorem keep8 (r : Ref sig .tc) (h : r ∉ wr1_1) : W8 m ρ c (Proc.devRef .tc r) = W7 m ρ c (Proc.devRef .tc r) :=
  StableHlo.after_of_writes_sub _ _ writes1_1 h

/-- At the launch a buffer holds the launch memory. -/
theorem at0 (r : Ref sig .tc) : W0 m ρ c (Proc.devRef .tc r) = m ((c : Thread nD τ).loc r) := rfl

/-- A buffer none of the first `k` stretches writes holds the launch memory after them. -/
theorem at1 (r : Ref sig .tc) (h0 : r ∉ wr0) : W1 m ρ c (Proc.devRef .tc r) = m ((c : Thread nD τ).loc r) :=
  (keep1 m ρ c r h0).trans (at0 m ρ c r)
theorem at2 (r : Ref sig .tc) (h0 : r ∉ wr0) (h1 : r ∉ wr0_1) : W2 m ρ c (Proc.devRef .tc r) = m ((c : Thread nD τ).loc r) :=
  (keep2 m ρ c r h1).trans (at1 m ρ c r h0)
theorem at3 (r : Ref sig .tc) (h0 : r ∉ wr0) (h1 : r ∉ wr0_1) (h2 : r ∉ wr0_2) :
    W3 m ρ c (Proc.devRef .tc r) = m ((c : Thread nD τ).loc r) :=
  (keep3 m ρ c r h2).trans (at2 m ρ c r h0 h1)
theorem at4 (r : Ref sig .tc) (h0 : r ∉ wr0) (h1 : r ∉ wr0_1) (h2 : r ∉ wr0_2) (h3 : r ∉ wr0_3) :
    W4 m ρ c (Proc.devRef .tc r) = m ((c : Thread nD τ).loc r) :=
  (keep4 m ρ c r h3).trans (at3 m ρ c r h0 h1 h2)
theorem at5 (r : Ref sig .tc) (h0 : r ∉ wr0) (h1 : r ∉ wr0_1) (h2 : r ∉ wr0_2) (h3 : r ∉ wr0_3) (h4 : r ∉ wr0_4) :
    W5 m ρ c (Proc.devRef .tc r) = m ((c : Thread nD τ).loc r) :=
  (keep5 m ρ c r h4).trans (at4 m ρ c r h0 h1 h2 h3)

/-! ## Region 0's entry: the windows that are arguments -/

theorem e0_2 : V5 m ρ c (Pipeline.arrRef spec0 2) = m ((c : Thread nD τ).loc main_arg0) :=
  at5 m ρ c main_arg0 (by decide) (by decide) (by decide) (by decide) (by decide)
theorem e0_3 : V5 m ρ c (Pipeline.arrRef spec0 3) = m ((c : Thread nD τ).loc main_arg2) :=
  at5 m ρ c main_arg2 (by decide) (by decide) (by decide) (by decide) (by decide)
theorem e0_5 : V5 m ρ c (Pipeline.arrRef spec0 5) = m ((c : Thread nD τ).loc main_arg4) :=
  at5 m ρ c main_arg4 (by decide) (by decide) (by decide) (by decide) (by decide)
theorem e0_6 : V5 m ρ c (Pipeline.arrRef spec0 6) = m ((c : Thread nD τ).loc main_arg5) :=
  at5 m ρ c main_arg5 (by decide) (by decide) (by decide) (by decide) (by decide)

/-! ## The stretches, each read once over an arbitrary valuation -/

/-- The fold over two stretches run one after the other is the second's fold from the first's. -/
theorem after_append (l₁ l₂ : List (HloOp τ sig (Elt Ideal))) (U : Valuation τ sig (Elt Ideal)) :
    StableHlo.after (l₁ ++ l₂) U = StableHlo.after l₂ (StableHlo.after l₁ U) := by
  induction l₁ generalizing U with
  | nil => rfl
  | cons op l ih => exact ih _

section Stretches

variable (V : Valuation τ sig (Elt Ideal))

-- the folds over the 800000 edges stay folded: the equations below compare structure and never look inside them
attribute [local irreducible] Host.reduce Host.gather Host.scatterAdd Host.divf

/-- The first stretch leaves the edge list's first row (the sources) in its flat buffer … -/
theorem s0_src : StableHlo.after hostOps0 V (Proc.devRef .tc main_v1)
    = Cert.SageHost.srcOf (V (Proc.devRef .tc main_arg1) : IVec S2x800000 32) := by
  after_results
  rfl
/-- … and the second row (the destinations) in its own. -/
theorem s0_dst : StableHlo.after hostOps0 V (Proc.devRef .tc main_v3)
    = Cert.SageHost.dstOf (V (Proc.devRef .tc main_arg1) : IVec S2x800000 32) := by
  after_results
  rfl
/-- Where the in-degree is positive … -/
theorem s0_pos : StableHlo.after hostOps0 V (Proc.devRef .tc main_v9)
    = cmpf .ogt (Cert.SageHost.degree (F := Ideal) (Cert.SageHost.dstOf (V (Proc.devRef .tc main_arg1) : IVec S2x800000 32)))
        (broadcastInDim S50000 ![] Gen.bcast_S_S50000 (constant (F := Ideal) S_ .f32 0x00000000#32)) := by
  after_results
  rfl
/-- … the reciprocal of the in-degree clamped at one from below … -/
theorem s0_recip : StableHlo.after hostOps0 V (Proc.devRef .tc main_v13)
    = Host.divf (broadcastInDim S50000 ![] Gen.bcast_S_S50000 (constant (F := Ideal) S_ .f32 0x3F800000#32))
        (maximumf (Cert.SageHost.degree (F := Ideal) (Cert.SageHost.dstOf (V (Proc.devRef .tc main_arg1) : IVec S2x800000 32)))
          (broadcastInDim S50000 ![] Gen.bcast_S_S50000 (constant (F := Ideal) S_ .f32 0x3F800000#32))) := by
  after_results
  rfl
/-- … and the zero the select falls back to. -/
theorem s0_zero : StableHlo.after hostOps0 V (Proc.devRef .tc main_cst_4) = constant (F := Ideal) S_ .f32 0x00000000#32 := by
  after_results

/-- The select of the reciprocal degree. -/
theorem s01_select : StableHlo.after hostOps0_1 V (Proc.devRef .tc main_v14)
    = select (V (Proc.devRef .tc main_v9) : IVec S50000 1) (V (Proc.devRef .tc main_v13) : FVec Ideal S50000 .f32)
        (broadcastInDim S50000 ![] Gen.bcast_S_S50000 (id (V (Proc.devRef .tc main_cst_4) : FVec Ideal S_ .f32))) := by
  after_results
  rfl

/-- The reciprocal degree as a column. -/
theorem s02_column : StableHlo.after hostOps0_2 V (Proc.devRef .tc main_v15)
    = shapeCast S50000x1 (V (Proc.devRef .tc main_v14) : FVec Ideal S50000 .f32) Gen.shapeCasts_S50000_S50000x1 := by
  after_results
  rfl

/-- The take1 row lookup in three parts: the ids wrapped into a column; which of them are valid rows; the rows
    fetched and the invalid ones filled. -/
abbrev take1A : List (HloOp τ sig (Elt Ideal)) :=
  [
    StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S800000, .i32⟩) (broadcastInDim S800000 ![] bcast_S_S800000),
    StableHlo.TRef.binary (.of main_v1 : StableHlo.TRef sig ⟨S800000, .i32⟩) (.of main_call1_v0 : StableHlo.TRef sig ⟨S800000, .i32⟩) (.of main_call1_v1 : StableHlo.TRef sig ⟨S800000, .i1⟩) (cmpi .slt),
    StableHlo.TRef.nullary (.of main_call1_c_0 : StableHlo.TRef sig ⟨S_, .i32⟩) (constantI S_ 32 50000#32),
    StableHlo.TRef.unary (.of main_call1_c_0 : StableHlo.TRef sig ⟨S_, .i32⟩) (.of main_call1_v2 : StableHlo.TRef sig ⟨S800000, .i32⟩) (broadcastInDim S800000 ![] bcast_S_S800000),
    StableHlo.TRef.binary (.of main_v1 : StableHlo.TRef sig ⟨S800000, .i32⟩) (.of main_call1_v2 : StableHlo.TRef sig ⟨S800000, .i32⟩) (.of main_call1_v3 : StableHlo.TRef sig ⟨S800000, .i32⟩) addi,
    StableHlo.TRef.ternary (.of main_call1_v1 : StableHlo.TRef sig ⟨S800000, .i1⟩) (.of main_call1_v3 : StableHlo.TRef sig ⟨S800000, .i32⟩) (.of main_v1 : StableHlo.TRef sig ⟨S800000, .i32⟩) (.of main_call1_v4 : StableHlo.TRef sig ⟨S800000, .i32⟩) select,
    StableHlo.TRef.unary main_call1_call0.v0 (.of main_call1_v5 : StableHlo.TRef sig ⟨S800000x1, .i32⟩) (broadcastInDim S800000x1 ![0] bcast_S800000_S800000x1_0) ]
abbrev take1B : List (HloOp τ sig (Elt Ideal)) :=
  [
    StableHlo.TRef.nullary (.of main_call1_c_1 : StableHlo.TRef sig ⟨S1, .i32⟩) (constantI S1 32 49999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S800000x1, .i32⟩) (broadcastInDim S800000x1 ![] bcast_S_S800000x1),
    StableHlo.TRef.binary (.of main_call1_v5 : StableHlo.TRef sig ⟨S800000x1, .i32⟩) (.of main_call1_v6 : StableHlo.TRef sig ⟨S800000x1, .i32⟩) (.of main_call1_v7 : StableHlo.TRef sig ⟨S800000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S800000x1, .i32⟩) (broadcastInDim S800000x1 ![0, 1] bcast_S1x1_S800000x1_0_1),
    StableHlo.TRef.binary (.of main_call1_v5 : StableHlo.TRef sig ⟨S800000x1, .i32⟩) (.of main_call1_v9 : StableHlo.TRef sig ⟨S800000x1, .i32⟩) (.of main_call1_v10 : StableHlo.TRef sig ⟨S800000x1, .i1⟩) (cmpi .sle),
    StableHlo.TRef.binary (.of main_call1_v7 : StableHlo.TRef sig ⟨S800000x1, .i1⟩) (.of main_call1_v10 : StableHlo.TRef sig ⟨S800000x1, .i1⟩) (.of main_call1_v11 : StableHlo.TRef sig ⟨S800000x1, .i1⟩) andi,
    StableHlo.TRef.nullary (.of main_call1_c_3 : StableHlo.TRef sig ⟨S_, .i1⟩) (constantI S_ 1 1#1),
    StableHlo.TRef.binary (.of main_call1_v11 : StableHlo.TRef sig ⟨S800000x1, .i1⟩) (.of main_call1_c_3 : StableHlo.TRef sig ⟨S_, .i1⟩) (.of main_call1_v12 : StableHlo.TRef sig ⟨S800000, .i1⟩) (fun x v => Host.reduce IntOp.andi x v reducesTo_S800000x1_S800000_d1 h_S_) ]
abbrev take1C : List (HloOp τ sig (Elt Ideal)) :=
  [
    StableHlo.TRef.binary (.of main_arg0 : StableHlo.TRef sig ⟨S50000x128, .f32⟩) (.of main_call1_v5 : StableHlo.TRef sig ⟨S800000x1, .i32⟩) (.of main_call1_v13 : StableHlo.TRef sig ⟨S800000x128, .f32⟩) (fun x i => Host.gather gather_S50000x128_S800000x1_S800000x128_1_0_n_n_0_1_1128 x i),
    StableHlo.TRef.unary (.of main_call1_v12 : StableHlo.TRef sig ⟨S800000, .i1⟩) (.of main_call1_v14 : StableHlo.TRef sig ⟨S800000x128, .i1⟩) (broadcastInDim S800000x128 ![0] bcast_S800000_S800000x128_0),
    StableHlo.TRef.nullary (.of main_call1_cst : StableHlo.TRef sig ⟨S_, .f32⟩) (constant (F := Ideal) S_ .f32 0x7FC00000#32),
    StableHlo.TRef.unary (.of main_call1_cst : StableHlo.TRef sig ⟨S_, .f32⟩) (.of main_call1_v15 : StableHlo.TRef sig ⟨S800000x128, .f32⟩) (broadcastInDim S800000x128 ![] bcast_S_S800000x128),
    StableHlo.TRef.ternary (.of main_call1_v14 : StableHlo.TRef sig ⟨S800000x128, .i1⟩) (.of main_call1_v13 : StableHlo.TRef sig ⟨S800000x128, .f32⟩) (.of main_call1_v15 : StableHlo.TRef sig ⟨S800000x128, .f32⟩) (.of main_v16 : StableHlo.TRef sig ⟨S800000x128, .f32⟩) select ]
theorem take1_split : (hostOps0_3 : List (HloOp τ sig (Elt Ideal))) = take1A ++ (take1B ++ take1C) := rfl

theorem take1A_col (U : Valuation τ sig (Elt Ideal)) : StableHlo.after take1A U (Proc.devRef .tc main_call1_v5)
    = Cert.SageHost.wrapped (U (Proc.devRef .tc main_v1) : IVec S800000 32) := by
  after_results
  rfl
theorem take1A_tbl (U : Valuation τ sig (Elt Ideal)) :
    StableHlo.after take1A U (Proc.devRef .tc main_arg0) = U (Proc.devRef .tc main_arg0) := by
  after_results
theorem take1B_rng (U : Valuation τ sig (Elt Ideal)) : StableHlo.after take1B U (Proc.devRef .tc main_call1_v12)
    = (fun x v => Host.reduce IntOp.andi x v Gen.reducesTo_S800000x1_S800000_d1 Gen.h_S_)
        (andi (cmpi .sge (U (Proc.devRef .tc main_call1_v5) : IVec S800000x1 32)
            (broadcastInDim S800000x1 ![] Gen.bcast_S_S800000x1 (constantI S_ 32 0#32)))
          (cmpi .sle (U (Proc.devRef .tc main_call1_v5) : IVec S800000x1 32)
            (broadcastInDim S800000x1 ![0, 1] Gen.bcast_S1x1_S800000x1_0_1
              (broadcastInDim S1x1 ![1] Gen.bcast_S1_S1x1_1 (constantI S1 32 49999#32)))))
        (constantI S_ 1 1#1) := by
  after_results
  rfl
theorem take1B_col (U : Valuation τ sig (Elt Ideal)) :
    StableHlo.after take1B U (Proc.devRef .tc main_call1_v5) = U (Proc.devRef .tc main_call1_v5) := by
  after_results
theorem take1B_tbl (U : Valuation τ sig (Elt Ideal)) :
    StableHlo.after take1B U (Proc.devRef .tc main_arg0) = U (Proc.devRef .tc main_arg0) := by
  after_results
theorem take1C_res (U : Valuation τ sig (Elt Ideal)) : StableHlo.after take1C U (Proc.devRef .tc main_v16)
    = select (broadcastInDim S800000x128 ![0] Gen.bcast_S800000_S800000x128_0 (U (Proc.devRef .tc main_call1_v12) : IVec S800000 1))
        ((fun x i => Host.gather gather_S50000x128_S800000x1_S800000x128_1_0_n_n_0_1_1128 x i) (U (Proc.devRef .tc main_arg0) : FVec Ideal S50000x128 .f32)
          (U (Proc.devRef .tc main_call1_v5) : IVec S800000x1 32))
        (broadcastInDim S800000x128 ![] Gen.bcast_S_S800000x128 (constant (F := Ideal) S_ .f32 0x7FC00000#32)) := by
  after_results
  rfl
/-- The first row lookup: the feature rows at the edges' sources. -/
theorem s03_take : StableHlo.after hostOps0_3 V (Proc.devRef .tc main_v16)
    = Cert.SageHost.take (F := Ideal) 128 (V (Proc.devRef .tc main_arg0) : FVec Ideal S50000x128 .f32)
        (V (Proc.devRef .tc main_v1) : IVec S800000 32) := by
  rw [take1_split, after_append, after_append, take1C_res, take1B_rng, take1B_col, take1B_tbl, take1A_col, take1A_tbl]
  unfold Cert.SageHost.take Cert.SageHost.inRange
  rfl

/-- The first segment sum: the looked-up rows added along the destinations … -/
theorem s04_sum : StableHlo.after hostOps0_4 V (Proc.devRef .tc main_v19)
    = Cert.SageHost.segSum (F := Ideal) 128 (V (Proc.devRef .tc main_v3) : IVec S800000 32)
        (V (Proc.devRef .tc main_v16) : FVec Ideal S800000x128 .f32) := by
  after_results
  rfl
/-- … and the first layer's bias as a row. -/
theorem s04_bias : StableHlo.after hostOps0_4 V (Proc.devRef .tc main_v20)
    = shapeCast S1x128 (V (Proc.devRef .tc main_arg3) : FVec Ideal S128 .f32) Gen.shapeCasts_S128_S1x128 := by
  after_results
  rfl

/-- The take2 row lookup in three parts: the ids wrapped into a column; which of them are valid rows; the rows
    fetched and the invalid ones filled. -/
abbrev take2A : List (HloOp τ sig (Elt Ideal)) :=
  [
    StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S800000, .i32⟩) (broadcastInDim S800000 ![] bcast_S_S800000),
    StableHlo.TRef.binary (.of main_v1 : StableHlo.TRef sig ⟨S800000, .i32⟩) (.of main_call2_v0 : StableHlo.TRef sig ⟨S800000, .i32⟩) (.of main_call2_v1 : StableHlo.TRef sig ⟨S800000, .i1⟩) (cmpi .slt),
    StableHlo.TRef.nullary (.of main_call2_c_0 : StableHlo.TRef sig ⟨S_, .i32⟩) (constantI S_ 32 50000#32),
    StableHlo.TRef.unary (.of main_call2_c_0 : StableHlo.TRef sig ⟨S_, .i32⟩) (.of main_call2_v2 : StableHlo.TRef sig ⟨S800000, .i32⟩) (broadcastInDim S800000 ![] bcast_S_S800000),
    StableHlo.TRef.binary (.of main_v1 : StableHlo.TRef sig ⟨S800000, .i32⟩) (.of main_call2_v2 : StableHlo.TRef sig ⟨S800000, .i32⟩) (.of main_call2_v3 : StableHlo.TRef sig ⟨S800000, .i32⟩) addi,
    StableHlo.TRef.ternary (.of main_call2_v1 : StableHlo.TRef sig ⟨S800000, .i1⟩) (.of main_call2_v3 : StableHlo.TRef sig ⟨S800000, .i32⟩) (.of main_v1 : StableHlo.TRef sig ⟨S800000, .i32⟩) (.of main_call2_v4 : StableHlo.TRef sig ⟨S800000, .i32⟩) select,
    StableHlo.TRef.unary main_call2_call0.v0 (.of main_call2_v5 : StableHlo.TRef sig ⟨S800000x1, .i32⟩) (broadcastInDim S800000x1 ![0] bcast_S800000_S800000x1_0) ]
abbrev take2B : List (HloOp τ sig (Elt Ideal)) :=
  [
    StableHlo.TRef.nullary (.of main_call2_c_1 : StableHlo.TRef sig ⟨S1, .i32⟩) (constantI S1 32 49999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S800000x1, .i32⟩) (broadcastInDim S800000x1 ![] bcast_S_S800000x1),
    StableHlo.TRef.binary (.of main_call2_v5 : StableHlo.TRef sig ⟨S800000x1, .i32⟩) (.of main_call2_v6 : StableHlo.TRef sig ⟨S800000x1, .i32⟩) (.of main_call2_v7 : StableHlo.TRef sig ⟨S800000x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S800000x1, .i32⟩) (broadcastInDim S800000x1 ![0, 1] bcast_S1x1_S800000x1_0_1),
    StableHlo.TRef.binary (.of main_call2_v5 : StableHlo.TRef sig ⟨S800000x1, .i32⟩) (.of main_call2_v9 : StableHlo.TRef sig ⟨S800000x1, .i32⟩) (.of main_call2_v10 : StableHlo.TRef sig ⟨S800000x1, .i1⟩) (cmpi .sle),
    StableHlo.TRef.binary (.of main_call2_v7 : StableHlo.TRef sig ⟨S800000x1, .i1⟩) (.of main_call2_v10 : StableHlo.TRef sig ⟨S800000x1, .i1⟩) (.of main_call2_v11 : StableHlo.TRef sig ⟨S800000x1, .i1⟩) andi,
    StableHlo.TRef.nullary (.of main_call2_c_3 : StableHlo.TRef sig ⟨S_, .i1⟩) (constantI S_ 1 1#1),
    StableHlo.TRef.binary (.of main_call2_v11 : StableHlo.TRef sig ⟨S800000x1, .i1⟩) (.of main_call2_c_3 : StableHlo.TRef sig ⟨S_, .i1⟩) (.of main_call2_v12 : StableHlo.TRef sig ⟨S800000, .i1⟩) (fun x v => Host.reduce IntOp.andi x v reducesTo_S800000x1_S800000_d1 h_S_) ]
abbrev take2C : List (HloOp τ sig (Elt Ideal)) :=
  [
    StableHlo.TRef.binary (.of main_v21_1 : StableHlo.TRef sig ⟨S50000x64, .f32⟩) (.of main_call2_v5 : StableHlo.TRef sig ⟨S800000x1, .i32⟩) (.of main_call2_v13 : StableHlo.TRef sig ⟨S800000x64, .f32⟩) (fun x i => Host.gather gather_S50000x64_S800000x1_S800000x64_1_0_n_n_0_1_164 x i),
    StableHlo.TRef.unary (.of main_call2_v12 : StableHlo.TRef sig ⟨S800000, .i1⟩) (.of main_call2_v14 : StableHlo.TRef sig ⟨S800000x64, .i1⟩) (broadcastInDim S800000x64 ![0] bcast_S800000_S800000x64_0),
    StableHlo.TRef.nullary (.of main_call2_cst : StableHlo.TRef sig ⟨S_, .f32⟩) (constant (F := Ideal) S_ .f32 0x7FC00000#32),
    StableHlo.TRef.unary (.of main_call2_cst : StableHlo.TRef sig ⟨S_, .f32⟩) (.of main_call2_v15 : StableHlo.TRef sig ⟨S800000x64, .f32⟩) (broadcastInDim S800000x64 ![] bcast_S_S800000x64),
    StableHlo.TRef.ternary (.of main_call2_v14 : StableHlo.TRef sig ⟨S800000x64, .i1⟩) (.of main_call2_v13 : StableHlo.TRef sig ⟨S800000x64, .f32⟩) (.of main_call2_v15 : StableHlo.TRef sig ⟨S800000x64, .f32⟩) (.of main_v22 : StableHlo.TRef sig ⟨S800000x64, .f32⟩) select ]
theorem take2_split : (hostOps1 : List (HloOp τ sig (Elt Ideal))) = take2A ++ (take2B ++ take2C) := rfl

theorem take2A_col (U : Valuation τ sig (Elt Ideal)) : StableHlo.after take2A U (Proc.devRef .tc main_call2_v5)
    = Cert.SageHost.wrapped (U (Proc.devRef .tc main_v1) : IVec S800000 32) := by
  after_results
  rfl
theorem take2A_tbl (U : Valuation τ sig (Elt Ideal)) :
    StableHlo.after take2A U (Proc.devRef .tc main_v21_1) = U (Proc.devRef .tc main_v21_1) := by
  after_results
theorem take2B_rng (U : Valuation τ sig (Elt Ideal)) : StableHlo.after take2B U (Proc.devRef .tc main_call2_v12)
    = (fun x v => Host.reduce IntOp.andi x v Gen.reducesTo_S800000x1_S800000_d1 Gen.h_S_)
        (andi (cmpi .sge (U (Proc.devRef .tc main_call2_v5) : IVec S800000x1 32)
            (broadcastInDim S800000x1 ![] Gen.bcast_S_S800000x1 (constantI S_ 32 0#32)))
          (cmpi .sle (U (Proc.devRef .tc main_call2_v5) : IVec S800000x1 32)
            (broadcastInDim S800000x1 ![0, 1] Gen.bcast_S1x1_S800000x1_0_1
              (broadcastInDim S1x1 ![1] Gen.bcast_S1_S1x1_1 (constantI S1 32 49999#32)))))
        (constantI S_ 1 1#1) := by
  after_results
  rfl
theorem take2B_col (U : Valuation τ sig (Elt Ideal)) :
    StableHlo.after take2B U (Proc.devRef .tc main_call2_v5) = U (Proc.devRef .tc main_call2_v5) := by
  after_results
theorem take2B_tbl (U : Valuation τ sig (Elt Ideal)) :
    StableHlo.after take2B U (Proc.devRef .tc main_v21_1) = U (Proc.devRef .tc main_v21_1) := by
  after_results
theorem take2C_res (U : Valuation τ sig (Elt Ideal)) : StableHlo.after take2C U (Proc.devRef .tc main_v22)
    = select (broadcastInDim S800000x64 ![0] Gen.bcast_S800000_S800000x64_0 (U (Proc.devRef .tc main_call2_v12) : IVec S800000 1))
        ((fun x i => Host.gather gather_S50000x64_S800000x1_S800000x64_1_0_n_n_0_1_164 x i) (U (Proc.devRef .tc main_v21_1) : FVec Ideal S50000x64 .f32)
          (U (Proc.devRef .tc main_call2_v5) : IVec S800000x1 32))
        (broadcastInDim S800000x64 ![] Gen.bcast_S_S800000x64 (constant (F := Ideal) S_ .f32 0x7FC00000#32)) := by
  after_results
  rfl
/-- The second row lookup: the projected rows at the edges' sources. -/
theorem s1_take : StableHlo.after hostOps1 V (Proc.devRef .tc main_v22)
    = Cert.SageHost.take (F := Ideal) 64 (V (Proc.devRef .tc main_v21_1) : FVec Ideal S50000x64 .f32)
        (V (Proc.devRef .tc main_v1) : IVec S800000 32) := by
  rw [take2_split, after_append, after_append, take2C_res, take2B_rng, take2B_col, take2B_tbl, take2A_col, take2A_tbl]
  unfold Cert.SageHost.take Cert.SageHost.inRange
  rfl

/-- The second segment sum … -/
theorem s11_sum : StableHlo.after hostOps1_1 V (Proc.devRef .tc main_v25)
    = Cert.SageHost.segSum (F := Ideal) 64 (V (Proc.devRef .tc main_v3) : IVec S800000 32)
        (V (Proc.devRef .tc main_v22) : FVec Ideal S800000x64 .f32) := by
  after_results
  rfl
/-- … and the second layer's bias as a row. -/
theorem s11_bias : StableHlo.after hostOps1_1 V (Proc.devRef .tc main_v26)
    = shapeCast S1x64 (V (Proc.devRef .tc main_arg6) : FVec Ideal S64 .f32) Gen.shapeCasts_S64_S1x64 := by
  after_results
  rfl

end Stretches

/-! ## The edge list's rows and the reciprocal degree along the fold -/

section Boundaries

attribute [local irreducible] Host.reduce Host.gather Host.scatterAdd Host.divf

/-- The sources after the first stretch, and wherever a later stretch or region reads them. -/
theorem src1 : W1 m ρ c (Proc.devRef .tc main_v1)
    = Cert.SageHost.srcOf (m ((c : Thread nD τ).loc main_arg1) : IVec S2x800000 32) :=
  s0_src (W0 m ρ c)
theorem src3 : W3 m ρ c (Proc.devRef .tc main_v1)
    = Cert.SageHost.srcOf (m ((c : Thread nD τ).loc main_arg1) : IVec S2x800000 32) :=
  (keep3 m ρ c main_v1 (by decide)).trans ((keep2 m ρ c main_v1 (by decide)).trans (src1 m ρ c))
theorem src6 : W6 m ρ c (Proc.devRef .tc main_v1)
    = Cert.SageHost.srcOf (m ((c : Thread nD τ).loc main_arg1) : IVec S2x800000 32) :=
  (W6_of_ne m ρ c main_v1 (by decide)).trans ((keep5 m ρ c main_v1 (by decide)).trans
    ((keep4 m ρ c main_v1 (by decide)).trans (src3 m ρ c)))

/-- The destinations likewise. -/
theorem dst1 : W1 m ρ c (Proc.devRef .tc main_v3)
    = Cert.SageHost.dstOf (m ((c : Thread nD τ).loc main_arg1) : IVec S2x800000 32) :=
  s0_dst (W0 m ρ c)
theorem dst4 : W4 m ρ c (Proc.devRef .tc main_v3)
    = Cert.SageHost.dstOf (m ((c : Thread nD τ).loc main_arg1) : IVec S2x800000 32) :=
  (keep4 m ρ c main_v3 (by decide)).trans ((keep3 m ρ c main_v3 (by decide)).trans
    ((keep2 m ρ c main_v3 (by decide)).trans (dst1 m ρ c)))
theorem dst7 : W7 m ρ c (Proc.devRef .tc main_v3)
    = Cert.SageHost.dstOf (m ((c : Thread nD τ).loc main_arg1) : IVec S2x800000 32) :=
  (keep7 m ρ c main_v3 (by decide)).trans ((W6_of_ne m ρ c main_v3 (by decide)).trans
    ((keep5 m ρ c main_v3 (by decide)).trans (dst4 m ρ c)))

/-- The reciprocal in-degree after the select: the three pieces the first stretch left, selected. -/
theorem dinv2 : W2 m ρ c (Proc.devRef .tc main_v14)
    = Cert.SageHost.degInv (F := Ideal) (Cert.SageHost.dstOf (m ((c : Thread nD τ).loc main_arg1) : IVec S2x800000 32)) := by
  refine (s01_select (W1 m ρ c)).trans ?_
  rw [show W1 m ρ c (Proc.devRef .tc main_v9) = _ from s0_pos (W0 m ρ c),
    show W1 m ρ c (Proc.devRef .tc main_v13) = _ from s0_recip (W0 m ρ c),
    show W1 m ρ c (Proc.devRef .tc main_cst_4) = _ from s0_zero (W0 m ρ c)]
  unfold Cert.SageHost.degInv
  rfl

/-! ## Region 0's entry: the windows the host stretches computed -/

theorem e0_1 : V5 m ρ c (Pipeline.arrRef spec0 1)
    = shapeCast S50000x1 (Cert.SageHost.degInv (F := Ideal)
        (Cert.SageHost.dstOf (m ((c : Thread nD τ).loc main_arg1) : IVec S2x800000 32))) Gen.shapeCasts_S50000_S50000x1 := by
  show W5 m ρ c (Proc.devRef .tc main_v15) = _
  rw [keep5 m ρ c main_v15 (by decide), keep4 m ρ c main_v15 (by decide)]
  refine (s02_column (W2 m ρ c)).trans ?_
  rw [dinv2 m ρ c]

theorem e0_4 : V5 m ρ c (Pipeline.arrRef spec0 4)
    = shapeCast S1x128 (m ((c : Thread nD τ).loc main_arg3) : FVec Ideal S128 .f32) Gen.shapeCasts_S128_S1x128 := by
  show W5 m ρ c (Proc.devRef .tc main_v20) = _
  refine (s04_bias (W4 m ρ c)).trans ?_
  rw [at4 m ρ c main_arg3 (by decide) (by decide) (by decide) (by decide)]

theorem e0_0 : V5 m ρ c (Pipeline.arrRef spec0 0)
    = Cert.SageHost.segSum (F := Ideal) 128 (Cert.SageHost.dstOf (m ((c : Thread nD τ).loc main_arg1) : IVec S2x800000 32))
        (Cert.SageHost.take (F := Ideal) 128 (m ((c : Thread nD τ).loc main_arg0) : FVec Ideal S50000x128 .f32)
          (Cert.SageHost.srcOf (m ((c : Thread nD τ).loc main_arg1) : IVec S2x800000 32))) := by
  show W5 m ρ c (Proc.devRef .tc main_v19) = _
  refine (s04_sum (W4 m ρ c)).trans ?_
  rw [dst4 m ρ c, show W4 m ρ c (Proc.devRef .tc main_v16) = _ from s03_take (W3 m ρ c), src3 m ρ c,
    at3 m ρ c main_arg0 (by decide) (by decide) (by decide)]

/-! ## Region 1's entry -/

theorem e1_0 : V8 m ρ c (Pipeline.arrRef spec1 0)
    = Cert.SageHost.segSum (F := Ideal) 64 (Cert.SageHost.dstOf (m ((c : Thread nD τ).loc main_arg1) : IVec S2x800000 32))
        (Cert.SageHost.take (F := Ideal) 64 ((dat0 (F := Ideal) (V5 m ρ) c).arrAt 8 cfg0.N : FVec Ideal S50000x64 .f32)
          (Cert.SageHost.srcOf (m ((c : Thread nD τ).loc main_arg1) : IVec S2x800000 32))) := by
  show W8 m ρ c (Proc.devRef .tc main_v25) = _
  refine (s11_sum (W7 m ρ c)).trans ?_
  rw [dst7 m ρ c, show W7 m ρ c (Proc.devRef .tc main_v22) = _ from s1_take (W6 m ρ c), src6 m ρ c,
    show W6 m ρ c (Proc.devRef .tc main_v21_1) = _ from W6_arr m ρ c 8]

theorem e1_1 : V8 m ρ c (Pipeline.arrRef spec1 1)
    = shapeCast S50000x1 (Cert.SageHost.degInv (F := Ideal)
        (Cert.SageHost.dstOf (m ((c : Thread nD τ).loc main_arg1) : IVec S2x800000 32))) Gen.shapeCasts_S50000_S50000x1 :=
  (keep8 m ρ c main_v15 (by decide)).trans ((keep7 m ρ c main_v15 (by decide)).trans
    (((W6_arr m ρ c 1).trans (((dat0 (V5 m ρ) c).arrAt_in 1 rfl _).trans (A_eq0 (V5 m ρ) c 1))).trans (e0_1 m ρ c)))

theorem e1_2 : V8 m ρ c (Pipeline.arrRef spec1 2) = (dat0 (F := Ideal) (V5 m ρ) c).arrAt 7 cfg0.N :=
  (keep8 m ρ c main_v21_0 (by decide)).trans ((keep7 m ρ c main_v21_0 (by decide)).trans (W6_arr m ρ c 7))

theorem e1_3 : V8 m ρ c (Pipeline.arrRef spec1 3) = m ((c : Thread nD τ).loc main_arg7) :=
  (keep8 m ρ c main_arg7 (by decide)).trans ((keep7 m ρ c main_arg7 (by decide)).trans
    ((W6_of_ne m ρ c main_arg7 (by decide)).trans
      (at5 m ρ c main_arg7 (by decide) (by decide) (by decide) (by decide) (by decide))))

theorem e1_4 : V8 m ρ c (Pipeline.arrRef spec1 4)
    = shapeCast S1x64 (m ((c : Thread nD τ).loc main_arg6) : FVec Ideal S64 .f32) Gen.shapeCasts_S64_S1x64 := by
  show W8 m ρ c (Proc.devRef .tc main_v26) = _
  refine (s11_bias (W7 m ρ c)).trans ?_
  rw [keep7 m ρ c main_arg6 (by decide), W6_of_ne m ρ c main_arg6 (by decide),
    at5 m ρ c main_arg6 (by decide) (by decide) (by decide) (by decide) (by decide)]

/-- The result buffer after region 1 is what its pipeline leaves in its output window. -/
theorem out_eq : W9 m ρ c (Proc.devRef .tc main_v27) = (dat1 (F := Ideal) (V8 m ρ) c).arrAt 5 cfg1.N :=
  W9_arr m ρ c 5

end Boundaries

end Cert.KernelIdeal.KHost

end
-- ==== Proof.SageOut.lean ====
/-
  The result of the program that projects before it aggregates, as one function of the argument arrays:
  the hidden layer `H` from the aggregated features, the projection `H W₂ₗ` looked up along the edges and summed
  into the nodes, scaled by the reciprocal degree, plus the bias and the root term `H W₂ᵣ`.
-/
import proofs.«153042_j9998683865369_2_alg».proof.Proof.SageHost
import proofs.«153042_j9998683865369_2_alg».proof.Proof.SageSpec

noncomputable section

namespace Cert.SageHost

open Idealize.ShloMosaic Idealize.ShloMosaic.ValueIdx Cert.Sage

/-- The side conditions of the three reshapes to a column or a row. -/
class EvK : Prop where
  scN : SN.ShapeCasts SN1
  sc128 : (Sv 128).ShapeCasts (S1x 128)
  sc64 : (Sv 64).ShapeCasts (S1x 64)

variable [Ev] [EvC 128] [EvC 64] [EvK]

/-- The hidden layer as a function of the argument arrays. -/
def hidden (x : FVec Ideal (SNx 128) .f32) (ei : IVec S2E 32) (w1l : FVec Ideal (SKx 128 128) .f32)
    (b1 : FVec Ideal (Sv 128) .f32) (w1r : FVec Ideal (SKx 128 128) .f32) : Fin 50000 → Fin 128 → EReal :=
  hid (segSum (F := Ideal) 128 (dstOf ei) (take (F := Ideal) 128 x (srcOf ei)))
    (shapeCast SN1 (degInv (F := Ideal) (dstOf ei)) EvK.scN) x w1l (shapeCast (S1x 128) b1 EvK.sc128) w1r

/-- The result with the projection made before the aggregation. -/
def kernelOut (x : FVec Ideal (SNx 128) .f32) (ei : IVec S2E 32) (w1l : FVec Ideal (SKx 128 128) .f32)
    (b1 : FVec Ideal (Sv 128) .f32) (w1r : FVec Ideal (SKx 128 128) .f32) (w2l : FVec Ideal (SKx 128 64) .f32)
    (b2 : FVec Ideal (Sv 64) .f32) (w2r : FVec Ideal (SKx 128 64) .f32) : (SNx 64).Idx → EReal :=
  fun i => out2
    (segSum (F := Ideal) 64 (dstOf ei)
      (take (F := Ideal) 64 (fun j => proj (hidden x ei w1l b1 w1r) w2l (j 0) (j 1)) (srcOf ei)))
    (shapeCast SN1 (degInv (F := Ideal) (dstOf ei)) EvK.scN) (hidden x ei w1l b1 w1r) w2r
    (shapeCast (S1x 64) b2 EvK.sc64) (i 0) (i 1)

end Cert.SageHost

end
-- ==== Proof.KValue.lean ====
/-
  The kernel program's result as one function of its argument arrays, at the ideal values.

  The program's last array is what the second region leaves; the second region leaves the second combine step of
  the arrays it found; those are the segment sum of the projected hidden layer looked up along the edges, the
  reciprocal degrees as a column, the hidden layer, the root weights and the bias as a row; the projected hidden
  layer and the hidden layer are what the first region leaves, which are the projection and the hidden layer of
  the arrays IT found; and those are the segment sum of the features looked up along the edges, the reciprocal
  degrees as a column, the features, the weights and the bias as a row. Composed: the closed form.
-/
import proofs.«153042_j9998683865369_2_alg».proof.Proof.KRegion0
import proofs.«153042_j9998683865369_2_alg».proof.Proof.KRegion1
import proofs.«153042_j9998683865369_2_alg».proof.Proof.KHost
import proofs.«153042_j9998683865369_2_alg».proof.Proof.SageOut

noncomputable section

namespace Cert.KernelIdeal.KValue

open Idealize.ShloMosaic Idealize.ShloMosaic.TcCoe Idealize.SL.Sem Idealize.ShloMosaic.ValueIdx
open Cert.KernelIdeal Cert.KernelIdeal.Gen Cert.KernelIdeal.KHost

/-- The side conditions of the three reshapes to a column or a row, from the program's own. -/
instance evK : Cert.SageHost.EvK where
  scN := Gen.shapeCasts_S50000_S50000x1
  sc128 := Gen.shapeCasts_S128_S1x128
  sc64 := Gen.shapeCasts_S64_S1x64

/-! ## The composition, over arrays of literal shapes -/

section Composition
open Cert.SageHost Cert.Sage
variable [Cert.SageHost.Ev] [Cert.SageHost.EvC 128] [Cert.SageHost.EvC 64] [Cert.SageHost.EvK]

attribute [local irreducible] Host.gather Host.scatterAdd Host.reduce in
/-- If the first region finds the aggregated features `A0`, the reciprocal degrees `D0`, the features, the weights and
    the bias row, and leaves the hidden layer `Hh` and its projection `P` of them; and the second region finds the
    aggregated projection `A1`, the reciprocal degrees `D1`, the hidden layer `H1`, the root weights and the bias row,
    and leaves `R`, the second combine step of them: then `R` is the closed form of the argument arrays. -/
theorem kernelOut_of_parts
    (x : FVec Ideal (SNx 128) .f32) (ei : IVec S2E 32) (w1l : FVec Ideal (SKx 128 128) .f32) (b1 : FVec Ideal (Sv 128) .f32)
    (w1r : FVec Ideal (SKx 128 128) .f32) (w2l : FVec Ideal (SKx 128 64) .f32) (b2 : FVec Ideal (Sv 64) .f32)
    (w2r : FVec Ideal (SKx 128 64) .f32)
    (A0 : (SNx 128).Idx → EReal) (D0 : SN1.Idx → EReal) (X0 : (SNx 128).Idx → EReal) (WL : (SKx 128 128).Idx → EReal)
    (B0 : (S1x 128).Idx → EReal) (WR : (SKx 128 128).Idx → EReal) (W2 : (SKx 128 64).Idx → EReal)
    (Hh : (SNx 128).Idx → EReal) (P : (SNx 64).Idx → EReal)
    (A1 : (SNx 64).Idx → EReal) (D1 : SN1.Idx → EReal) (H1 : (SNx 128).Idx → EReal) (WR2 : (SKx 128 64).Idx → EReal)
    (B1 : (S1x 64).Idx → EReal) (R : (SNx 64).Idx → EReal)
    (hA0 : A0 = segSum (F := Ideal) 128 (dstOf ei) (take (F := Ideal) 128 x (srcOf ei)))
    (hD0 : D0 = shapeCast SN1 (degInv (F := Ideal) (dstOf ei)) EvK.scN)
    (hX0 : X0 = x) (hWL : WL = w1l) (hB0 : B0 = shapeCast (S1x 128) b1 EvK.sc128) (hWR : WR = w1r) (hW2 : W2 = w2l)
    (hH : Hh = fun i => hid A0 D0 X0 WL B0 WR (i 0) (i 1))
    (hP : P = fun i => proj (hid A0 D0 X0 WL B0 WR) W2 (i 0) (i 1))
    (hA1 : A1 = segSum (F := Ideal) 64 (dstOf ei) (take (F := Ideal) 64 P (srcOf ei)))
    (hD1 : D1 = shapeCast SN1 (degInv (F := Ideal) (dstOf ei)) EvK.scN)
    (hH1 : H1 = Hh) (hWR2 : WR2 = w2r) (hB1 : B1 = shapeCast (S1x 64) b2 EvK.sc64)
    (hR : R = fun i => out2 A1 D1 (fun p k => H1 (ix2 p k)) WR2 B1 (i 0) (i 1)) :
    R = kernelOut x ei w1l b1 w1r w2l b2 w2r := by
  subst hA0 hD0 hX0 hWL hB0 hWR hW2 hH hP hA1 hD1 hH1 hWR2 hB1 hR
  rfl

end Composition

/-! ## The program's result -/

/-- THE RESULT ARRAY after the program is the closed form of the argument arrays: each region's arrays after it and
    each region's arrays as it finds them, composed. -/
theorem value (m : (l : Loc nD τ sig) → Buf (Elt Ideal) l) (ρ : Dev nD → PrngReg) (c : Dev nD) :
    W9 (F := Ideal) m ρ c (Proc.devRef .tc main_v27)
      = Cert.SageHost.kernelOut (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) :=
  kernelOut_of_parts
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))
    (V5 m ρ c (Pipeline.arrRef spec0 0)) (V5 m ρ c (Pipeline.arrRef spec0 1)) (V5 m ρ c (Pipeline.arrRef spec0 2))
    (V5 m ρ c (Pipeline.arrRef spec0 3)) (V5 m ρ c (Pipeline.arrRef spec0 4)) (V5 m ρ c (Pipeline.arrRef spec0 5))
    (V5 m ρ c (Pipeline.arrRef spec0 6))
    ((dat0 (F := Ideal) (V5 m ρ) c).arrAt 7 cfg0.N) ((dat0 (F := Ideal) (V5 m ρ) c).arrAt 8 cfg0.N)
    (V8 m ρ c (Pipeline.arrRef spec1 0)) (V8 m ρ c (Pipeline.arrRef spec1 1)) (V8 m ρ c (Pipeline.arrRef spec1 2))
    (V8 m ρ c (Pipeline.arrRef spec1 3)) (V8 m ρ c (Pipeline.arrRef spec1 4))
    (W9 (F := Ideal) m ρ c (Proc.devRef .tc main_v27))
    (e0_0 m ρ c) (e0_1 m ρ c) (e0_2 m ρ c) (e0_3 m ρ c) (e0_4 m ρ c) (e0_5 m ρ c) (e0_6 m ρ c)
    (Region0.hidden (V5 m ρ) c) (Region0.projected (V5 m ρ) c)
    (e1_0 m ρ c) (e1_1 m ρ c) (e1_2 m ρ c) (e1_3 m ρ c) (e1_4 m ρ c)
    ((out_eq m ρ c).trans (Region1.result (V8 m ρ) c))

end Cert.KernelIdeal.KValue

end
-- ==== Proof.RefRun.lean ====
/-
  The reference program's run. Its @main calls four functions (the masked `where`, the row gather `take` twice, `relu`),
  and `take` itself calls a `where`; a call means the callee's body on the operands, so @main is one straight line of
  ninety-eight tensor operations: `ops` lists them in order, each callee's operations at its call site over that
  call's own buffers. The line's run is the library's: every buffer ends at the fold of the operations over the
  launch contents. Read at the result buffer, the fold is `result`: two graph-convolution layers, each the mean over
  a node's incoming edges of the source rows (a gather, a scatter-add, a division by the in-degree) through one weight
  matrix, plus a bias, plus the node's own row through a second matrix; a `relu` between the two layers.
-/
import proofs.«153042_j9998683865369_2_alg».proof.ReferenceIdeal
import proofs.«153042_j9998683865369_2_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]
variable [Cert.ReferenceIdeal.Facts]

/-! ## The value, stage by stage -/

/-- Row 0 of the edge table, as a vector: each edge's source node. -/
def srcOf (ei : IVec S2x800000 32) : IVec S800000 32 :=
  shapeCast S800000 (extractStridedSlice S1x800000 ![0, 0] ei slices_S2x800000_S1x800000_0_0) shapeCasts_S1x800000_S800000

/-- Row 1 of the edge table, as a vector: each edge's destination node. -/
def dstOf (ei : IVec S2x800000 32) : IVec S800000 32 :=
  shapeCast S800000 (extractStridedSlice S1x800000 ![1, 0] ei slices_S2x800000_S1x800000_1_0) shapeCasts_S1x800000_S800000

/-- Each node's in-degree as a float: a one added per edge at the edge's destination, from zero. -/
def inDeg (ei : IVec S2x800000 32) : FVec F S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 (dstOf ei))
    (broadcastInDim S800000 ![] bcast_S_S800000 (constant S_ .f32 0x3F800000#32))

/-- One over the in-degree (the degree raised to at least one) where the degree is positive, zero elsewhere. -/
def degInv (ei : IVec S2x800000 32) : FVec F S50000 .f32 :=
  select (cmpf .ogt (inDeg (F := F) ei) (broadcastInDim S50000 ![] bcast_S_S50000 (constant S_ .f32 0x00000000#32)))
    (Host.divf (broadcastInDim S50000 ![] bcast_S_S50000 (constant S_ .f32 0x3F800000#32))
      (maximumf (inDeg (F := F) ei) (broadcastInDim S50000 ![] bcast_S_S50000 (constant S_ .f32 0x3F800000#32))))
    (broadcastInDim S50000 ![] bcast_S_S50000 (constant S_ .f32 0x00000000#32))

/-- Row ids with a negative id moved up by the row count 50000. -/
def wrapIds (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- The wrapped ids as a one-column index table. -/
def idCol (s : IVec S800000 32) : IVec S800000x1 32 :=
  broadcastInDim S800000x1 ![0] bcast_S800000_S800000x1_0 (wrapIds s)

/-- Which wrapped ids lie in `[0, 49999]`: the two comparisons, their conjunction, folded over the one column. -/
def inRange (s : IVec S800000 32) : IVec S800000 1 :=
  Host.reduce IntOp.andi
    (andi (cmpi .sge (idCol s) (broadcastInDim S800000x1 ![] bcast_S_S800000x1 (constantI S_ 32 0#32)))
      (cmpi .sle (idCol s)
        (broadcastInDim S800000x1 ![0, 1] bcast_S1x1_S800000x1_0_1
          (broadcastInDim S1x1 ![1] bcast_S1_S1x1_1 (constantI S1 32 49999#32)))))
    (constantI S_ 1 1#1) reducesTo_S800000x1_S800000_d1 h_S_

/-- The rows of the table `T` at the ids `s`: the gather at the wrapped ids where the id is in range, the constant
    `0x7FC00000` in every column elsewhere. -/
def takeRows (T : FVec F S50000x128 .f32) (s : IVec S800000 32) : FVec F S800000x128 .f32 :=
  select (broadcastInDim S800000x128 ![0] bcast_S800000_S800000x128_0 (inRange s))
    (Host.gather gather_S50000x128_S800000x1_S800000x128_1_0_n_n_0_1_1128 T (idCol s))
    (broadcastInDim S800000x128 ![] bcast_S_S800000x128 (constant S_ .f32 0x7FC00000#32))

/-- The per-edge rows `U` summed into their destination nodes' rows, from zero. -/
def segSum (dst : IVec S800000 32) (U : FVec F S800000x128 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst) U

/-- The mean of `T`'s rows over each node's incoming edges: the sources' rows gathered, summed at the destinations,
    each node's sum times one over its in-degree. -/
def meanAgg (T : FVec F S50000x128 .f32) (ei : IVec S2x800000 32) : FVec F S50000x128 .f32 :=
  mulf (segSum (dstOf ei) (takeRows T (srcOf ei)))
    (broadcastInDim S50000x128 ![0, 1] bcast_S50000x1_S50000x128_0_1
      (broadcastInDim S50000x1 ![0] bcast_S50000_S50000x1_0 (degInv (F := F) ei)))

/-- The first layer: the aggregated rows through `wl`, plus the bias along every row, plus `T` itself through `wr`. -/
def layer1 (T : FVec F S50000x128 .f32) (ei : IVec S2x800000 32) (wl : FVec F S128x128 .f32) (b : FVec F S128 .f32)
    (wr : FVec F S128x128 .f32) : FVec F S50000x128 .f32 :=
  addf
    (addf (Host.dotGeneral dot_S50000x128_S128x128_S50000x128_1_0_0_1_n_n none (meanAgg T ei) wl)
      (broadcastInDim S50000x128 ![0, 1] bcast_S1x128_S50000x128_0_1 (broadcastInDim S1x128 ![1] bcast_S128_S1x128_1 b)))
    (Host.dotGeneral dot_S50000x128_S128x128_S50000x128_1_0_0_1_n_n none T wr)

/-- The second layer: the same at sixty-four output columns. -/
def layer2 (T : FVec F S50000x128 .f32) (ei : IVec S2x800000 32) (wl : FVec F S128x64 .f32) (b : FVec F S64 .f32)
    (wr : FVec F S128x64 .f32) : FVec F S50000x64 .f32 :=
  addf
    (addf (Host.dotGeneral dot_S50000x128_S128x64_S50000x64_1_0_0_1_n_n none (meanAgg T ei) wl)
      (broadcastInDim S50000x64 ![0, 1] bcast_S1x64_S50000x64_0_1 (broadcastInDim S1x64 ![1] bcast_S64_S1x64_1 b)))
    (Host.dotGeneral dot_S50000x128_S128x64_S50000x64_1_0_0_1_n_n none T wr)

/-- The maximum with zero, entry by entry. -/
def relu (T : FVec F S50000x128 .f32) : FVec F S50000x128 .f32 :=
  maximumf T (broadcastInDim S50000x128 ![] bcast_S_S50000x128 (constant S_ .f32 0x00000000#32))

/-- What the program computes from its eight arguments: the second layer of the `relu` of the first. -/
def result (x : FVec F S50000x128 .f32) (ei : IVec S2x800000 32) (w1l : FVec F S128x128 .f32) (b1 : FVec F S128 .f32)
    (w1r : FVec F S128x128 .f32) (w2l : FVec F S128x64 .f32) (b2 : FVec F S64 .f32) (w2r : FVec F S128x64 .f32) :
    FVec F S50000x64 .f32 :=
  layer2 (relu (layer1 x ei w1l b1 w1r)) ei w2l b2 w2r

/-! ## The program as a list of operations -/

/-- @main's ninety-eight operations in order, each call's body at the call site over the call's buffers. -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v7 main_v10 main_v11 (maximumf : (⟨S50000, .f32⟩ : BufTy).Contents (Elt F) → (⟨S50000, .f32⟩ : BufTy).Contents (Elt F) → (⟨S50000, .f32⟩ : BufTy).Contents (Elt F)),
    nullary main_cst_3 (constant S_ .f32 0x3F800000#32),
    unary main_cst_3 main_v12 (broadcastInDim S50000 ![] bcast_S_S50000 : (⟨S_, .f32⟩ : BufTy).Contents (Elt F) → (⟨S50000, .f32⟩ : BufTy).Contents (Elt F)),
    binary main_v12 main_v11 main_v13 (Host.divf : (⟨S50000, .f32⟩ : BufTy).Contents (Elt F) → (⟨S50000, .f32⟩ : BufTy).Contents (Elt F) → (⟨S50000, .f32⟩ : BufTy).Contents (Elt F)),
    nullary main_cst_4 (constant S_ .f32 0x00000000#32),
    TRef.unary (.of main_cst_4 : TRef sig ⟨S_, .f32⟩) main_call0.v0 id,
    TRef.unary main_call0.v0 main_call0.v1 (broadcastInDim S50000 ![] bcast_S_S50000),
    TRef.ternary (.of main_v9 : TRef sig ⟨S50000, .i1⟩) (.of main_v13 : TRef sig ⟨S50000, .f32⟩) main_call0.v1 main_call0.v2 select,
    TRef.nullary main_call1.c (constantI S_ 32 0#32),
    TRef.unary main_call1.c main_call1.v0 (broadcastInDim S800000 ![] bcast_S_S800000),
    TRef.binary (.of main_v1 : TRef sig ⟨S800000, .i32⟩) main_call1.v0 main_call1.v1 (cmpi .slt),
    TRef.nullary main_call1.c_0 (constantI S_ 32 50000#32),
    TRef.unary main_call1.c_0 main_call1.v2 (broadcastInDim S800000 ![] bcast_S_S800000),
    TRef.binary (.of main_v1 : TRef sig ⟨S800000, .i32⟩) main_call1.v2 main_call1.v3 addi,
    TRef.ternary main_call1.v1 main_call1.v3 (.of main_v1 : TRef sig ⟨S800000, .i32⟩) main_call1.call0.v0 select,
    TRef.unary main_call1.call0.v0 main_call1.v5 (broadcastInDim S800000x1 ![0] bcast_S800000_S800000x1_0),
    TRef.nullary main_call1.c_1 (constantI S1 32 49999#32),
    TRef.nullary main_call1.c_2 (constantI S_ 32 0#32),
    TRef.unary main_call1.c_2 main_call1.v6 (broadcastInDim S800000x1 ![] bcast_S_S800000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S800000x1 ![0, 1] bcast_S1x1_S800000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S800000x1_S800000_d1 h_S_),
    TRef.binary (.of main_arg0 : TRef sig ⟨S50000x128, .f32⟩) main_call1.v5 main_call1.v13 (fun x i => Host.gather gather_S50000x128_S800000x1_S800000x128_1_0_n_n_0_1_1128 x i),
    TRef.unary main_call1.v12 main_call1.v14 (broadcastInDim S800000x128 ![0] bcast_S800000_S800000x128_0),
    TRef.nullary main_call1.cst (constant S_ .f32 0x7FC00000#32),
    TRef.unary main_call1.cst main_call1.v15 (broadcastInDim S800000x128 ![] bcast_S_S800000x128),
    TRef.ternary main_call1.v14 main_call1.v13 main_call1.v15 main_call1.v16 select,
    nullary main_cst_5 (constant S_ .f32 0x00000000#32),
    unary main_cst_5 main_v16 (broadcastInDim S50000x128 ![] bcast_S_S50000x128 : (⟨S_, .f32⟩ : BufTy).Contents (Elt F) → (⟨S50000x128, .f32⟩ : BufTy).Contents (Elt F)),
    unary main_v3 main_v17 (broadcastInDim S800000x1 ![0] bcast_S800000_S800000x1_0 : (⟨S800000, .i32⟩ : BufTy).Contents (Elt F) → (⟨S800000x1, .i32⟩ : BufTy).Contents (Elt F)),
    ternary main_v16 main_v17 main_v15 main_v18 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v14 main_v19 (broadcastInDim S50000x1 ![0] bcast_S50000_S50000x1_0 : (⟨S50000, .f32⟩ : BufTy).Contents (Elt F) → (⟨S50000x1, .f32⟩ : BufTy).Contents (Elt F)),
    unary main_v19 main_v20 (broadcastInDim S50000x128 ![0, 1] bcast_S50000x1_S50000x128_0_1 : (⟨S50000x1, .f32⟩ : BufTy).Contents (Elt F) → (⟨S50000x128, .f32⟩ : BufTy).Contents (Elt F)),
    binary main_v18 main_v20 main_v21 (mulf : (⟨S50000x128, .f32⟩ : BufTy).Contents (Elt F) → (⟨S50000x128, .f32⟩ : BufTy).Contents (Elt F) → (⟨S50000x128, .f32⟩ : BufTy).Contents (Elt F)),
    binary main_v21 main_arg2 main_v22 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v23 (broadcastInDim S1x128 ![1] bcast_S128_S1x128_1 : (⟨S128, .f32⟩ : BufTy).Contents (Elt F) → (⟨S1x128, .f32⟩ : BufTy).Contents (Elt F)),
    unary main_v23 main_v24 (broadcastInDim S50000x128 ![0, 1] bcast_S1x128_S50000x128_0_1 : (⟨S1x128, .f32⟩ : BufTy).Contents (Elt F) → (⟨S50000x128, .f32⟩ : BufTy).Contents (Elt F)),
    binary main_v22 main_v24 main_v25 (addf : (⟨S50000x128, .f32⟩ : BufTy).Contents (Elt F) → (⟨S50000x128, .f32⟩ : BufTy).Contents (Elt F) → (⟨S50000x128, .f32⟩ : BufTy).Contents (Elt F)),
    binary main_arg0 main_arg4 main_v26 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v25 main_v26 main_v27 (addf : (⟨S50000x128, .f32⟩ : BufTy).Contents (Elt F) → (⟨S50000x128, .f32⟩ : BufTy).Contents (Elt F) → (⟨S50000x128, .f32⟩ : BufTy).Contents (Elt F)),
    TRef.nullary main_call2.cst (constant S_ .f32 0x00000000#32),
    TRef.unary main_call2.cst main_call2.v0 (broadcastInDim S50000x128 ![] bcast_S_S50000x128),
    TRef.binary (.of main_v27 : TRef sig ⟨S50000x128, .f32⟩) main_call2.v0 main_call2.v1 maximumf,
    TRef.nullary main_call3.c (constantI S_ 32 0#32),
    TRef.unary main_call3.c main_call3.v0 (broadcastInDim S800000 ![] bcast_S_S800000),
    TRef.binary (.of main_v1 : TRef sig ⟨S800000, .i32⟩) main_call3.v0 main_call3.v1 (cmpi .slt),
    TRef.nullary main_call3.c_0 (constantI S_ 32 50000#32),
    TRef.unary main_call3.c_0 main_call3.v2 (broadcastInDim S800000 ![] bcast_S_S800000),
    TRef.binary (.of main_v1 : TRef sig ⟨S800000, .i32⟩) main_call3.v2 main_call3.v3 addi,
    TRef.ternary main_call3.v1 main_call3.v3 (.of main_v1 : TRef sig ⟨S800000, .i32⟩) main_call3.call0.v0 select,
    TRef.unary main_call3.call0.v0 main_call3.v5 (broadcastInDim S800000x1 ![0] bcast_S800000_S800000x1_0),
    TRef.nullary main_call3.c_1 (constantI S1 32 49999#32),
    TRef.nullary main_call3.c_2 (constantI S_ 32 0#32),
    TRef.unary main_call3.c_2 main_call3.v6 (broadcastInDim S800000x1 ![] bcast_S_S800000x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S800000x1 ![0, 1] bcast_S1x1_S800000x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S800000x1_S800000_d1 h_S_),
    TRef.binary (.of main_v28 : TRef sig ⟨S50000x128, .f32⟩) main_call3.v5 main_call3.v13 (fun x i => Host.gather gather_S50000x128_S800000x1_S800000x128_1_0_n_n_0_1_1128 x i),
    TRef.unary main_call3.v12 main_call3.v14 (broadcastInDim S800000x128 ![0] bcast_S800000_S800000x128_0),
    TRef.nullary main_call3.cst (constant S_ .f32 0x7FC00000#32),
    TRef.unary main_call3.cst main_call3.v15 (broadcastInDim S800000x128 ![] bcast_S_S800000x128),
    TRef.ternary main_call3.v14 main_call3.v13 main_call3.v15 main_call3.v16 select,
    nullary main_cst_6 (constant S_ .f32 0x00000000#32),
    unary main_cst_6 main_v30 (broadcastInDim S50000x128 ![] bcast_S_S50000x128 : (⟨S_, .f32⟩ : BufTy).Contents (Elt F) → (⟨S50000x128, .f32⟩ : BufTy).Contents (Elt F)),
    unary main_v3 main_v31 (broadcastInDim S800000x1 ![0] bcast_S800000_S800000x1_0 : (⟨S800000, .i32⟩ : BufTy).Contents (Elt F) → (⟨S800000x1, .i32⟩ : BufTy).Contents (Elt F)),
    ternary main_v30 main_v31 main_v29 main_v32 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v14 main_v33 (broadcastInDim S50000x1 ![0] bcast_S50000_S50000x1_0 : (⟨S50000, .f32⟩ : BufTy).Contents (Elt F) → (⟨S50000x1, .f32⟩ : BufTy).Contents (Elt F)),
    unary main_v33 main_v34 (broadcastInDim S50000x128 ![0, 1] bcast_S50000x1_S50000x128_0_1 : (⟨S50000x1, .f32⟩ : BufTy).Contents (Elt F) → (⟨S50000x128, .f32⟩ : BufTy).Contents (Elt F)),
    binary main_v32 main_v34 main_v35 (mulf : (⟨S50000x128, .f32⟩ : BufTy).Contents (Elt F) → (⟨S50000x128, .f32⟩ : BufTy).Contents (Elt F) → (⟨S50000x128, .f32⟩ : BufTy).Contents (Elt F)),
    binary main_v35 main_arg5 main_v36 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg6 main_v37 (broadcastInDim S1x64 ![1] bcast_S64_S1x64_1 : (⟨S64, .f32⟩ : BufTy).Contents (Elt F) → (⟨S1x64, .f32⟩ : BufTy).Contents (Elt F)),
    unary main_v37 main_v38 (broadcastInDim S50000x64 ![0, 1] bcast_S1x64_S50000x64_0_1 : (⟨S1x64, .f32⟩ : BufTy).Contents (Elt F) → (⟨S50000x64, .f32⟩ : BufTy).Contents (Elt F)),
    binary main_v36 main_v38 main_v39 (addf : (⟨S50000x64, .f32⟩ : BufTy).Contents (Elt F) → (⟨S50000x64, .f32⟩ : BufTy).Contents (Elt F) → (⟨S50000x64, .f32⟩ : BufTy).Contents (Elt F)),
    binary main_v28 main_arg7 main_v40 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    binary main_v39 main_v40 main_v41 (addf : (⟨S50000x64, .f32⟩ : BufTy).Contents (Elt F) → (⟨S50000x64, .f32⟩ : BufTy).Contents (Elt F) → (⟨S50000x64, .f32⟩ : BufTy).Contents (Elt F)) ]

set_option maxRecDepth 8192 in
/-- @main is that line: the functions' definitions open at their calls, and sequencing a call's line before the rest
    is sequencing its operations before the rest, by computation. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., binary_bufs_sub .., binary_bufs_sub ..⟩

/-! ## The fold at the result and at the arguments -/

set_option maxRecDepth 8192 in
set_option maxHeartbeats 4000000 in
/-- The fold at the result buffer is `result` of the arguments' contents: each operation's result at its own buffer is
    its function's value and any other buffer is as it was (the buffers told apart as references); a callee's
    operation moves its operands and its value along the equation between a buffer's type and the tensor value's, the
    identity at these literal buffers; what is left is `result` with its stages' definitions open. -/
theorem out_eq (V : Valuation τ sig (Elt F)) :
    after ops V (main_v41 : DevRef τ sig)
      = result (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  simp (disch := decide) only [after_cons, after_nil, nullary_result', unary_result', binary_result', ternary_result',
    reshape_result', nullary_result_ne', unary_result_ne', binary_result_ne', ternary_result_ne', reshape_result_ne',
    TRef.toBuf, TRef.ofBuf, cast_eq, id_eq]
  rfl

set_option maxRecDepth 8192 in
set_option maxHeartbeats 1000000 in
/-- No operation writes argument 0's buffer. -/
theorem arg0_eq (V : Valuation τ sig (Elt F)) :
    after ops V (main_arg0 : DevRef τ sig) = V (main_arg0 : DevRef τ sig) := by
  after_results_simp

set_option maxRecDepth 8192 in
set_option maxHeartbeats 1000000 in
/-- No operation writes argument 1's buffer. -/
theorem arg1_eq (V : Valuation τ sig (Elt F)) :
    after ops V (main_arg1 : DevRef τ sig) = V (main_arg1 : DevRef τ sig) := by
  after_results_simp

set_option maxRecDepth 8192 in
set_option maxHeartbeats 1000000 in
/-- No operation writes argument 2's buffer. -/
theorem arg2_eq (V : Valuation τ sig (Elt F)) :
    after ops V (main_arg2 : DevRef τ sig) = V (main_arg2 : DevRef τ sig) := by
  after_results_simp

set_option maxRecDepth 8192 in
set_option maxHeartbeats 1000000 in
/-- No operation writes argument 3's buffer. -/
theorem arg3_eq (V : Valuation τ sig (Elt F)) :
    after ops V (main_arg3 : DevRef τ sig) = V (main_arg3 : DevRef τ sig) := by
  after_results_simp

set_option maxRecDepth 8192 in
set_option maxHeartbeats 1000000 in
/-- No operation writes argument 4's buffer. -/
theorem arg4_eq (V : Valuation τ sig (Elt F)) :
    after ops V (main_arg4 : DevRef τ sig) = V (main_arg4 : DevRef τ sig) := by
  after_results_simp

set_option maxRecDepth 8192 in
set_option maxHeartbeats 1000000 in
/-- No operation writes argument 5's buffer. -/
theorem arg5_eq (V : Valuation τ sig (Elt F)) :
    after ops V (main_arg5 : DevRef τ sig) = V (main_arg5 : DevRef τ sig) := by
  after_results_simp

set_option maxRecDepth 8192 in
set_option maxHeartbeats 1000000 in
/-- No operation writes argument 6's buffer. -/
theorem arg6_eq (V : Valuation τ sig (Elt F)) :
    after ops V (main_arg6 : DevRef τ sig) = V (main_arg6 : DevRef τ sig) := by
  after_results_simp

set_option maxRecDepth 8192 in
set_option maxHeartbeats 1000000 in
/-- No operation writes argument 7's buffer. -/
theorem arg7_eq (V : Valuation τ sig (Elt F)) :
    after ops V (main_arg7 : DevRef τ sig) = V (main_arg7 : DevRef τ sig) := by
  after_results_simp

/-! ## The run -/

/-- On every device, for any float values, from any memory with zero counters: every weakly fair execution of @main
    terminates with the result buffer at `result` of the eight arguments' launch contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v41).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq defs main (fun _ => ops) main_eq (fun _ => ops_sub) m ρ)

end Cert.ReferenceIdeal.RefRun

end
-- ==== Proof.RefBridge.lean ====
/-
  The reference's composed value is the whole-array two-layer network. Both are the same operations in the
  same order: the two texts differ in the names of the shapes (abbreviations of the same literals), in the
  evidence their shape operations cite (propositions: any two proofs are equal), in two dimension records
  written as structure literals with equal fields, and in how the stages are grouped into definitions. Each
  stage is compared on its own, the earlier stages rewritten first, with the array operations that fold over
  the edges or the nodes kept closed so that a comparison never opens one.
-/
import proofs.«153042_j9998683865369_2_alg».proof.Proof.RefRun
import proofs.«153042_j9998683865369_2_alg».proof.Proof.SageHost

noncomputable section

namespace Cert.ReferenceIdeal.RefBridge

open Cert.ReferenceIdeal Idealize.ShloMosaic

/-! ## The evidence the network's shape operations cite, from the decided facts of the reference's shapes -/

instance ev : Cert.SageHost.Ev where
  sl0 := Gen.slices_S2x800000_S1x800000_0_0
  sl1 := Gen.slices_S2x800000_S1x800000_1_0
  sc := Gen.shapeCasts_S1x800000_S800000
  bE := Gen.bcast_S_S800000
  bN := Gen.bcast_S_S50000
  bEE1 := Gen.bcast_S800000_S800000x1_0
  bE1 := Gen.bcast_S_S800000x1
  b1_11 := Gen.bcast_S1_S1x1_1
  b11_E1 := Gen.bcast_S1x1_S800000x1_0_1
  rE1 := Gen.reducesTo_S800000x1_S800000_d1
  hS_ := Gen.h_S_
  wfCount := Gen.scatter_S50000_S800000x1_S800000_n_0_0_1_wf

instance ev128 : Cert.SageHost.EvC 128 where
  bEEx := Gen.bcast_S800000_S800000x128_0
  bEx := Gen.bcast_S_S800000x128
  bNx := Gen.bcast_S_S50000x128
  wfGather := Gen.gather_S50000x128_S800000x1_S800000x128_1_0_n_n_0_1_1128_wf
  wfScatter := Gen.scatter_S50000x128_S800000x1_S800000x128_1_0_0_1_wf

instance evR : Cert.SageHost.EvR where
  bN_N1 := Gen.bcast_S50000_S50000x1_0
  bN1_N128 := Gen.bcast_S50000x1_S50000x128_0_1

instance evL128 : Cert.SageHost.EvL 128 where
  bC_1C := Gen.bcast_S128_S1x128_1
  b1C_NC := Gen.bcast_S1x128_S50000x128_0_1

instance evL64 : Cert.SageHost.EvL 64 where
  bC_1C := Gen.bcast_S64_S1x64_1
  b1C_NC := Gen.bcast_S1x64_S50000x64_0_1

/-! ## Stage by stage -/

section Stages
variable [Cert.ReferenceIdeal.Facts] {F : FTy → Type} [FloatOps F]

attribute [local irreducible] Host.reduce Host.gather Host.scatterAdd Host.divf

/-- Row 0 of the edge table. -/
theorem srcOf_eq (ei : IVec S2x800000 32) : RefRun.srcOf ei = Cert.SageHost.srcOf ei := by
  unfold RefRun.srcOf Cert.SageHost.srcOf; rfl

/-- Row 1 of the edge table. -/
theorem dstOf_eq (ei : IVec S2x800000 32) : RefRun.dstOf ei = Cert.SageHost.dstOf ei := by
  unfold RefRun.dstOf Cert.SageHost.dstOf; rfl

/-- The in-degree. -/
theorem inDeg_eq (ei : IVec S2x800000 32) :
    RefRun.inDeg (F := F) ei = Cert.SageHost.degree (Cert.SageHost.dstOf ei) := by
  unfold RefRun.inDeg Cert.SageHost.degree
  rewrite [dstOf_eq]
  rfl

/-- One over the in-degree. -/
theorem degInv_eq (ei : IVec S2x800000 32) :
    RefRun.degInv (F := F) ei = Cert.SageHost.degInv (Cert.SageHost.dstOf ei) := by
  unfold RefRun.degInv Cert.SageHost.degInv
  rewrite [inDeg_eq]
  rfl

/-- The wrapped row ids as a column. -/
theorem idCol_eq (s : IVec S800000 32) : RefRun.idCol s = Cert.SageHost.wrapped s := by
  unfold RefRun.idCol RefRun.wrapIds Cert.SageHost.wrapped; rfl

/-- The range test of the wrapped row ids. -/
theorem inRange_eq (s : IVec S800000 32) : RefRun.inRange s = Cert.SageHost.inRange s := by
  unfold RefRun.inRange Cert.SageHost.inRange
  rewrite [idCol_eq]
  rfl

/-- The row lookup with its fill. -/
theorem takeRows_eq (T : FVec F S50000x128 .f32) (s : IVec S800000 32) :
    RefRun.takeRows T s = Cert.SageHost.take 128 T s := by
  unfold RefRun.takeRows Cert.SageHost.take
  rewrite [inRange_eq, idCol_eq]
  rfl

/-- The segment sum. -/
theorem segSum_eq (dst : IVec S800000 32) (U : FVec F S800000x128 .f32) :
    RefRun.segSum dst U = Cert.SageHost.segSum 128 dst U := by
  unfold RefRun.segSum Cert.SageHost.segSum; rfl

/-- The first layer. -/
theorem layer1_eq (T : FVec F S50000x128 .f32) (ei : IVec S2x800000 32) (wl : FVec F S128x128 .f32)
    (b : FVec F S128 .f32) (wr : FVec F S128x128 .f32) :
    RefRun.layer1 T ei wl b wr
      = Cert.SageHost.layer 128 T (Cert.SageHost.srcOf ei) (Cert.SageHost.dstOf ei)
          (Cert.SageHost.degInv (Cert.SageHost.dstOf ei)) wl b wr := by
  unfold RefRun.layer1 RefRun.meanAgg Cert.SageHost.layer
  rewrite [degInv_eq, dstOf_eq, srcOf_eq, takeRows_eq, segSum_eq]
  rfl

/-- The second layer. -/
theorem layer2_eq (T : FVec F S50000x128 .f32) (ei : IVec S2x800000 32) (wl : FVec F S128x64 .f32)
    (b : FVec F S64 .f32) (wr : FVec F S128x64 .f32) :
    RefRun.layer2 T ei wl b wr
      = Cert.SageHost.layer 64 T (Cert.SageHost.srcOf ei) (Cert.SageHost.dstOf ei)
          (Cert.SageHost.degInv (Cert.SageHost.dstOf ei)) wl b wr := by
  unfold RefRun.layer2 RefRun.meanAgg Cert.SageHost.layer
  rewrite [degInv_eq, dstOf_eq, srcOf_eq, takeRows_eq, segSum_eq]
  rfl

/-- The maximum with zero. -/
theorem relu_eq (T : FVec F S50000x128 .f32) : RefRun.relu T = Cert.SageHost.relu T := by
  unfold RefRun.relu Cert.SageHost.relu; rfl

/-- THE REFERENCE'S VALUE IS THE NETWORK. -/
theorem result_eq (x : FVec Ideal S50000x128 .f32) (ei : IVec S2x800000 32) (w1l : FVec Ideal S128x128 .f32)
    (b1 : FVec Ideal S128 .f32) (w1r : FVec Ideal S128x128 .f32) (w2l : FVec Ideal S128x64 .f32)
    (b2 : FVec Ideal S64 .f32) (w2r : FVec Ideal S128x64 .f32) :
    Cert.ReferenceIdeal.RefRun.result (F := Ideal) x ei w1l b1 w1r w2l b2 w2r
      = Cert.SageHost.network (F := Ideal) x ei w1l b1 w1r w2l b2 w2r := by
  unfold RefRun.result Cert.SageHost.network
  rewrite [layer2_eq, layer1_eq, relu_eq]
  rfl

end Stages

end Cert.ReferenceIdeal.RefBridge

end
-- ==== Proof.LibERealAlgebra.lean ====
/- General facts about the extended reals as the exact ("ideal") reading of float programs uses them: sums,
   quotients and square roots of finite values stay finite and are the real operations; a few float words as the
   exact reals they denote; and two finite-sum identities over the reals. -/
import Idealize.ShloMosaic.PureOps.Ideal
import Idealize.ShloMosaic.PureOps.Ideal.Laws
import Mathlib.Data.EReal.Inv
import Mathlib.Analysis.SpecialFunctions.Pow.Real
import Mathlib.Algebra.BigOperators.Group.Finset.Basic
import Mathlib.Tactic

noncomputable section

namespace Cert.LibEReal

open Idealize.ShloMosaic
open scoped BigOperators

/-- A finite sum of finite extended reals is the (finite) real sum. -/
theorem coe_sum {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The quotient of two finite values by a nonzero divisor is the real quotient. -/
theorem div_coe' (a b : ℝ) (hb : b ≠ 0) : Ideal.div (a : EReal) (b : EReal) = ((a / b : ℝ) : EReal) := by
  rw [Ideal.div_coe hb, ← EReal.coe_mul, mul_one_div]

/-- The square root of a nonnegative finite value is the real square root. -/
theorem sqrt_coe (x : ℝ) (hx : 0 ≤ x) : Ideal.sqrt (x : EReal) = ((Real.sqrt x : ℝ) : EReal) := by
  rw [Ideal.sqrt_coe, if_neg (not_lt.mpr hx)]

/-- The reciprocal square root of a positive finite value is the reciprocal of the real square root. -/
theorem rsqrt_coe (x : ℝ) (hx : 0 < x) : Ideal.rsqrt (x : EReal) = (((Real.sqrt x)⁻¹ : ℝ) : EReal) := by
  rw [Ideal.rsqrt_coe, if_neg (not_lt.mpr hx.le), if_neg hx.ne']

/-- Multiplying by the reciprocal square root of a positive value is dividing by its square root. -/
theorem mul_rsqrt_eq_div_sqrt (a x : ℝ) (hx : 0 < x) :
    (a : EReal) * Ideal.rsqrt (x : EReal) = Ideal.div (a : EReal) (Ideal.sqrt (x : EReal)) := by
  have hs : Real.sqrt x ≠ 0 := (Real.sqrt_pos.mpr hx).ne'
  rw [rsqrt_coe x hx, sqrt_coe x hx.le, div_coe' a _ hs, ← EReal.coe_mul, div_eq_mul_inv]

/-- The float word `0x3F800000` denotes `1`. -/
theorem ofBits_one : Ideal.ofBits .f32 0x3F800000#32 = 1 := by
  simp [Ideal.ofBits, Ideal.ieee, -EReal.coe_mul]; norm_num

/-- The float word `0x46800000` denotes `16384 = 2 ^ 14`. -/
theorem ofBits_16384 : Ideal.ofBits .f32 0x46800000#32 = ((16384 : ℝ) : EReal) := by
  simp [Ideal.ofBits, Ideal.ieee, -EReal.coe_mul]; norm_num

/-- The float word `0x3727C5AC` (the float nearest `1e-5`) denotes a positive real, `10995116 · 2 ^ (-40)`. -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The float word `0x3C23D70A` (the float nearest `0.01`) denotes a real, `10737418 · 2 ^ (-30)`. -/
theorem ofBits_slope : ∃ s : ℝ, Ideal.ofBits .f32 0x3C23D70A#32 = (s : EReal) := by
  refine ⟨(10737418 : ℝ) * (2 : ℝ) ^ (-30 : ℤ), ?_⟩
  simp [Ideal.ofBits, Ideal.ieee, -EReal.coe_mul]

/-- Adding a self-loop (a `1` on the diagonal) to row `i` raises its row sum by `1`. -/
theorem rowsum_selfloop {n : ℕ} (g : Fin n → ℝ) (i : Fin n) :
    ∑ j, (g j + if i = j then 1 else 0) = (∑ j, g j) + 1 := by
  rw [Finset.sum_add_distrib, Finset.sum_ite_eq Finset.univ i (fun _ => (1 : ℝ)), if_pos (Finset.mem_univ i)]

/-- Row `i` of the symmetrically normalised matrix `D (G + I) D` applied to `hp`: the scale `d i` comes out of the
    sum, and the diagonal `1` contributes the single term `d i * hp i`. -/
theorem normalized_product {n : ℕ} (g d hp : Fin n → ℝ) (i : Fin n) :
    ∑ j, (((g j + if i = j then 1 else 0) * d i) * d j) * hp j
      = d i * ((∑ j, g j * (d j * hp j)) + d i * hp i) := by
  have h : ∀ j, (((g j + if i = j then 1 else 0) * d i) * d j) * hp j
      = d i * (g j * (d j * hp j)) + (if i = j then d i * (d j * hp j) else 0) := by
    intro j
    split_ifs <;> ring
  rw [Finset.sum_congr rfl (fun j _ => h j), Finset.sum_add_distrib, ← Finset.mul_sum,
    Finset.sum_ite_eq Finset.univ i (fun j => d i * (d j * hp j)), if_pos (Finset.mem_univ i)]
  ring

/-- The sum of two finite values is the real sum (the coercion pushed outward). -/
theorem coe_add (a b : ℝ) : (a : EReal) + (b : EReal) = ((a + b : ℝ) : EReal) := (EReal.coe_add a b).symm

/-- The difference of two finite values is the real difference (the coercion pushed outward). -/
theorem coe_sub (a b : ℝ) : (a : EReal) - (b : EReal) = ((a - b : ℝ) : EReal) := (EReal.coe_sub a b).symm

/-- The product of two finite values is the real product (the coercion pushed outward). -/
theorem coe_mul (a b : ℝ) : (a : EReal) * (b : EReal) = ((a * b : ℝ) : EReal) := (EReal.coe_mul a b).symm

/-- The negative of a finite value is the real negative (the coercion pushed outward). -/
theorem coe_neg (a : ℝ) : -(a : EReal) = ((-a : ℝ) : EReal) := (EReal.coe_neg a).symm

/-- A mean of squares (over `16384` terms' worth) is nonnegative. -/
theorem sum_sq_div_nonneg {n : ℕ} (f : Fin n → ℝ) : 0 ≤ (∑ k, f k * f k) / 16384 :=
  div_nonneg (Finset.sum_nonneg fun k _ => mul_self_nonneg (f k)) (by norm_num)

/-- A mean of squares plus a positive constant is positive. -/
theorem sum_sq_div_add_pos {n : ℕ} (f : Fin n → ℝ) {e : ℝ} (he : 0 < e) : 0 < (∑ k, f k * f k) / 16384 + e :=
  add_pos_of_nonneg_of_pos (sum_sq_div_nonneg f) he

end Cert.LibEReal

end
-- ==== Proof.SageAlgebra.lean ====
/-
  The algebra that joins the two arrangements of the second layer, and the closure of "is a finite real"
  under the operations of one combine step.

  On finite values, aggregating neighbour rows, scaling by the reciprocal degree and THEN projecting by a
  matrix equals projecting every row first and then aggregating and scaling:
      ∑ₖ ((∑ₑ h e k) · d) · W k  =  (∑ₑ ∑ₖ h e k · W k) · d.
  It is distributivity and an exchange of two finite sums, both of which need every term to be a real number:
  on the extended reals a product does not distribute over a sum that mixes the two infinities.
-/
import proofs.«153042_j9998683865369_2_alg».proof.Proof.SageSpec
import proofs.«153042_j9998683865369_2_alg».proof.Proof.LibERealAlgebra

noncomputable section

namespace Cert.Sage

open Idealize.ShloMosaic Idealize.ShloMosaic.ValueIdx
open scoped BigOperators

/-- An extended real that is the coercion of a real number. -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.mpr h)⟩
  · exact ⟨a, max_eq_left (EReal.coe_le_coe_iff.mpr h)⟩

theorem IsReal.sum {ι : Type*} (s : Finset ι) (f : ι → EReal) (hf : ∀ i, IsReal (f i)) : IsReal (∑ i ∈ s, f i) := by
  choose g hg using hf
  exact ⟨∑ i ∈ s, g i, by rw [← Cert.LibEReal.coe_sum]; exact Finset.sum_congr rfl fun i _ => hg i⟩

/-- The hidden layer of finite arrays is finite. -/
theorem hid_isReal {A : (⟨2, ![50000, 128]⟩ : Shape).Idx → EReal} {D : (⟨2, ![50000, 1]⟩ : Shape).Idx → EReal}
    {x : (⟨2, ![50000, 128]⟩ : Shape).Idx → EReal} {wl : (⟨2, ![128, 128]⟩ : Shape).Idx → EReal}
    {b : (⟨2, ![1, 128]⟩ : Shape).Idx → EReal} {wr : (⟨2, ![128, 128]⟩ : Shape).Idx → EReal}
    (hA : ∀ i, IsReal (A i)) (hD : ∀ i, IsReal (D i)) (hx : ∀ i, IsReal (x i)) (hwl : ∀ i, IsReal (wl i))
    (hb : ∀ i, IsReal (b i)) (hwr : ∀ i, IsReal (wr i)) (p : Fin 50000) (q : Fin 128) :
    IsReal (hid A D x wl b wr p q) := by
  unfold hid
  exact IsReal.max (IsReal.add (IsReal.add (IsReal.sum _ _ fun k => IsReal.mul (IsReal.mul (hA _) (hD _)) (hwl _)) (hb _))
    (IsReal.sum _ _ fun k => IsReal.mul (hx _) (hwr _))) IsReal.zero

/-- A projection of a finite matrix by a finite matrix is finite. -/
theorem proj_isReal {H : Fin 50000 → Fin 128 → EReal} {w : (⟨2, ![128, 64]⟩ : Shape).Idx → EReal}
    (hH : ∀ p k, IsReal (H p k)) (hw : ∀ i, IsReal (w i)) (p : Fin 50000) (q : Fin 64) : IsReal (proj H w p q) := by
  unfold proj
  exact IsReal.sum _ _ fun k => IsReal.mul (hH _ _) (hw _)

/-- Aggregate, scale, then project = project, then aggregate and scale — on finite values. The leading
    zeros are the zero arrays the sums are accumulated into. -/
theorem agg_proj_commute {E : Type*} (S : Finset E) {K : ℕ} (h : E → Fin K → EReal) (W : Fin K → EReal) (d : EReal)
    (hh : ∀ e k, IsReal (h e k)) (hW : ∀ k, IsReal (W k)) (hd : IsReal d) :
    ∑ k : Fin K, ((0 + ∑ e ∈ S, h e k) * d) * W k = (0 + ∑ e ∈ S, ∑ k : Fin K, h e k * W k) * d := by
  choose h' hh' using hh
  choose W' hW' using hW
  obtain ⟨d', rfl⟩ := hd
  simp only [hh', hW', zero_add, Cert.LibEReal.coe_mul, Cert.LibEReal.coe_sum]
  refine congrArg _ ?_
  rw [Finset.sum_mul]
  simp only [Finset.sum_mul]
  rw [Finset.sum_comm]
  refine Finset.sum_congr rfl fun e _ => Finset.sum_congr rfl fun k _ => ?_
  ring

end Cert.Sage

end
-- ==== Proof.LibScatterGather.lean ====
/-
  Row scatter-add and row gather, read at an index. A table of N rows of width C; E row numbers, held as an
  [E, 1] array of integer words; E update rows of width C.
  Scatter-add: update element (e, k') lands on table element (i, k) exactly when the signed reading of word e
  is i and k' = k, so table element (i, k) receives the sum over those e whose word reads i of update (e, k).
  Gather: result element (e, k) is table element (r, k) with r the signed reading of word e clamped into [0, N - 1].
-/
import Idealize.ShloMosaic.PureOps.Ideal
import Idealize.ShloMosaic.PureOps.Ideal.Laws
import Idealize.ShloMosaic.Lib.ValueIdx
import Idealize.ShloMosaic.Lib.ReduceAll

noncomputable section

open scoped BigOperators

namespace Cert.ScatterGather

open Idealize.ShloMosaic Idealize.ShloMosaic.ValueIdx

/-! ## Scatter-add along rows -/

/-- The dimension numbers of a scatter of whole rows: the update's axis 1 is the window, the table's axis 0 is
    the scattered one, one index word per update row. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k' : Fin C)

/-- On the row axis the window of update element (e, k') starts at the signed reading of word e. -/
theorem start_row : (rowScatter N E C wf).start (ix2 e k') idx 0 = (idx (ix2 e 0)).toInt := by
  unfold ScatterDims.start
  rw [dif_pos (show (0 : Fin 2) ∈ (rowScatter N E C wf).scatterDimsToOperandDims from List.mem_singleton.mpr rfl)]
  have hsi : (rowScatter N E C wf).siIdx (ix2 e k') ⟨List.idxOf (0 : Fin 2) (rowScatter N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis it starts at 0. -/
theorem start_col : (rowScatter N E C wf).start (ix2 e k') idx 1 = 0 := rfl

/-- The window coordinate on the row axis is 0 … -/
theorem window_row : (rowScatter N E C wf).window (ix2 e k') 0 = 0 := rfl

/-- … and on the column axis it is k'. -/
theorem window_col : (rowScatter N E C wf).window (ix2 e k') 1 = k'.val := rfl

end Scatter

section ScatterIdx
variable {N E C w : Nat} (wf : ScatterDims.WF ⟨2, ![N, C]⟩ ⟨2, ![E, 1]⟩ ⟨2, ![E, C]⟩ [1] [0] [0] 1)
  (idx : IVec ⟨2, ![E, 1]⟩ w)

/-- WHERE AN UPDATE ELEMENT LANDS: (e, k') lands on (i, k) exactly when word e reads i and k' = k. -/
theorem resultIdx_rows (e : Fin E) (k' : Fin C) (i : Fin N) (k : Fin C) :
    (rowScatter N E C wf).resultIdx? (ix2 e k') idx = some (ix2 i k) ↔ (idx (ix2 e 0)).toInt = (i.val : ℤ) ∧ k' = k := by
  unfold ScatterDims.resultIdx?
  split
  · rename_i h
    rw [Option.some.injEq]
    constructor
    · intro hf
      have h0 := congrArg Fin.val (congrFun hf 0)
      have h1 := congrArg Fin.val (congrFun hf 1)
      have g0 := (h 0).1
      simp only [start_row, window_row, start_col, window_col] at h0 h1 g0
      refine ⟨?_, Fin.ext ?_⟩
      · show (idx (ix2 e 0)).toInt = (i.val : ℤ)
        have : ((idx (ix2 e 0)).toInt + ((0 : ℕ) : ℤ)).toNat = i.val := h0
        omega
      · have : ((0 : ℤ) + (k'.val : ℤ)).toNat = k.val := h1
        omega
    · rintro ⟨hv, rfl⟩
      funext a; refine Fin.ext ?_
      match a with
      | ⟨0, _⟩ =>
        show ((rowScatter N E C wf).start (ix2 e k') idx 0 + ((rowScatter N E C wf).window (ix2 e k') 0 : ℤ)).toNat = i.val
        rw [start_row, window_row, hv]; omega
      | ⟨1, _⟩ =>
        show ((rowScatter N E C wf).start (ix2 e k') idx 1 + ((rowScatter N E C wf).window (ix2 e k') 1 : ℤ)).toNat = k'.val
        rw [start_col, window_col]; omega
  · rename_i h
    constructor
    · intro hf; exact absurd hf (by simp)
    · rintro ⟨hv, rfl⟩
      refine absurd (fun a => ?_) h
      match a with
      | ⟨0, _⟩ =>
        show 0 ≤ (rowScatter N E C wf).start (ix2 e k') idx 0 + ((rowScatter N E C wf).window (ix2 e k') 0 : ℤ) ∧
          (rowScatter N E C wf).start (ix2 e k') idx 0 + ((rowScatter N E C wf).window (ix2 e k') 0 : ℤ) < (N : ℤ)
        rw [start_row, window_row, hv]; have := i.isLt; omega
      | ⟨1, _⟩ =>
        show 0 ≤ (rowScatter N E C wf).start (ix2 e k') idx 1 + ((rowScatter N E C wf).window (ix2 e k') 1 : ℤ) ∧
          (rowScatter N E C wf).start (ix2 e k') idx 1 + ((rowScatter N E C wf).window (ix2 e k') 1 : ℤ) < (C : ℤ)
        rw [start_col, window_col]; have := k'.isLt; omega

/-- THE SCATTER-ADD READ AT (i, k): the table's element plus the updates (e, k) of the rows e whose word reads i. -/
theorem scatterAdd_rows_apply (x : (⟨2, ![N, C]⟩ : Shape).Idx → EReal) (upd : (⟨2, ![E, C]⟩ : Shape).Idx → EReal)
    (i : Fin N) (k : Fin C) :
    Ideal.hostScatterAdd (rowScatter N E C wf) x idx upd (ix2 i k)
      = x (ix2 i k) + ∑ e ∈ Finset.univ.filter (fun e : Fin E => (idx (ix2 e 0)).toInt = (i.val : ℤ)), upd (ix2 e k) := by
  unfold Ideal.hostScatterAdd
  congr 1
  rw [Finset.sum_filter, sum_idx2, Finset.sum_filter]
  refine Finset.sum_congr rfl fun e _ => ?_
  simp only [resultIdx_rows]
  by_cases hv : (idx (ix2 e 0)).toInt = (i.val : ℤ)
  · simp only [hv, true_and, if_true]
    rw [Finset.sum_ite_eq' Finset.univ k (fun b => upd (ix2 e b))]
    simp
  · simp only [hv, false_and, if_false, Finset.sum_const_zero]

end ScatterIdx

/-! ## Gather along rows -/

/-- The dimension numbers of a gather of whole rows: one index word per result row names a table row
    (slices of one row, all C columns), the result's axis 1 runs over the columns. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Gather
variable {α : Type} {N E C w : Nat}

/-- THE GATHER READ AT (e, k): the table at row "word e read signed, clamped into [0, N - 1]", column k. -/
theorem gather_rows_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGather N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGather N E C wf).start (ix2 e k) idx 0 + (rowGather N E C wf).batchCoord (ix2 e k) 0
        + (rowGather N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e k) ⟨List.idxOf (0 : Fin 2) (rowGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E C wf).start (ix2 e k) idx 1 + (rowGather N E C wf).batchCoord (ix2 e k) 1
        + (rowGather N E C wf).offCoord (ix2 e k) 1 = k.val
    rw [GatherDims.batchCoord_eq_zero _ _ _ List.not_mem_nil]
    have hs : (rowGather N E C wf).start (ix2 e k) idx 1 = 0 := rfl
    have ho : (rowGather N E C wf).offCoord (ix2 e k) 1 = k.val := rfl
    rw [hs, ho]; omega

/-- The same, with the table's row named by the caller: any r whose number is the clamped reading of word e. -/
theorem gather_rows_apply_of_eq (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) (r : Fin N)
    (hr : min (idx (ix2 e 0)).toInt.toNat (N - 1) = r.val) :
    Host.gather (rowGather N E C wf) x idx (ix2 e k) = x (ix2 r k) := by
  rw [gather_rows_apply hN wf]
  refine congrArg x (funext fun a => ?_)
  match a with
  | ⟨0, _⟩ => exact Fin.ext hr
  | ⟨1, _⟩ => rfl

end Gather

/-! ## Row lookup with a fill value for row numbers out of range

A lookup of rows of a table of 50000 rows by 800000 signed row numbers, in the form a lookup with "fill" mode
takes: a negative number is first wrapped by adding 50000; a row number that after that is outside [0, 49999]
gives a row of the fill value; otherwise the (clamped) gather gives the table's row. For a row number already
in [0, 50000) nothing is wrapped, both range tests pass, nothing is clamped, and the result is the table's row. -/

/-- A left fold by `and` over one-bit words that are all 1, started at 1, is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduction by `and` from 1 is 1 at a result index when every element that reduces into it is 1. -/
theorem reduce_andi_eq_one_of_all {s t u : Shape} {axes : List (Fin s.rank)} (x : s.Idx → BitVec 1)
    (init : u.Idx → BitVec 1) (h : s.ReducesTo axes t) (hu : 0 < u.numel) (j : t.Idx)
    (hi : init (Shape.Idx.first hu) = 1#1) (hx : ∀ i, h.drop i = j → x i = 1#1) :
    Host.reduce IntOp.andi x init h hu j = 1#1 := by
  rw [Host.reduce_eq_foldl, hi]
  refine foldl_andi_one x _ fun i hi' => ?_
  rw [List.mem_filter] at hi'
  exact hx i (by simpa using hi'.2)

/-- A vector of 800000 entries broadcast along axis 0 of an [800000, m] array reads, at (e, c), its entry e. -/
theorem broadcast_rows_apply {α : Type} {m : Nat}
    (hb : (⟨1, ![800000]⟩ : Shape).BroadcastsInDim ⟨2, ![800000, m]⟩ (![0] : Fin 1 → Fin 2))
    (x : (⟨1, ![800000]⟩ : Shape).Idx → α) (i : (⟨2, ![800000, m]⟩ : Shape).Idx) :
    broadcastInDim ⟨2, ![800000, m]⟩ ![0] hb x i = x (ix1 (i 0)) := by
  unfold broadcastInDim
  refine congrArg x (funext fun a => Fin.ext ?_)
  match a with
  | ⟨0, _⟩ => rfl

section Take
variable {F : FTy → Type} [FloatOps F] {C : Nat}
  (hb0 : (⟨0, ![]⟩ : Shape).BroadcastsInDim ⟨1, ![800000]⟩ (![] : Fin 0 → Fin (⟨1, ![800000]⟩ : Shape).rank))
  (hb1 : (⟨1, ![800000]⟩ : Shape).BroadcastsInDim ⟨2, ![800000, 1]⟩ (![0] : Fin 1 → Fin (⟨2, ![800000, 1]⟩ : Shape).rank))
  (hb2 : (⟨0, ![]⟩ : Shape).BroadcastsInDim ⟨2, ![800000, 1]⟩ (![] : Fin 0 → Fin (⟨2, ![800000, 1]⟩ : Shape).rank))
  (hb3 : (⟨1, ![1]⟩ : Shape).BroadcastsInDim ⟨2, ![1, 1]⟩ (![1] : Fin 1 → Fin (⟨2, ![1, 1]⟩ : Shape).rank))
  (hb4 : (⟨2, ![1, 1]⟩ : Shape).BroadcastsInDim ⟨2, ![800000, 1]⟩ (![0, 1] : Fin 2 → Fin (⟨2, ![800000, 1]⟩ : Shape).rank))
  (hr : (⟨2, ![800000, 1]⟩ : Shape).ReducesTo [1] ⟨1, ![800000]⟩)
  (hu : 0 < (⟨0, ![]⟩ : Shape).numel)
  (hb5 : (⟨1, ![800000]⟩ : Shape).BroadcastsInDim ⟨2, ![800000, C]⟩ (![0] : Fin 1 → Fin (⟨2, ![800000, C]⟩ : Shape).rank))
  (hb6 : (⟨0, ![]⟩ : Shape).BroadcastsInDim ⟨2, ![800000, C]⟩ (![] : Fin 0 → Fin (⟨2, ![800000, C]⟩ : Shape).rank))
  (wf : GatherDims.WF ⟨2, ![50000, C]⟩ ⟨2, ![800000, 1]⟩ ⟨2, ![800000, C]⟩ [1] [0] [] [0] [] 1 ![1, C])

/-- The lookup: wrap negative row numbers, make the row numbers a column, test each against [0, 49999], gather the
    rows, and put the fill value (the pattern 0x7FC00000) where the test failed. -/
def takeFill (T : FVec F ⟨2, ![50000, C]⟩ .f32) (s : IVec ⟨1, ![800000]⟩ 32) : FVec F ⟨2, ![800000, C]⟩ .f32 :=
  select
    (broadcastInDim ⟨2, ![800000, C]⟩ ![0] hb5
      (Host.reduce IntOp.andi
        (andi
          (cmpi .sge
            (broadcastInDim ⟨2, ![800000, 1]⟩ ![0] hb1
              (select (cmpi .slt s (broadcastInDim ⟨1, ![800000]⟩ ![] hb0 (constantI ⟨0, ![]⟩ 32 0#32)))
                (addi s (broadcastInDim ⟨1, ![800000]⟩ ![] hb0 (constantI ⟨0, ![]⟩ 32 50000#32))) s))
            (broadcastInDim ⟨2, ![800000, 1]⟩ ![] hb2 (constantI ⟨0, ![]⟩ 32 0#32)))
          (cmpi .sle
            (broadcastInDim ⟨2, ![800000, 1]⟩ ![0] hb1
              (select (cmpi .slt s (broadcastInDim ⟨1, ![800000]⟩ ![] hb0 (constantI ⟨0, ![]⟩ 32 0#32)))
                (addi s (broadcastInDim ⟨1, ![800000]⟩ ![] hb0 (constantI ⟨0, ![]⟩ 32 50000#32))) s))
            (broadcastInDim ⟨2, ![800000, 1]⟩ ![0, 1] hb4
              (broadcastInDim ⟨2, ![1, 1]⟩ ![1] hb3 (constantI ⟨1, ![1]⟩ 32 49999#32)))))
        (constantI ⟨0, ![]⟩ 1 1#1) hr hu))
    (Host.gather (rowGather 50000 800000 C wf) T
      (broadcastInDim ⟨2, ![800000, 1]⟩ ![0] hb1
        (select (cmpi .slt s (broadcastInDim ⟨1, ![800000]⟩ ![] hb0 (constantI ⟨0, ![]⟩ 32 0#32)))
          (addi s (broadcastInDim ⟨1, ![800000]⟩ ![] hb0 (constantI ⟨0, ![]⟩ 32 50000#32))) s)))
    (broadcastInDim ⟨2, ![800000, C]⟩ ![] hb6 (constant ⟨0, ![]⟩ .f32 0x7FC00000#32))

/-- A nonnegative row number is not wrapped. -/
theorem wrap_apply (s : IVec ⟨1, ![800000]⟩ 32) (j : (⟨1, ![800000]⟩ : Shape).Idx) (h0 : 0 ≤ (s j).toInt) :
    select (cmpi .slt s (broadcastInDim ⟨1, ![800000]⟩ ![] hb0 (constantI ⟨0, ![]⟩ 32 0#32)))
      (addi s (broadcastInDim ⟨1, ![800000]⟩ ![] hb0 (constantI ⟨0, ![]⟩ 32 50000#32))) s j = s j := by
  show Scalar.select (IntOp.cmpi .slt (s j) 0#32) _ _ = s j
  unfold Scalar.select
  rw [if_neg]
  intro hc
  have := IntOp.cmpi_slt.1 hc
  rw [show (0#32 : BitVec 32).toInt = 0 from by decide] at this
  omega

/-- THE LOOKUP READ AT (e, k), for a row number in [0, 50000): the table's row of that number, column k. -/
theorem takeFill_apply (T : FVec F ⟨2, ![50000, C]⟩ .f32) (s : IVec ⟨1, ![800000]⟩ 32) (e : Fin 800000) (k : Fin C)
    (h0 : 0 ≤ (s (ix1 e)).toInt) (h1 : (s (ix1 e)).toInt < 50000) :
    takeFill hb0 hb1 hb2 hb3 hb4 hr hu hb5 hb6 wf T s (ix2 e k)
      = T (ix2 ⟨(s (ix1 e)).toInt.toNat, by omega⟩ k) := by
  unfold takeFill
  rw [select_apply, broadcast_rows_apply hb5]
  -- the row-number column read at row e is the row number e itself
  have hv : ∀ i : (⟨2, ![800000, 1]⟩ : Shape).Idx, i 0 = e →
      broadcastInDim ⟨2, ![800000, 1]⟩ ![0] hb1
        (select (cmpi .slt s (broadcastInDim ⟨1, ![800000]⟩ ![] hb0 (constantI ⟨0, ![]⟩ 32 0#32)))
          (addi s (broadcastInDim ⟨1, ![800000]⟩ ![] hb0 (constantI ⟨0, ![]⟩ 32 50000#32))) s) i = s (ix1 e) := by
    intro i hi
    rw [broadcast_rows_apply hb1, hi, wrap_apply hb0 s (ix1 e) h0]
  -- both range tests pass at row e
  have hok : Host.reduce IntOp.andi
        (andi
          (cmpi .sge
            (broadcastInDim ⟨2, ![800000, 1]⟩ ![0] hb1
              (select (cmpi .slt s (broadcastInDim ⟨1, ![800000]⟩ ![] hb0 (constantI ⟨0, ![]⟩ 32 0#32)))
                (addi s (broadcastInDim ⟨1, ![800000]⟩ ![] hb0 (constantI ⟨0, ![]⟩ 32 50000#32))) s))
            (broadcastInDim ⟨2, ![800000, 1]⟩ ![] hb2 (constantI ⟨0, ![]⟩ 32 0#32)))
          (cmpi .sle
            (broadcastInDim ⟨2, ![800000, 1]⟩ ![0] hb1
              (select (cmpi .slt s (broadcastInDim ⟨1, ![800000]⟩ ![] hb0 (constantI ⟨0, ![]⟩ 32 0#32)))
                (addi s (broadcastInDim ⟨1, ![800000]⟩ ![] hb0 (constantI ⟨0, ![]⟩ 32 50000#32))) s))
            (broadcastInDim ⟨2, ![800000, 1]⟩ ![0, 1] hb4
              (broadcastInDim ⟨2, ![1, 1]⟩ ![1] hb3 (constantI ⟨1, ![1]⟩ 32 49999#32)))))
        (constantI ⟨0, ![]⟩ 1 1#1) hr hu (ix1 ((ix2 e k : (⟨2, ![800000, C]⟩ : Shape).Idx) 0)) = 1#1 := by
    refine reduce_andi_eq_one_of_all _ _ hr hu _ rfl fun i hi => ?_
    have hi0 : i 0 = e := by
      have := congrArg Fin.val (congrFun hi 0)
      exact Fin.ext this
    show IntOp.andi (IntOp.cmpi .sge _ 0#32) (IntOp.cmpi .sle _ 49999#32) = 1#1
    rw [hv i hi0, IntOp.andi_eq_one, IntOp.cmpi_sge, IntOp.cmpi_sle,
      show (0#32 : BitVec 32).toInt = 0 from by decide, show (49999#32 : BitVec 32).toInt = 49999 from by decide]
    omega
  rw [hok, select_one]
  refine gather_rows_apply_of_eq (by decide) wf T _ e k _ ?_
  rw [hv (ix2 e 0) rfl]
  show min (s (ix1 e)).toInt.toNat (50000 - 1) = (s (ix1 e)).toInt.toNat
  omega

end Take

end Cert.ScatterGather

end
-- ==== Proof.SageRead.lean ====
/-
  The shared host functions read at an index, on the extended reals:
  a row lookup with the row id in range is the table's row; a segment sum at node `i`, column `k` is the
  sum of the edge rows whose destination is `i`; the reciprocal in-degree is a finite number; and one combine
  layer at node `p`, column `q` is `(∑ₖ (agg p k · dinv p) · W_l k q + b q) + ∑ₖ T p k · W_r k q`.
-/
import proofs.«153042_j9998683865369_2_alg».proof.Proof.SageHost
import proofs.«153042_j9998683865369_2_alg».proof.Proof.SageAlgebra
import proofs.«153042_j9998683865369_2_alg».proof.Proof.LibScatterGather
import Idealize.ShloMosaic.Lib.StackMember
import Idealize.ShloMosaic.Lib.Pipeline.Value
import Idealize.ShloMosaic.Lib.IdealHost

noncomputable section

namespace Cert.SageHost

open Idealize.ShloMosaic Idealize.ShloMosaic.ValueIdx Cert.Sage
open scoped BigOperators

variable [Ev]

/-- The zero word denotes zero and the word `0x3F800000` one, read anywhere in a splat. -/
theorem splat_zero {T : Shape} (h : S_.BroadcastsInDim T ![]) (j : T.Idx) :
    broadcastInDim T ![] h (constant (F := Ideal) S_ .f32 0x00000000#32) j = 0 := by
  rw [broadcastInDim_scalar_apply, constant_apply, Ideal.ofBits_zero_f32]

theorem splat_one {T : Shape} (h : S_.BroadcastsInDim T ![]) (j : T.Idx) :
    broadcastInDim T ![] h (constant (F := Ideal) S_ .f32 0x3F800000#32) j = 1 := by
  rw [broadcastInDim_scalar_apply, constant_apply, Cert.LibEReal.ofBits_one]

/-! ## The row lookup -/

theorem gatherDims_eq (C : Nat) [EvC C] : gatherDims C = Cert.ScatterGather.rowGather 50000 800000 C EvC.wfGather := rfl

/-- The lookup is the library-level one: the same operations in the same order. -/
theorem take_eq (C : Nat) [EvC C] (T : FVec Ideal (SNx C) .f32) (s : IVec SE 32) :
    take (F := Ideal) C T s = Cert.ScatterGather.takeFill Ev.bE Ev.bEE1 Ev.bE1 Ev.b1_11 Ev.b11_E1 Ev.rE1 Ev.hS_
      EvC.bEEx EvC.bEx EvC.wfGather T s := by
  unfold take inRange wrapped Cert.ScatterGather.takeFill
  rw [gatherDims_eq]

/-- THE LOOKUP AT (e, k), the row id in range: the table's row of that id. -/
theorem take_apply (C : Nat) [EvC C] (T : FVec Ideal (SNx C) .f32) (s : IVec SE 32) (e : Fin 800000) (k : Fin C)
    (h0 : 0 ≤ (s (ix1 e)).toInt) (h1 : (s (ix1 e)).toInt < 50000) :
    take (F := Ideal) C T s (ix2 e k) = T (ix2 ⟨(s (ix1 e)).toInt.toNat, by omega⟩ k) := by
  rw [take_eq]
  exact Cert.ScatterGather.takeFill_apply Ev.bE Ev.bEE1 Ev.bE1 Ev.b1_11 Ev.b11_E1 Ev.rE1 Ev.hS_ EvC.bEEx EvC.bEx
    EvC.wfGather T s e k h0 h1

/-! ## The segment sum -/

/-- The edges whose destination is node `i`. -/
def into (dst : IVec SE 32) (i : Fin 50000) : Finset (Fin 800000) :=
  Finset.univ.filter fun e : Fin 800000 => (dst (ix1 e)).toInt = (i.val : ℤ)

/-- The segment sum is the exact sum of the updates that land on each element. -/
theorem segSum_eq (C : Nat) [EvC C] (dst : IVec SE 32) (U : FVec Ideal (SEx C) .f32) :
    segSum (F := Ideal) C dst U = Ideal.hostScatterAdd (Cert.ScatterGather.rowScatter 50000 800000 C EvC.wfScatter)
      (broadcastInDim (SNx C) ![] EvC.bNx (constant (F := Ideal) S_ .f32 0x00000000#32))
      (broadcastInDim SE1 ![0] Ev.bEE1 dst) U := rfl

/-- THE SEGMENT SUM AT (i, k): from zero, the edge rows whose destination is `i`, column `k`. -/
theorem segSum_apply (C : Nat) [EvC C] (dst : IVec SE 32) (U : FVec Ideal (SEx C) .f32) (i : Fin 50000) (k : Fin C) :
    segSum (F := Ideal) C dst U (ix2 i k) = 0 + ∑ e ∈ into dst i, U (ix2 e k) := by
  rw [segSum_eq, Cert.ScatterGather.scatterAdd_rows_apply, splat_zero]
  refine congrArg (0 + ·) (Finset.sum_congr (Finset.ext fun e => ?_) fun _ _ => rfl)
  unfold into
  rw [Finset.mem_filter, Finset.mem_filter, Cert.ScatterGather.broadcast_rows_apply Ev.bEE1]

/-! ## The reciprocal degree -/

/-- The in-degree is the exact sum of the ones that land on each node. -/
theorem degree_eq (dst : IVec SE 32) :
    degree (F := Ideal) dst = Ideal.hostScatterAdd countDims
      (broadcastInDim SN ![] Ev.bN (constant (F := Ideal) S_ .f32 0x00000000#32))
      (broadcastInDim SE1 ![0] Ev.bEE1 dst) (broadcastInDim SE ![] Ev.bE (constant (F := Ideal) S_ .f32 0x3F800000#32)) := rfl

/-- The in-degree is a finite number. -/
theorem degree_isReal (dst : IVec SE 32) (n : SN.Idx) : IsReal (degree (F := Ideal) dst n) := by
  rw [degree_eq]
  unfold Ideal.hostScatterAdd
  refine IsReal.add ?_ (IsReal.sum _ _ fun j => ?_)
  · rw [splat_zero]; exact IsReal.zero
  · rw [splat_one]; exact ⟨1, rfl⟩

/-- The host's quotient of two arrays at an index. -/
theorem hostDivf_apply {s : Shape} (a b : FVec Ideal s .f32) (n : s.Idx) : Host.divf a b n = Ideal.div (a n) (b n) := rfl

/-- The reciprocal in-degree is a finite number: `1 / max(deg, 1)` with `max(deg, 1) ≥ 1`, or zero. -/
theorem degInv_isReal (dst : IVec SE 32) (n : SN.Idx) : IsReal (degInv (F := Ideal) dst n) := by
  obtain ⟨d, hd⟩ := degree_isReal dst n
  unfold degInv
  rw [select_apply]
  generalize (cmpf (F := Ideal) .ogt (degree (F := Ideal) dst) _ n) = bit
  by_cases hb : bit = 1#1
  · rw [hb, select_one, hostDivf_apply, maximumf_apply, splat_one, hd]
    have hm : max (d : EReal) ((1 : ℝ) : EReal) = ((max d 1 : ℝ) : EReal) := by
      rcases le_total d 1 with h | h
      · rw [max_eq_right h, max_eq_right (EReal.coe_le_coe_iff.mpr h)]
      · rw [max_eq_left h, max_eq_left (EReal.coe_le_coe_iff.mpr h)]
    have hne : (max d 1 : ℝ) ≠ 0 := ne_of_gt (lt_of_lt_of_le one_pos (le_max_right d 1))
    rw [← EReal.coe_one, hm, Cert.LibEReal.div_coe' 1 _ hne]
    exact ⟨_, rfl⟩
  · rw [eq_zero_of_ne_one hb, select_zero]
    exact ⟨0, splat_zero Ev.bN n⟩

/-! ## One combine layer -/

variable [EvC 128] [EvR]

/-- THE COMBINE LAYER AT (p, q). -/
theorem layer_apply (C : Nat) [EvL C] (T : FVec Ideal (SNx 128) .f32) (src dst : IVec SE 32) (dinv : FVec Ideal SN .f32)
    (wl : FVec Ideal (SKx 128 C) .f32) (b : FVec Ideal (Sv C) .f32) (wr : FVec Ideal (SKx 128 C) .f32)
    (p : Fin 50000) (q : Fin C) :
    layer (F := Ideal) C T src dst dinv wl b wr (ix2 p q)
      = ((∑ k : Fin 128, (segSum (F := Ideal) 128 dst (take (F := Ideal) 128 T src) (ix2 p k) * dinv (ix1 p)) * wl (ix2 k q))
          + b (ix1 q)) + ∑ k : Fin 128, T (ix2 p k) * wr (ix2 k q) := by
  unfold layer
  rw [addf_apply, addf_apply]
  beta_reduce
  rw [StackMember.dotGeneral_plain_apply, StackMember.dotGeneral_plain_apply]
  have hb : broadcastInDim (SNx C) ![0, 1] EvL.b1C_NC (broadcastInDim (S1x C) ![1] EvL.bC_1C b) (ix2 p q) = b (ix1 q) := by
    rw [broadcastInDim_oneRow_apply]
    refine broadcastInDim_apply _ _ _ _ (ix1 q) fun a => ?_
    match a with
    | ⟨0, _⟩ =>
      show q.val = if C = 1 then 0 else q.val
      split_ifs with hC
      · have := q.isLt; omega
      · rfl
  have hd : ∀ k : Fin 128, broadcastInDim (SNx 128) ![0, 1] EvR.bN1_N128 (broadcastInDim SN1 ![0] EvR.bN_N1 dinv) (ix2 p k)
      = dinv (ix1 p) := fun k => by
    rw [broadcastInDim_apply ![0, 1] EvR.bN1_N128 _ (ix2 p k) (ix2 p (0 : Fin 1)) (fun a => by
      match a with
      | ⟨0, _⟩ => rfl
      | ⟨1, _⟩ => rfl)]
    refine broadcastInDim_apply _ _ _ _ (ix1 p) fun a => ?_
    match a with
    | ⟨0, _⟩ => rfl
  rw [hb]
  conv_lhs =>
    arg 1
    arg 1
    arg 2
    ext k
    rw [mulf_apply, hd k]

end Cert.SageHost

end
-- ==== Proof.SageBridge.lean ====
/-
  The two arrangements of the second layer agree on finite inputs with every source id a valid row.

  Both programs compute the same hidden layer `H`. The one aggregates `H` over each node's incoming edges,
  scales by the reciprocal degree and multiplies by `W₂ₗ`; the other multiplies every row of `H` by `W₂ₗ` first and
  aggregates and scales the products. With every source id in range a looked-up row is a row of the table, so
  both sides are finite sums of products of real numbers, and the two are one number by distributivity and an
  exchange of the sum over edges with the sum over features.
-/
import proofs.«153042_j9998683865369_2_alg».proof.Proof.SageRead
import proofs.«153042_j9998683865369_2_alg».proof.Proof.SageOut
import Idealize.ShloMosaic.Lib.ValueLayout

noncomputable section

namespace Cert.SageHost

open Idealize.ShloMosaic Idealize.ShloMosaic.ValueIdx Cert.Sage
open scoped BigOperators

variable [Ev] [EvC 128] [EvC 64] [EvR] [EvL 128] [EvL 64] [EvK]

/-- A vector of node values reshaped to a column reads, at (p, 0), its entry p. -/
theorem col_apply (v : FVec Ideal SN .f32) (p : Fin 50000) :
    shapeCast SN1 v EvK.scN (ix2 p (0 : Fin 1)) = v (ix1 p) :=
  shapeCast_apply v EvK.scN _ _ (by
    rw [Shape.rowMajor_val_two, Shape.rowMajor_val_one]
    show p.val = p.val * 1 + 0
    omega)

/-- A bias reshaped to a one-row matrix reads, at (0, q), its entry q. -/
theorem row128_apply (b : FVec Ideal (Sv 128) .f32) (q : Fin 128) :
    shapeCast (S1x 128) b EvK.sc128 (ix2 (0 : Fin 1) q) = b (ix1 q) := shapeCast_a_1a_apply b EvK.sc128 0 q

theorem row64_apply (b : FVec Ideal (Sv 64) .f32) (q : Fin 64) :
    shapeCast (S1x 64) b EvK.sc64 (ix2 (0 : Fin 1) q) = b (ix1 q) := shapeCast_a_1a_apply b EvK.sc64 0 q

/-- The closed form at (p, q). -/
theorem kernelOut_apply (x : FVec Ideal (SNx 128) .f32) (ei : IVec S2E 32) (w1l : FVec Ideal (SKx 128 128) .f32)
    (b1 : FVec Ideal (Sv 128) .f32) (w1r : FVec Ideal (SKx 128 128) .f32) (w2l : FVec Ideal (SKx 128 64) .f32)
    (b2 : FVec Ideal (Sv 64) .f32) (w2r : FVec Ideal (SKx 128 64) .f32) (p : Fin 50000) (q : Fin 64) :
    kernelOut x ei w1l b1 w1r w2l b2 w2r (ix2 p q)
      = ((segSum (F := Ideal) 64 (dstOf ei)
            (take (F := Ideal) 64 (fun j => proj (hidden x ei w1l b1 w1r) w2l (j 0) (j 1)) (srcOf ei)) (ix2 p q)
          * shapeCast SN1 (degInv (F := Ideal) (dstOf ei)) EvK.scN (ix2 p 0)) + shapeCast (S1x 64) b2 EvK.sc64 (ix2 0 q))
        + ∑ k : Fin 128, hidden x ei w1l b1 w1r p k * w2r (ix2 k q) := rfl

section Finite

variable (x : FVec Ideal (SNx 128) .f32) (ei : IVec S2E 32) (w1l : FVec Ideal (SKx 128 128) .f32)
  (b1 : FVec Ideal (Sv 128) .f32) (w1r : FVec Ideal (SKx 128 128) .f32) (w2l : FVec Ideal (SKx 128 64) .f32)
  (b2 : FVec Ideal (Sv 64) .f32) (w2r : FVec Ideal (SKx 128 64) .f32)
  (hx : ∀ i, IsReal (x i)) (hw1l : ∀ i, IsReal (w1l i)) (hb1 : ∀ i, IsReal (b1 i)) (hw1r : ∀ i, IsReal (w1r i))
  (hw2l : ∀ i, IsReal (w2l i))
  (hsrc : ∀ e : Fin 800000, 0 ≤ (srcOf ei (ix1 e)).toInt ∧ (srcOf ei (ix1 e)).toInt < 50000)

/-- The source node of edge `e`, as a row number. -/
def srcRow (e : Fin 800000) : Fin 50000 := ⟨(srcOf ei (ix1 e)).toInt.toNat, by have := hsrc e; omega⟩

include hx hsrc in
/-- The aggregated features are finite. -/
theorem agg1_isReal (i : (SNx 128).Idx) :
    IsReal (segSum (F := Ideal) 128 (dstOf ei) (take (F := Ideal) 128 x (srcOf ei)) i) := by
  obtain ⟨p, k, rfl⟩ : ∃ (p : Fin 50000) (k : Fin 128), i = ix2 p k := ⟨i 0, i 1, eq_ix2 i⟩
  rw [segSum_apply]
  refine IsReal.add IsReal.zero (IsReal.sum _ _ fun e => ?_)
  rw [take_apply 128 x (srcOf ei) e k (hsrc e).1 (hsrc e).2]
  exact hx _

/-- The reciprocal degrees as a column are finite. -/
theorem dcol_isReal (i : SN1.Idx) : IsReal (shapeCast SN1 (degInv (F := Ideal) (dstOf ei)) EvK.scN i) := by
  obtain ⟨p, u, rfl⟩ : ∃ (p : Fin 50000) (u : Fin 1), i = ix2 p u := ⟨i 0, i 1, eq_ix2 i⟩
  obtain rfl : u = 0 := Subsingleton.elim _ _
  rw [col_apply]
  exact degInv_isReal _ _

include hb1 in
theorem brow_isReal (i : (S1x 128).Idx) : IsReal (shapeCast (S1x 128) b1 EvK.sc128 i) := by
  obtain ⟨u, q, rfl⟩ : ∃ (u : Fin 1) (q : Fin 128), i = ix2 u q := ⟨i 0, i 1, eq_ix2 i⟩
  obtain rfl : u = 0 := Subsingleton.elim _ _
  rw [row128_apply]
  exact hb1 _

include hx hw1l hb1 hw1r hsrc in
/-- The hidden layer is finite. -/
theorem hidden_isReal (p : Fin 50000) (k : Fin 128) : IsReal (hidden x ei w1l b1 w1r p k) :=
  hid_isReal (agg1_isReal x ei hx hsrc) (dcol_isReal ei) hx hw1l (brow_isReal b1 hb1) hw1r p k

/-- The whole-array first layer, clamped, is the hidden layer. -/
theorem first_layer (p : Fin 50000) (k : Fin 128) :
    relu (F := Ideal) (layer (F := Ideal) 128 x (srcOf ei) (dstOf ei) (degInv (F := Ideal) (dstOf ei)) w1l b1 w1r) (ix2 p k)
      = hidden x ei w1l b1 w1r p k := by
  unfold relu hidden hid
  rw [maximumf_apply, splat_zero, layer_apply, col_apply, row128_apply]

include hx hw1l hb1 hw1r hw2l hsrc in
/-- THE TWO ARRANGEMENTS AGREE. -/
theorem network_eq : network (F := Ideal) x ei w1l b1 w1r w2l b2 w2r = kernelOut x ei w1l b1 w1r w2l b2 w2r := by
  funext i
  obtain ⟨p, q, rfl⟩ : ∃ (p : Fin 50000) (q : Fin 64), i = ix2 p q := ⟨i 0, i 1, eq_ix2 i⟩
  rw [kernelOut_apply, col_apply, row64_apply]
  unfold network
  rw [layer_apply]
  have hR : ∀ (p : Fin 50000) (k : Fin 128),
      relu (F := Ideal) (layer (F := Ideal) 128 x (srcOf ei) (dstOf ei) (degInv (F := Ideal) (dstOf ei)) w1l b1 w1r) (ix2 p k)
        = hidden x ei w1l b1 w1r p k := first_layer x ei w1l b1 w1r
  have h128 : ∀ (e : Fin 800000) (k : Fin 128),
      take (F := Ideal) 128 (relu (F := Ideal) (layer (F := Ideal) 128 x (srcOf ei) (dstOf ei) (degInv (F := Ideal) (dstOf ei)) w1l b1 w1r))
        (srcOf ei) (ix2 e k) = hidden x ei w1l b1 w1r (srcRow ei hsrc e) k := fun e k =>
    (take_apply 128 _ (srcOf ei) e k (hsrc e).1 (hsrc e).2).trans (hR _ _)
  have h64 : ∀ (e : Fin 800000) (q : Fin 64),
      take (F := Ideal) 64 (fun j => proj (hidden x ei w1l b1 w1r) w2l (j 0) (j 1)) (srcOf ei) (ix2 e q)
        = ∑ k : Fin 128, hidden x ei w1l b1 w1r (srcRow ei hsrc e) k * w2l (ix2 k q) := fun e q =>
    take_apply 64 _ (srcOf ei) e q (hsrc e).1 (hsrc e).2
  conv_lhs =>
    arg 2
    arg 2
    ext k
    rw [hR]
  conv_lhs =>
    arg 1
    arg 1
    arg 2
    ext k
    rw [segSum_apply]
    arg 1
    arg 1
    arg 2
    arg 2
    ext e
    rw [h128 e k]
  conv_rhs =>
    arg 1
    arg 1
    arg 1
    rw [segSum_apply]
    arg 2
    arg 2
    ext e
    rw [h64 e q]
  have key := agg_proj_commute (into (dstOf ei) p) (fun e k => hidden x ei w1l b1 w1r (srcRow ei hsrc e) k)
    (fun k => w2l (ix2 k q)) (degInv (F := Ideal) (dstOf ei) (ix1 p))
    (fun e k => hidden_isReal x ei w1l b1 w1r hx hw1l hb1 hw1r hsrc _ _) (fun k => hw2l _) (degInv_isReal _ _)
  beta_reduce at key
  rw [key]

end Finite

end Cert.SageHost

end
-- ==== Proof.PreFacts.lean ====
/-
  The precondition read back. The predicate is a conjunction of eight one-bit words: seven of
  the form "every entry x of this float array has |x| < +∞" and one "every entry of row 0 of the index
  array lies in [0, 50000) as a signed integer". Each "every entry" is a reduction by `and` from 1 that came
  out 1, so each entry's own test word is 1. For a float entry x the test is max x (-x) < ⊤ on the extended
  reals, which fails at ⊥ and at ⊤, so x is a real number. For an index word w the two tests are the signed
  comparisons 0 ≤ w and w < 50000.
-/
import proofs.«153042_j9998683865369_2_alg».proof.Pre_finite_inputs
import Idealize.ShloMosaic.Lib.ReduceAll
import Idealize.ShloMosaic.PureOps.Ideal

noncomputable section

namespace Cert.PreFacts

open Idealize.ShloMosaic
open Cert.Pre_finite_inputs Cert.Pre_finite_inputs.Facts

variable [Cert.Pre_finite_inputs.Facts]

/-- The rank-0 shape has one index. -/
instance subsingleton_S_ : Subsingleton S_.Idx := ⟨fun a b => funext fun d => d.elim0⟩

/-- The one index of the rank-0 shape. -/
def j0 : S_.Idx := fun d => d.elim0

/-- The pattern 0x7F800000 denotes +∞. -/
theorem ofBits_inf : Ideal.ofBits .f32 0x7F800000#32 = (⊤ : EReal) := by
  simp [Ideal.ofBits, Ideal.ieee]

/-- A one-bit word made from a Boolean is 1 exactly when the Boolean is true. -/
theorem ofBool_eq_one {b : Bool} : BitVec.ofBool b = 1#1 ↔ b = true := by cases b <;> decide

/-- An extended real x with max x (-x) < +∞ is a real number: at ⊥ the maximum is -⊥ = ⊤, at ⊤ it is ⊤. -/
theorem real_of_abs_lt_inf (x : EReal)
    (h : Ideal.cmp .olt (max x (-x)) (Ideal.ofBits .f32 0x7F800000#32) = 1#1) : ∃ r : ℝ, x = (r : EReal) := by
  rw [ofBits_inf] at h
  simp only [Ideal.cmp, ofBool_eq_one, decide_eq_true_eq] at h
  induction x using EReal.rec with
  | bot => simp at h
  | coe r => exact ⟨r, rfl⟩
  | top => simp at h

/-- "Every entry has |x| < +∞", in the form the predicate states it for one float array, gives that every entry is real. -/
theorem real_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32)))
          (constantI S_ 1 1#1) hr hu j = 1#1) :
    ∀ i, ∃ r : ℝ, x i = (r : EReal) := fun i =>
  real_of_abs_lt_inf (x i) (Host.reduce_andi_all _ _ hr hu j e i)

/-- A conjunction of two one-bit vectors read at an index. -/
theorem andi_apply_eq_one {s : Shape} (a b : IVec s 1) (j : s.Idx) : andi a b j = 1#1 ↔ a j = 1#1 ∧ b j = 1#1 :=
  IntOp.andi_eq_one

/-- "Every entry w has 0 ≤ w and w < 50000 (signed)", in the form the predicate states it, read at one entry. -/
theorem range_of_all {s : Shape} {axes : List (Fin s.rank)} (v : IVec s 32)
    (hb : S_.BroadcastsInDim s (![] : Fin 0 → Fin s.rank)) (hr : s.ReducesTo axes S_) (hu : 0 < S_.numel) (j : S_.Idx)
    (e : Host.reduce IntOp.andi
          (andi (cmpi .sge v (broadcastInDim s ![] hb (constantI S_ 32 0#32)))
                (cmpi .slt v (broadcastInDim s ![] hb (constantI S_ 32 50000#32))))
          (constantI S_ 1 1#1) hr hu j = 1#1) :
    ∀ i, 0 ≤ (v i).toInt ∧ (v i).toInt < 50000 := fun i => by
  obtain ⟨ha, hb'⟩ := IntOp.andi_eq_one.1 (Host.reduce_andi_all _ _ hr hu j e i)
  have h0 : (0#32 : BitVec 32).toInt ≤ (v i).toInt := IntOp.cmpi_sge.1 ha
  have h1 : (v i).toInt < (50000#32 : BitVec 32).toInt := IntOp.cmpi_slt.1 hb'
  rw [show (0#32 : BitVec 32).toInt = 0 from by decide] at h0
  rw [show (50000#32 : BitVec 32).toInt = 50000 from by decide] at h1
  exact ⟨h0, h1⟩

/-- THE PRECONDITION DECODED: every float input entry is a real number, and every entry of row 0 of the
    index array is in [0, 50000) as a signed integer. -/
theorem of_pre (x : FVec Ideal S50000x128 .f32) (ei : IVec S2x800000 32) (w1l : FVec Ideal S128x128 .f32)
    (b1 : FVec Ideal S128 .f32) (w1r : FVec Ideal S128x128 .f32) (w2l : FVec Ideal S128x64 .f32)
    (b2 : FVec Ideal S64 .f32) (w2r : FVec Ideal S128x64 .f32)
    (h : Cert.Pre_finite_inputs.fn (F := Ideal) x ei w1l b1 w1r w2l b2 w2r = (fun _ => 1#1)) :
    (∀ i, ∃ r : ℝ, x i = (r : EReal)) ∧ (∀ i, ∃ r : ℝ, w1l i = (r : EReal)) ∧ (∀ i, ∃ r : ℝ, b1 i = (r : EReal)) ∧
    (∀ i, ∃ r : ℝ, w1r i = (r : EReal)) ∧ (∀ i, ∃ r : ℝ, w2l i = (r : EReal)) ∧ (∀ i, ∃ r : ℝ, b2 i = (r : EReal)) ∧
    (∀ i, ∃ r : ℝ, w2r i = (r : EReal)) ∧
    (∀ e : S800000.Idx,
      0 ≤ (shapeCast S800000 ((extractStridedSlice S1x800000 ![0, 0] · slices_S2x800000_S1x800000_0_0) ei)
            shapeCasts_S1x800000_S800000 e).toInt ∧
      (shapeCast S800000 ((extractStridedSlice S1x800000 ![0, 0] · slices_S2x800000_S1x800000_0_0) ei)
            shapeCasts_S1x800000_S800000 e).toInt < 50000) := by
  have h0 := congrFun h j0
  dsimp only [fn, fn_part1, fn_part2] at h0
  simp only [andi_apply_eq_one] at h0
  obtain ⟨⟨⟨⟨⟨⟨⟨hx, hw1l⟩, hb1⟩, hw1r⟩, hw2l⟩, hb2⟩, hw2r⟩, hei⟩ := h0
  exact ⟨real_of_all x _ _ _ j0 hx, real_of_all w1l _ _ _ j0 hw1l, real_of_all b1 _ _ _ j0 hb1,
    real_of_all w1r _ _ _ j0 hw1r, real_of_all w2l _ _ _ j0 hw2l, real_of_all b2 _ _ _ j0 hb2,
    real_of_all w2r _ _ _ j0 hw2r, range_of_all _ _ _ _ j0 hei⟩

end Cert.PreFacts

end
-- ==== Proof.lean ====
/-
  Two programs for a two-layer mean-aggregation graph network on 50000 nodes and 800000 edges, equal on the
  extended reals.

  Both gather every edge's source row, sum the rows at the edge's destination, scale the sum by the reciprocal
  in-degree, and combine it with the node's own row: `h = max((mean x) W₁ₗ + b₁ + x W₁ᵣ, 0)`, then
  `out = (mean h) W₂ₗ + b₂ + h W₂ᵣ`. The reference computes `(mean h) W₂ₗ` as written; the kernel program projects
  first, `p = h W₂ₗ`, and aggregates the 64-wide rows of `p`: `mean p`. A mean over a node's incoming edges is linear,
  so the two agree — where every number involved is a real number. That is what the precondition gives: every float
  input finite, and every source node id a valid row (a row looked up at an id out of range is a fill value that
  reads as −∞ on the extended reals, where a product no longer distributes over a sum: there the two programs differ).

  The pieces. The kernel program runs two tiled regions between stretches of host operations: its run ends with the
  result at the fold of those stretches and regions from the launch memory; each region's output array is, tile by
  tile, one index-by-index function of the arrays it found; and the host stretches read back to the shared host
  functions of the arguments. The reference is a straight line of host operations whose run is the composition of
  its operations. Both are then compared as functions of the same eight arrays.
-/
import proofs.«153042_j9998683865369_2_alg».proof.Defs
import proofs.«153042_j9998683865369_2_alg».proof.Proof.Gen.Kernel
import proofs.«153042_j9998683865369_2_alg».proof.Proof.Gen.Kernel.Frame
import proofs.«153042_j9998683865369_2_alg».proof.Proof.Gen.KernelIdeal
import proofs.«153042_j9998683865369_2_alg».proof.Proof.Gen.KernelIdeal.Frame
import proofs.«153042_j9998683865369_2_alg».proof.Proof.Gen.ReferenceIdeal
import proofs.«153042_j9998683865369_2_alg».proof.Proof.Gen.Pre_finite_inputs
import proofs.«153042_j9998683865369_2_alg».proof.Proof.KRun
import proofs.«153042_j9998683865369_2_alg».proof.Proof.KValue
import proofs.«153042_j9998683865369_2_alg».proof.Proof.RefRun
import proofs.«153042_j9998683865369_2_alg».proof.Proof.RefBridge
import proofs.«153042_j9998683865369_2_alg».proof.Proof.SageBridge
import proofs.«153042_j9998683865369_2_alg».proof.Proof.PreFacts

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories that agree on the eight arguments, under the precondition, both programs end with the same
    result: the kernel program's is the projected-then-aggregated closed form of its arguments, the reference's the
    whole-array network of its own, and on finite inputs with valid source ids the two are one function. -/
theorem algebraic : Cert.algebraic_KernelIdeal_ReferenceIdeal := by
  intro m ρ m' ρ' hpre hagree
  refine ⟨fun c => Cert.SageHost.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KValue.value m ρ c), (h c).2⟩)
      (Cert.KernelIdeal.KRun.run_value (F := Ideal) m ρ)
  · refine (θ_run Cert.ReferenceIdeal.defs _ _).mono (fun r h c => ⟨(h c).1.trans ?_, (h c).2⟩)
      (Cert.ReferenceIdeal.RefRun.run (F := Ideal) m' ρ')
    obtain ⟨a0, a1, a2, a3, a4, a5, a6, a7⟩ := hagree c
    rw [a0, a1, a2, a3, a4, a5, a6, a7, Cert.ReferenceIdeal.RefBridge.result_eq]
    obtain ⟨hx, hw1l, hb1, hw1r, hw2l, -, -, hsrc⟩ := Cert.PreFacts.of_pre _ _ _ _ _ _ _ _ (hpre c)
    exact Cert.SageHost.network_eq _ _ _ _ _ _ _ _ hx hw1l hb1 hw1r hw2l (fun e => hsrc (ValueIdx.ix1 e))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
